-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S8192x128 : Shape := ⟨2, ![8192, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg14 : FVec F S512x512 .f32) (main_arg15 : FVec F S512 .f32) (main_arg16 : FVec F S512x128 .f32) (main_arg17 : FVec F S128 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x128 .f32 := Host.absf main_arg16
  let main_cst_30 : FVec F S_ .f32 := constant S_ .f32 0x7F800000#32
  let main_v80 : FVec F S512x128 .f32 := broadcastInDim S512x128 ![] bcast_S_S512x128 main_cst_30
  let main_v81 : IVec S512x128 1 := cmpf .olt main_v79 main_v80
  let main_c_31 : IVec S_ 1 := constantI S_ 1 1#1
  let main_v82 : IVec S_ 1 := (fun x v => Host.reduce IntOp.andi x v reducesTo_S512x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128 .f32) (main_arg12 : FVec F S128x512 .f32) (main_arg13 : FVec F S512 .f32) (main_arg14 : FVec F S512x512 .f32) (main_arg15 : FVec F S512 .f32) (main_arg16 : FVec F S512x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x512 .f32 := Host.absf main_arg12
  let main_cst_22 : FVec F S_ .f32 := constant S_ .f32 0x7F800000#32
  let main_v60 : FVec F S128x512 .f32 := broadcastInDim S128x512 ![] bcast_S_S128x512 main_cst_22
  let main_v61 : IVec S128x512 1 := cmpf .olt main_v59 main_v60
  let main_c_23 : IVec S_ 1 := constantI S_ 1 1#1
  let main_v62 : IVec S_ 1 := (fun x v => Host.reduce IntOp.andi x v reducesTo_S128x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_v63 main_v67

def fn_part2 {F : FTy → Type} [FloatOps F] (main_arg7 : FVec F S128 .f32) (main_arg8 : FVec F S128 .f32) (main_arg9 : FVec F S128 .f32) (main_arg10 : FVec F S128 .f32) (main_arg11 : FVec F S128 .f32) (main_arg12 : FVec F S128x512 .f32) (main_arg13 : FVec F S512 .f32) (main_arg14 : FVec F S512x512 .f32) (main_arg15 : FVec F S512 .f32) (main_arg16 : FVec F S512x128 .f32) (main_arg17 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128x512 .f32) (main_arg13 : FVec F S512 .f32) (main_arg14 : FVec F S512x512 .f32) (main_arg15 : FVec F S512 .f32) (main_arg16 : FVec F S512x128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x128 .f32) (main_arg1 : FVec F S8192x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128x512 .f32) (main_arg13 : FVec F S512 .f32) (main_arg14 : FVec F S512x512 .f32) (main_arg15 : FVec F S512 .f32) (main_arg16 : FVec F S512x128 .f32) (main_arg17 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x128 : Shape := ⟨2, ![16384, 128]⟩
abbrev S8192x128 : Shape := ⟨2, ![8192, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S1x128 : Shape := ⟨2, ![1, 128]⟩
abbrev S1024x128 : Shape := ⟨2, ![1024, 128]⟩
abbrev S1024x1 : Shape := ⟨2, ![1024, 1]⟩
abbrev S1024 : Shape := ⟨1, ![1024]⟩
abbrev S128x1024 : Shape := ⟨2, ![128, 1024]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 21
  | .vmem => 30
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x512, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S512x128, .f32⟩
  | .hbm, ⟨17, _⟩ => ⟨S128, .f32⟩
  | .hbm, ⟨18, _⟩ => ⟨S8192x128, .bf16⟩
  | .hbm, ⟨19, _⟩ => ⟨S8192x128, .bf16⟩
  | .hbm, ⟨20, _⟩ => ⟨S16384x128, .f32⟩
  | .local _ .vmem, ⟨0, _⟩ => ⟨S8192x128, .f32⟩
  | .local _ .vmem, ⟨1, _⟩ => ⟨S128, .f32⟩
  | .local _ .vmem, ⟨2, _⟩ => ⟨S128, .f32⟩
  | .local _ .vmem, ⟨3, _⟩ => ⟨S128x128, .f32⟩
  | .local _ .vmem, ⟨4, _⟩ => ⟨S128, .f32⟩
  | .local _ .vmem, ⟨5, _⟩ => ⟨S128x128, .f32⟩
  | .local _ .vmem, ⟨6, _⟩ => ⟨S128, .f32⟩
  | .local _ .vmem, ⟨7, _⟩ => ⟨S8192x128, .bf16⟩
  | .local _ .vmem, ⟨8, _⟩ => ⟨S8192x128, .bf16⟩
  | .local _ .vmem, ⟨9, _⟩ => ⟨S1024x128, .f32⟩
  | .local _ .vmem, ⟨10, _⟩ => ⟨S1024x128, .f32⟩
  | .local _ .vmem, ⟨11, _⟩ => ⟨S8192x128, .bf16⟩
  | .local _ .vmem, ⟨12, _⟩ => ⟨S8192x128, .bf16⟩
  | .local _ .vmem, ⟨13, _⟩ => ⟨S128x128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128x512, .f32⟩
  | .local _ .vmem, ⟨18, _⟩ => ⟨S512, .f32⟩
  | .local _ .vmem, ⟨19, _⟩ => ⟨S512x512, .f32⟩
  | .local _ .vmem, ⟨20, _⟩ => ⟨S512, .f32⟩
  | .local _ .vmem, ⟨21, _⟩ => ⟨S512x128, .f32⟩
  | .local _ .vmem, ⟨22, _⟩ => ⟨S128, .f32⟩
  | .local _ .vmem, ⟨23, _⟩ => ⟨S1024x128, .f32⟩
  | .local _ .vmem, ⟨24, _⟩ => ⟨S1024x128, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | .local _ .vmem, ⟨28, _⟩ => ⟨S1024x128, .f32⟩
  | .local _ .vmem, ⟨29, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg13_1 : Ref sig .tc := ⟨.vmem, 24, rfl⟩
abbrev cc1_scratch0 : Ref sig .tc := ⟨.vmem, 25, rfl⟩
abbrev cc1_scratch1 : Ref sig .tc := ⟨.vmem, 26, rfl⟩
abbrev cc1_scratch2 : Ref sig .tc := ⟨.vmem, 27, rfl⟩
abbrev cc1_scratch3 : Ref sig .tc := ⟨.vmem, 28, rfl⟩
abbrev cc1_scratch4 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem13_1 : DmaSem sig := 24

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8192x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8192x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S1024x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  inb_S8192x128_S8192x128_0_0 : ∀ a, (![0, 0] : Fin 2 → Nat) a + S8192x128.size a ≤ S8192x128.size a
  h_S8192x128 : 0 < S8192x128.numel
  reduces_S8192x128_S128 : S8192x128.Reduces [0] S128
  shapeCasts_S128_S1x128 : S128.ShapeCasts S1x128
  broadcasts_S1x128_S8192x128 : S1x128.Broadcasts S8192x128
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S8192x128_S8192x128_0_0 : (Rect.unit (s := S8192x128) ![0, 0] S8192x128.size inb_S8192x128_S8192x128_0_0).PackedRows (EltTy.packing .bf16)
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  broadcasts_S1x128_S1024x128 : S1x128.Broadcasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x128_S1024x128 : S1024x128.ShapeCasts S1024x128
  inb_S8192x128_S1024x128_0_0 : ∀ a, (![0, 0] : Fin 2 → Nat) a + S1024x128.size a ≤ S8192x128.size a
  transposes_S1024x128_p1_0_S128x1024 : S1024x128.Transposes [1, 0] S128x1024
  reduces_S1024x1024_S1024 : S1024x1024.Reduces [1] S1024
  broadcasts_S1024x1_S1024x1024 : S1024x1.Broadcasts S1024x1024
  inb_S8192x128_S1024x128_1024_0 : ∀ a, (![1024, 0] : Fin 2 → Nat) a + S1024x128.size a ≤ S8192x128.size a
  inb_S8192x128_S1024x128_2048_0 : ∀ a, (![2048, 0] : Fin 2 → Nat) a + S1024x128.size a ≤ S8192x128.size a
  inb_S8192x128_S1024x128_3072_0 : ∀ a, (![3072, 0] : Fin 2 → Nat) a + S1024x128.size a ≤ S8192x128.size a
  inb_S8192x128_S1024x128_4096_0 : ∀ a, (![4096, 0] : Fin 2 → Nat) a + S1024x128.size a ≤ S8192x128.size a
  inb_S8192x128_S1024x128_5120_0 : ∀ a, (![5120, 0] : Fin 2 → Nat) a + S1024x128.size a ≤ S8192x128.size a
  inb_S8192x128_S1024x128_6144_0 : ∀ a, (![6144, 0] : Fin 2 → Nat) a + S1024x128.size a ≤ S8192x128.size a
  inb_S8192x128_S1024x128_7168_0 : ∀ a, (![7168, 0] : Fin 2 → Nat) a + S1024x128.size a ≤ S8192x128.size a
  inb_S128x512_S128x512_0_0 : ∀ a, (![0, 0] : Fin 2 → Nat) a + S128x512.size a ≤ S128x512.size a
  h_S128x512 : 0 < S128x512.numel
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  dot_S8192x128_S128x128_S8192x128_1_0_0_1_n_n_wf : DotDims.WF S8192x128 S128x128 S8192x128 [1] [0] [0] [1] [] []
  dot_S1024x128_S128x128_S1024x128_1_0_0_1_n_n_wf : DotDims.WF S1024x128 S128x128 S1024x128 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8192x128.size a ≤ S8192x128.size a
  hwx0_7 : ∀ i : grid0.Coords, EltTy.bits .bf16 = 32 ∨ (Rect.block (s := S8192x128) S8192x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8192x128.size a ≤ S8192x128.size a
  hwx0_8 : ∀ i : grid0.Coords, EltTy.bits .bf16 = 32 ∨ (Rect.block (s := S8192x128) S8192x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S16384x128.size a
  hwx1_0 : ∀ i : grid1.Coords, EltTy.bits .f32 = 32 ∨ (Rect.block (s := S16384x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x128.size a
  hwx1_2 : ∀ i : grid1.Coords, EltTy.bits .bf16 = 32 ∨ (Rect.block (s := S8192x128) S8192x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x512.size a ≤ S128x512.size a
  hwx1_7 : ∀ i : grid1.Coords, EltTy.bits .f32 = 32 ∨ (Rect.block (s := S128x512) S128x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512.size a ≤ S512.size a
  hwx1_8 : ∀ i : grid1.Coords, EltTy.bits .f32 = 32 ∨ (Rect.block (s := S512) S512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x512.size a ≤ S512x512.size a
  hwx1_9 : ∀ i : grid1.Coords, EltTy.bits .f32 = 32 ∨ (Rect.block (s := S512x512) S512x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512.size a ≤ S512.size a
  hwx1_10 : ∀ i : grid1.Coords, EltTy.bits .f32 = 32 ∨ (Rect.block (s := S512) S512.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S512x128.size a ≤ S512x128.size a
  hwx1_11 : ∀ i : grid1.Coords, EltTy.bits .f32 = 32 ∨ (Rect.block (s := S512x128) S512x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1024x128.size a ≤ S16384x128.size a
  hwx1_13 : ∀ i : grid1.Coords, EltTy.bits .f32 = 32 ∨ (Rect.block (s := S16384x128) S1024x128.size (cc1_transform_13 i) (hinb1_13 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg1) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S8192x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S8192x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S8192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S128x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S512x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg15) S512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg16) S512x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg17) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v1) S1024x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S16384x128 : Shape := ⟨2, ![16384, 128]⟩
abbrev S8192x128 : Shape := ⟨2, ![8192, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S_ : Shape := ⟨0, ![]⟩
abbrev S16384 : Shape := ⟨1, ![16384]⟩
abbrev S16384x1 : Shape := ⟨2, ![16384, 1]⟩
abbrev S1x128 : Shape := ⟨2, ![1, 128]⟩
abbrev S128x8192 : Shape := ⟨2, ![128, 8192]⟩
abbrev S16384x8192 : Shape := ⟨2, ![16384, 8192]⟩
abbrev S16384x512 : Shape := ⟨2, ![16384, 512]⟩
abbrev S1x512 : Shape := ⟨2, ![1, 512]⟩

abbrev nBuf : Space → Nat
  | .hbm => 166
  | .vmem => 0
  | .smem => 0
  | _ => 0

abbrev hbmTy0_0 (i : Nat) : BufTy := match i % 128 with
  | 0 => ⟨S16384x128, .f32⟩
  | 1 => ⟨S8192x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S128x512, .f32⟩
  | 13 => ⟨S512, .f32⟩
  | 14 => ⟨S512x512, .f32⟩
  | 15 => ⟨S512, .f32⟩
  | 16 => ⟨S512x128, .f32⟩
  | 17 => ⟨S128, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S16384x128, .f32⟩
  | 25 => ⟨S16384x128, .f32⟩
  | 26 => ⟨S16384x128, .f32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S16384x128, .f32⟩
  | 34 => ⟨S16384x128, .f32⟩
  | 35 => ⟨S_, .f32⟩
  | 36 => ⟨S16384x1, .f32⟩
  | 37 => ⟨S16384x1, .f32⟩
  | 38 => ⟨S16384x1, .f32⟩
  | 39 => ⟨S16384x128, .f32⟩
  | 40 => ⟨S16384x128, .f32⟩
  | 41 => ⟨S1x128, .f32⟩
  | 42 => ⟨S16384x128, .f32⟩
  | 43 => ⟨S16384x128, .f32⟩
  | 44 => ⟨S1x128, .f32⟩
  | 45 => ⟨S16384x128, .f32⟩
  | 46 => ⟨S16384x128, .f32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S8192x128, .f32⟩
  | 54 => ⟨S8192x128, .f32⟩
  | 55 => ⟨S8192x128, .f32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S8192x128, .f32⟩
  | 63 => ⟨S8192x128, .f32⟩
  | 64 => ⟨S_, .f32⟩
  | 65 => ⟨S1x128, .f32⟩
  | 66 => ⟨S1x128, .f32⟩
  | 67 => ⟨S1x128, .f32⟩
  | 68 => ⟨S8192x128, .f32⟩
  | 69 => ⟨S8192x128, .f32⟩
  | 70 => ⟨S1x128, .f32⟩
  | 71 => ⟨S8192x128, .f32⟩
  | 72 => ⟨S8192x128, .f32⟩
  | 73 => ⟨S1x128, .f32⟩
  | 74 => ⟨S8192x128, .f32⟩
  | 75 => ⟨S8192x128, .f32⟩
  | 76 => ⟨S16384x128, .f32⟩
  | 77 => ⟨S1x128, .f32⟩
  | 78 => ⟨S16384x128, .f32⟩
  | 79 => ⟨S16384x128, .f32⟩
  | 80 => ⟨S8192x128, .f32⟩
  | 81 => ⟨S1x128, .f32⟩
  | 82 => ⟨S8192x128, .f32⟩
  | 83 => ⟨S8192x128, .f32⟩
  | 84 => ⟨S8192x128, .f32⟩
  | 85 => ⟨S1x128, .f32⟩
  | 86 => ⟨S8192x128, .f32⟩
  | 87 => ⟨S8192x128, .f32⟩
  | 88 => ⟨S128x8192, .f32⟩
  | 89 => ⟨S16384x8192, .f32⟩
  | 90 => ⟨S_, .f32⟩
  | 91 => ⟨S16384, .f32⟩
  | 92 => ⟨S_, .f32⟩
  | 93 => ⟨S16384, .f32⟩
  | 94 => ⟨S16384, .f32⟩
  | 95 => ⟨S16384x1, .f32⟩
  | 96 => ⟨S16384x8192, .f32⟩
  | 97 => ⟨S16384x8192, .f32⟩
  | 98 => ⟨S16384x8192, .f32⟩
  | 99 => ⟨S_, .f32⟩
  | 100 => ⟨S16384, .f32⟩
  | 101 => ⟨S16384x1, .f32⟩
  | 102 => ⟨S16384x8192, .f32⟩
  | 103 => ⟨S16384x8192, .f32⟩
  | 104 => ⟨S_, .f32⟩
  | 105 => ⟨S16384x8192, .f32⟩
  | 106 => ⟨S16384x8192, .f32⟩
  | 107 => ⟨S_, .f32⟩
  | 108 => ⟨S16384x8192, .f32⟩
  | 109 => ⟨S16384x8192, .f32⟩
  | 110 => ⟨S16384x8192, .f32⟩
  | 111 => ⟨S_, .f32⟩
  | 112 => ⟨S16384, .f32⟩
  | 113 => ⟨S16384x1, .f32⟩
  | 114 => ⟨S16384x8192, .f32⟩
  | 115 => ⟨S16384x8192, .f32⟩
  | 116 => ⟨S16384x128, .f32⟩
  | 117 => ⟨S16384x128, .f32⟩
  | 118 => ⟨S_, .f32⟩
  | 119 => ⟨S16384, .f32⟩
  | 120 => ⟨S16384x1, .f32⟩
  | 121 => ⟨S_, .f32⟩
  | 122 => ⟨S16384x1, .f32⟩
  | 123 => ⟨S16384x1, .f32⟩
  | 124 => ⟨S16384x128, .f32⟩
  | 125 => ⟨S16384x128, .f32⟩
  | 126 => ⟨S16384x128, .f32⟩
  | 127 => ⟨S_, .f32⟩
  | _ => ⟨S16384x128, .f32⟩

abbrev hbmTy0_1 (i : Nat) : BufTy := match i % 128 with
  | 0 => ⟨S16384, .f32⟩
  | 1 => ⟨S16384x1, .f32⟩
  | 2 => ⟨S_, .f32⟩
  | 3 => ⟨S16384x1, .f32⟩
  | 4 => ⟨S16384x1, .f32⟩
  | 5 => ⟨S16384x128, .f32⟩
  | 6 => ⟨S16384x128, .f32⟩
  | 7 => ⟨S_, .f32⟩
  | 8 => ⟨S16384x1, .f32⟩
  | 9 => ⟨S16384x1, .f32⟩
  | 10 => ⟨S16384x1, .f32⟩
  | 11 => ⟨S16384x128, .f32⟩
  | 12 => ⟨S16384x128, .f32⟩
  | 13 => ⟨S1x128, .f32⟩
  | 14 => ⟨S16384x128, .f32⟩
  | 15 => ⟨S16384x128, .f32⟩
  | 16 => ⟨S1x128, .f32⟩
  | 17 => ⟨S16384x128, .f32⟩
  | 18 => ⟨S16384x128, .f32⟩
  | 19 => ⟨S16384x512, .f32⟩
  | 20 => ⟨S1x512, .f32⟩
  | 21 => ⟨S16384x512, .f32⟩
  | 22 => ⟨S16384x512, .f32⟩
  | 23 => ⟨S_, .f32⟩
  | 24 => ⟨S16384x512, .f32⟩
  | 25 => ⟨S16384x512, .f32⟩
  | 26 => ⟨S16384x512, .f32⟩
  | 27 => ⟨S1x512, .f32⟩
  | 28 => ⟨S16384x512, .f32⟩
  | 29 => ⟨S16384x512, .f32⟩
  | 30 => ⟨S_, .f32⟩
  | 31 => ⟨S16384x512, .f32⟩
  | 32 => ⟨S16384x512, .f32⟩
  | 33 => ⟨S16384x128, .f32⟩
  | 34 => ⟨S1x128, .f32⟩
  | 35 => ⟨S16384x128, .f32⟩
  | 36 => ⟨S16384x128, .f32⟩
  | 37 => ⟨S16384x128, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call0_cst : Ref sig .tc := ⟨.hbm, 104, rfl⟩
abbrev main_call0_v0 : Ref sig .tc := ⟨.hbm, 105, rfl⟩
abbrev main_v73 : Ref sig .tc := ⟨.hbm, 106, rfl⟩
abbrev main_cst_12 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_13 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_14 : Ref sig .tc := ⟨.hbm, 118, rfl⟩
abbrev main_v83 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_16 : Ref sig .tc := ⟨.hbm, 127, rfl⟩
abbrev main_v90 : Ref sig .tc := ⟨.hbm, 128, rfl⟩
abbrev main_v91 : Ref sig .tc := ⟨.hbm, 129, rfl⟩
abbrev main_cst_17 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_18 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_call1_cst : Ref sig .tc := ⟨.hbm, 151, rfl⟩
abbrev main_call1_v0 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_call2_cst : Ref sig .tc := ⟨.hbm, 158, rfl⟩
abbrev main_call2_v0 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S8192x128_S128_d0 : S8192x128.ReducesTo [0] S128
  bcast_S_S1x128 : S_.BroadcastsInDim S1x128 (![] : Fin 0 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  reducesTo_S16384x8192_S16384_d1 : S16384x8192.ReducesTo [1] S16384
  bcast_S_S16384 : S_.BroadcastsInDim S16384 (![] : Fin 0 → Fin S16384.rank)
  bcast_S16384x1_S16384x8192_0_1 : S16384x1.BroadcastsInDim S16384x8192 (![0, 1] : Fin 2 → Fin S16384x8192.rank)
  bcast_S_S16384x8192 : S_.BroadcastsInDim S16384x8192 (![] : Fin 0 → Fin S16384x8192.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  dot_S16384x128_S128x128_S16384x128_1_0_0_1_n_n_wf : DotDims.WF S16384x128 S128x128 S16384x128 [1] [0] [0] [1] [] []
  dot_S8192x128_S128x128_S8192x128_1_0_0_1_n_n_wf : DotDims.WF S8192x128 S128x128 S8192x128 [1] [0] [0] [1] [] []
  dot_S16384x128_S128x8192_S16384x8192_1_0_0_1_n_n_wf : DotDims.WF S16384x128 S128x8192 S16384x8192 [1] [0] [0] [1] [] []
  dot_S16384x8192_S8192x128_S16384x128_1_0_0_1_n_n_wf : DotDims.WF S16384x8192 S8192x128 S16384x128 [1] [0] [0] [1] [] []
  dot_S16384x128_S128x512_S16384x512_1_0_0_1_n_n_wf : DotDims.WF S16384x128 S128x512 S16384x512 [1] [0] [0] [1] [] []
  dot_S16384x512_S512x512_S16384x512_1_0_0_1_n_n_wf : DotDims.WF S16384x512 S512x512 S16384x512 [1] [0] [0] [1] [] []
  dot_S16384x512_S512x128_S16384x128_1_0_0_1_n_n_wf : DotDims.WF S16384x512 S512x128 S16384x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S16384x128_S128x8192_S16384x8192_1_0_0_1_n_n : DotDims S16384x128 S128x8192 S16384x8192 where
  lhsContracting := [1]
  rhsContracting := [0]
  lhsNonContracting := [0]
  rhsNonContracting := [1]
  lhsBatch := []
  rhsBatch := []
  wf := dot_S16384x128_S128x8192_S16384x8192_1_0_0_1_n_n_wf
def dot_S16384x8192_S8192x128_S16384x128_1_0_0_1_n_n : DotDims S16384x8192 S8192x128 S16384x128 where
  lhsContracting := [1]
  rhsContracting := [0]
  lhsNonContracting := [0]
  rhsNonContracting := [1]
  lhsBatch := []
  rhsBatch := []
  wf := dot_S16384x8192_S8192x128_S16384x128_1_0_0_1_n_n_wf
def dot_S16384x128_S128x512_S16384x512_1_0_0_1_n_n : DotDims S16384x128 S128x512 S16384x512 where
  lhsContracting := [1]
  rhsContracting := [0]
  lhsNonContracting := [0]
  rhsNonContracting := [1]
  lhsBatch := []
  rhsBatch := []
  wf := dot_S16384x128_S128x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf

class Facts : Prop extends Facts₀ where

variable [Facts]
-- ==== Proof.KRun.lean ====
/-
  The idealized kernel's run with its result named: every weakly fair execution terminates without a fault, the
  arguments end as launched, and the result array ends at what the second region's write-backs leave (`W2`).
-/
import proofs.«161096_j60911226192506_2_alg».proof.Proof.Gen.KernelIdeal.Frame

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v1) = W2 m ρ c (Proc.devRef .tc main_v1)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c),
       (h c _ (mem_uc main_arg9 (by decide))).trans (W2_main_arg9 m ρ c),
       (h c _ (mem_uc main_arg10 (by decide))).trans (W2_main_arg10 m ρ c),
       (h c _ (mem_uc main_arg11 (by decide))).trans (W2_main_arg11 m ρ c),
       (h c _ (mem_uc main_arg12 (by decide))).trans (W2_main_arg12 m ρ c),
       (h c _ (mem_uc main_arg13 (by decide))).trans (W2_main_arg13 m ρ c),
       (h c _ (mem_uc main_arg14 (by decide))).trans (W2_main_arg14 m ρ c),
       (h c _ (mem_uc main_arg15 (by decide))).trans (W2_main_arg15 m ρ c),
       (h c _ (mem_uc main_arg16 (by decide))).trans (W2_main_arg16 m ρ c),
       (h c _ (mem_uc main_arg17 (by decide))).trans (W2_main_arg17 m ρ c)⟩)

end Cert.KernelIdeal.Value

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.LibLnAt.lean ====
/-
  Layer normalisation along the last axis, read at one entry.

  For a row o : Fin D → EReal, a scale row g and a shift row be, the normalised row at q is
      (o q − μ) · rsqrt (σ² + ε) · g q + be q,    μ = (∑ k, o k) / d,    σ² = (∑ k, (o k − μ)²) / d,
  with the divisor d and the offset ε given by their f32 words. Two spellings of that function occur. A tile's: the
  row sums taken by a reduction along axis 1 that keeps its dimension (the [T] result re-laid as a column [T, 1]
  and spread back over the lanes), the scale and shift given as one-row blocks [1, D]. The host's: the row sums by
  a reduce from a zero initial value, the mean taken once for the centring and once more inside the variance, the
  variance's divisor the word minus an integer count of zero and guarded by a comparison with zero, the scale and
  shift given as vectors [D] made rows by a broadcast. At the ideal values every operation is exact, so each
  spelling reads the formula above at every entry; the only facts used are that zero added to a sum, and zero
  subtracted from the divisor, change nothing, and (for the host's guard) that the divisor is positive. Nothing
  here needs the entries to be finite.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«161096_j60911226192506_2_alg».proof.Proof.LibKeepdims
import proofs.«161096_j60911226192506_2_alg».proof.Proof.LibMlpAt

noncomputable section

open scoped BigOperators

namespace Cert.Ln

open Idealize.ShloMosaic Idealize.ShloMosaic.ValueIdx Cert.Lib.Keepdims

/-! ## The value -/

/-- The mean of a row: its sum over the divisor. -/
def mean {D : Nat} (dw : BitVec 32) (o : Fin D → Ideal .f32) : Ideal .f32 :=
  Ideal.div (∑ k : Fin D, o k) (Ideal.ofBits .f32 dw)

/-- The (biased) variance of a row: the mean of the squared distances from the mean. -/
def var {D : Nat} (dw : BitVec 32) (o : Fin D → Ideal .f32) : Ideal .f32 :=
  Ideal.div (∑ k : Fin D, (o k - mean dw o) * (o k - mean dw o)) (Ideal.ofBits .f32 dw)

/-- The normalised row at q, scaled by g and shifted by be. -/
def lnVal {D : Nat} (dw ew : BitVec 32) (o g be : Fin D → Ideal .f32) (q : Fin D) : Ideal .f32 :=
  (o q - mean dw o) * Ideal.rsqrt (var dw o + Ideal.ofBits .f32 ew) * g q + be q

/-- The value depends only on the three rows. -/
theorem lnVal_congr {D : Nat} (dw ew : BitVec 32) {o o' g g' be be' : Fin D → Ideal .f32}
    (ho : ∀ k, o k = o' k) (hg : ∀ k, g k = g' k) (hbe : ∀ k, be k = be' k) (q : Fin D) :
    lnVal dw ew o g be q = lnVal dw ew o' g' be' q := by
  rw [funext ho, funext hg, funext hbe]

/-- The word of 256.0 is the real 256, which is positive. -/
theorem ofBits_256 : Ideal.ofBits .f32 0x43800000#32 = ((256 : ℝ) : EReal) := by
  simp [Ideal.ofBits, Ideal.ieee, -EReal.coe_mul]; norm_num

theorem ofBits_256_pos : (0 : EReal) < Ideal.ofBits .f32 0x43800000#32 := by
  rw [ofBits_256]; exact EReal.coe_pos.mpr (by norm_num)

/-! ## A tile's spelling -/

section Tile

variable {T D : Nat}

/-- A reduction of [T, D] along axis 1 at row p: the sum of the row. -/
theorem rowSum_at (hr : (⟨2, ![T, D]⟩ : Shape).Reduces [1] ⟨1, ![T]⟩) (hφ : FKind.Formats .f32)
    (hacc : (0x00000000#32 : BitVec 32) = FKind.add.neutral .f32 hφ) (v : FVec Ideal ⟨2, ![T, D]⟩ .f32) (p : Fin T) :
    multiReduction .add [1] ⟨1, ![T]⟩ v 0x00000000#32 hr hφ hacc (ix1 p) = ∑ k : Fin D, v (ix2 p k) := by
  refine (Ideal.multiReduction_add_single v _ hr hφ hacc (ix1 p)).trans ?_
  exact Finset.sum_congr rfl fun k _ => congrArg v (lift_axis1 hr p k)

/-- The reciprocal square root of a block, at an entry. -/
theorem rsqrt_at {s : Shape} {φ : FTy} (v : FVec Ideal s φ) (i : s.Idx) : rsqrt v i = Ideal.rsqrt (v i) := rfl

/-- The row means as a column [T, 1]: the row sums, re-laid as a column, over the splat divisor. -/
def tileMean (dw : BitVec 32) (hr : (⟨2, ![T, D]⟩ : Shape).Reduces [1] ⟨1, ![T]⟩)
    (hc : (⟨1, ![T]⟩ : Shape).ShapeCasts ⟨2, ![T, 1]⟩) (hφ : FKind.Formats .f32)
    (hacc : (0x00000000#32 : BitVec 32) = FKind.add.neutral .f32 hφ) (o : FVec Ideal ⟨2, ![T, D]⟩ .f32) :
    FVec Ideal ⟨2, ![T, 1]⟩ .f32 :=
  divf (shapeCast ⟨2, ![T, 1]⟩ (multiReduction .add [1] ⟨1, ![T]⟩ o 0x00000000#32 hr hφ hacc) hc)
    (broadcast ⟨2, ![T, 1]⟩ (Scalar.ofBits (F := Ideal) .f32 dw))

theorem tileMean_at (dw : BitVec 32) (hr : (⟨2, ![T, D]⟩ : Shape).Reduces [1] ⟨1, ![T]⟩)
    (hc : (⟨1, ![T]⟩ : Shape).ShapeCasts ⟨2, ![T, 1]⟩) (hφ : FKind.Formats .f32)
    (hacc : (0x00000000#32 : BitVec 32) = FKind.add.neutral .f32 hφ) (o : FVec Ideal ⟨2, ![T, D]⟩ .f32)
    (p : Fin T) (u : Fin 1) :
    tileMean dw hr hc hφ hacc o (ix2 p u) = Ideal.div (∑ k : Fin D, o (ix2 p k)) (Ideal.ofBits .f32 dw) := by
  unfold tileMean
  rw [divf_apply, shapeCast_a_a1_apply, rowSum_at, broadcast_apply]
  rfl

/-- The centred block: each entry minus its row's mean, the column of means spread over the lanes. -/
def tileCenter (dw : BitVec 32) (hr : (⟨2, ![T, D]⟩ : Shape).Reduces [1] ⟨1, ![T]⟩)
    (hc : (⟨1, ![T]⟩ : Shape).ShapeCasts ⟨2, ![T, 1]⟩) (hs : (⟨2, ![T, 1]⟩ : Shape).Broadcasts ⟨2, ![T, D]⟩)
    (hφ : FKind.Formats .f32) (hacc : (0x00000000#32 : BitVec 32) = FKind.add.neutral .f32 hφ)
    (o : FVec Ideal ⟨2, ![T, D]⟩ .f32) : FVec Ideal ⟨2, ![T, D]⟩ .f32 :=
  subf o (broadcastTo ⟨2, ![T, D]⟩ (tileMean dw hr hc hφ hacc o) hs)

theorem tileCenter_at (dw : BitVec 32) (hr : (⟨2, ![T, D]⟩ : Shape).Reduces [1] ⟨1, ![T]⟩)
    (hc : (⟨1, ![T]⟩ : Shape).ShapeCasts ⟨2, ![T, 1]⟩) (hs : (⟨2, ![T, 1]⟩ : Shape).Broadcasts ⟨2, ![T, D]⟩)
    (hφ : FKind.Formats .f32) (hacc : (0x00000000#32 : BitVec 32) = FKind.add.neutral .f32 hφ)
    (o : FVec Ideal ⟨2, ![T, D]⟩ .f32) (p : Fin T) (q : Fin D) :
    tileCenter dw hr hc hs hφ hacc o (ix2 p q) = o (ix2 p q) - mean dw (fun k => o (ix2 p k)) := by
  unfold tileCenter mean
  rw [subf_apply, broadcastTo_a1_ab_apply, tileMean_at]

/-- A tile's spelling: centre; the mean of the squares of the centred block plus the splat offset, its reciprocal
    square root spread over the lanes; the product scaled and shifted by the one-row blocks. -/
def lnTile (dw ew : BitVec 32) (hr : (⟨2, ![T, D]⟩ : Shape).Reduces [1] ⟨1, ![T]⟩)
    (hc : (⟨1, ![T]⟩ : Shape).ShapeCasts ⟨2, ![T, 1]⟩) (hs : (⟨2, ![T, 1]⟩ : Shape).Broadcasts ⟨2, ![T, D]⟩)
    (hb : (⟨2, ![1, D]⟩ : Shape).Broadcasts ⟨2, ![T, D]⟩)
    (hφ : FKind.Formats .f32) (hacc : (0x00000000#32 : BitVec 32) = FKind.add.neutral .f32 hφ)
    (o : FVec Ideal ⟨2, ![T, D]⟩ .f32) (g be : FVec Ideal ⟨2, ![1, D]⟩ .f32) : FVec Ideal ⟨2, ![T, D]⟩ .f32 :=
  addf (mulf (mulf (tileCenter dw hr hc hs hφ hacc o)
        (broadcastTo ⟨2, ![T, D]⟩
          (rsqrt (addf (tileMean dw hr hc hφ hacc (mulf (tileCenter dw hr hc hs hφ hacc o) (tileCenter dw hr hc hs hφ hacc o)))
            (broadcast ⟨2, ![T, 1]⟩ (Scalar.ofBits (F := Ideal) .f32 ew)))) hs))
      (broadcastTo ⟨2, ![T, D]⟩ g hb))
    (broadcastTo ⟨2, ![T, D]⟩ be hb)

theorem lnTile_at (dw ew : BitVec 32) (hr : (⟨2, ![T, D]⟩ : Shape).Reduces [1] ⟨1, ![T]⟩)
    (hc : (⟨1, ![T]⟩ : Shape).ShapeCasts ⟨2, ![T, 1]⟩) (hs : (⟨2, ![T, 1]⟩ : Shape).Broadcasts ⟨2, ![T, D]⟩)
    (hb : (⟨2, ![1, D]⟩ : Shape).Broadcasts ⟨2, ![T, D]⟩)
    (hφ : FKind.Formats .f32) (hacc : (0x00000000#32 : BitVec 32) = FKind.add.neutral .f32 hφ)
    (o : FVec Ideal ⟨2, ![T, D]⟩ .f32) (g be : FVec Ideal ⟨2, ![1, D]⟩ .f32) (p : Fin T) (q : Fin D) :
    lnTile dw ew hr hc hs hb hφ hacc o g be (ix2 p q)
      = lnVal dw ew (fun k => o (ix2 p k)) (fun k => g (ix2 (0 : Fin 1) k)) (fun k => be (ix2 (0 : Fin 1) k)) q := by
  unfold lnTile lnVal var
  rw [addf_apply, mulf_apply, mulf_apply, tileCenter_at, broadcastTo_a1_ab_apply, broadcastTo_1b_ab_apply,
    broadcastTo_1b_ab_apply, rsqrt_at, addf_apply, tileMean_at, broadcast_apply]
  refine congrArg (fun s => (o (ix2 p q) - mean dw (fun k => o (ix2 p k)))
    * Ideal.rsqrt (Ideal.div s (Ideal.ofBits .f32 dw) + Ideal.ofBits .f32 ew) * g (ix2 (0 : Fin 1) q) + be (ix2 (0 : Fin 1) q)) ?_
  refine Finset.sum_congr rfl fun k _ => ?_
  rw [mulf_apply, tileCenter_at]

end Tile

/-! ## The host's spelling -/

section Host

variable {N D : Nat}

/-- A vector [N] made a column [N, 1] reads, at (r, u), the vector at r. -/
theorem bcastCol_at {α : Type} (h : (⟨1, ![N]⟩ : Shape).BroadcastsInDim ⟨2, ![N, 1]⟩ (![0] : Fin 1 → Fin 2))
    (v : (⟨1, ![N]⟩ : Shape).Idx → α) (r : Fin N) (u : Fin 1) :
    broadcastInDim ⟨2, ![N, 1]⟩ (![0] : Fin 1 → Fin 2) h v (ix2 r u) = v (ix1 r) := by
  refine broadcastInDim_apply _ h v (ix2 r u) (ix1 r) fun ax => ?_
  match ax with
  | ⟨0, _⟩ =>
    show r.val = if N = 1 then 0 else r.val
    split
    · have := r.isLt; omega
    · rfl

/-- A column [N, 1] spread over the lanes of [N, D] reads, at (r, q), the column's entry of row r. -/
theorem bcastSpread_at {α : Type} (h : (⟨2, ![N, 1]⟩ : Shape).BroadcastsInDim ⟨2, ![N, D]⟩ (![0, 1] : Fin 2 → Fin 2))
    (v : (⟨2, ![N, 1]⟩ : Shape).Idx → α) (r : Fin N) (q : Fin D) :
    broadcastInDim ⟨2, ![N, D]⟩ (![0, 1] : Fin 2 → Fin 2) h v (ix2 r q) = v (ix2 r (0 : Fin 1)) := by
  refine broadcastInDim_apply _ h v (ix2 r q) (ix2 r (0 : Fin 1)) fun ax => ?_
  match ax with
  | ⟨0, _⟩ =>
    show r.val = if N = 1 then 0 else r.val
    split
    · have := r.isLt; omega
    · rfl
  | ⟨1, _⟩ => rfl

/-- A vector [D] made a row [1, D] reads, at (u, i), the vector at i. -/
theorem bcastVecRow_at {α : Type} (h : (⟨1, ![D]⟩ : Shape).BroadcastsInDim ⟨2, ![1, D]⟩ (![1] : Fin 1 → Fin 2))
    (v : (⟨1, ![D]⟩ : Shape).Idx → α) (u : Fin 1) (i : Fin D) :
    broadcastInDim ⟨2, ![1, D]⟩ (![1] : Fin 1 → Fin 2) h v (ix2 u i) = v (ix1 i) := by
  refine broadcastInDim_apply _ h v (ix2 u i) (ix1 i) fun ax => ?_
  match ax with
  | ⟨0, _⟩ =>
    show i.val = if D = 1 then 0 else i.val
    split
    · have := i.isLt; omega
    · rfl

/-- The host's reduce of [N, D] along axis 1 from a zero initial value, at row r: the sum of the row. -/
theorem hostRowSum_at (hR : (⟨2, ![N, D]⟩ : Shape).ReducesTo [1] ⟨1, ![N]⟩) (hr : (⟨2, ![N, D]⟩ : Shape).Reduces [1] ⟨1, ![N]⟩)
    (h0 : 0 < (⟨0, ![]⟩ : Shape).numel) (v : FVec Ideal ⟨2, ![N, D]⟩ .f32) (r : Fin N) :
    Host.reduceAdd v (constant (F := Ideal) ⟨0, ![]⟩ .f32 0x00000000#32) hR h0 (ix1 r) = ∑ k : Fin D, v (ix2 r k) := by
  rw [hostReduceAdd_apply]
  refine (Ideal.hostReduceAdd_single hR hr v _ (ix1 r)).trans ?_
  rw [constant_apply, Ideal.ofBits_zero_f32, zero_add]
  exact Finset.sum_congr rfl fun k _ => congrArg v (lift_axis1 hr r k)

/-- The host's row means as a column [N, 1]: the row sums, made a column, over the divisor broadcast from a scalar. -/
def hostMean (dw : BitVec 32) (hR : (⟨2, ![N, D]⟩ : Shape).ReducesTo [1] ⟨1, ![N]⟩) (h0 : 0 < (⟨0, ![]⟩ : Shape).numel)
    (hcol : (⟨1, ![N]⟩ : Shape).BroadcastsInDim ⟨2, ![N, 1]⟩ (![0] : Fin 1 → Fin 2))
    (hz1 : (⟨0, ![]⟩ : Shape).BroadcastsInDim ⟨2, ![N, 1]⟩ (![] : Fin 0 → Fin 2))
    (o : FVec Ideal ⟨2, ![N, D]⟩ .f32) : FVec Ideal ⟨2, ![N, 1]⟩ .f32 :=
  Host.divf (broadcastInDim ⟨2, ![N, 1]⟩ (![0] : Fin 1 → Fin 2) hcol
      (Host.reduceAdd o (constant (F := Ideal) ⟨0, ![]⟩ .f32 0x00000000#32) hR h0))
    (broadcastInDim ⟨2, ![N, 1]⟩ (![] : Fin 0 → Fin 2) hz1 (constant (F := Ideal) ⟨0, ![]⟩ .f32 dw))

theorem hostMean_at (dw : BitVec 32) (hR : (⟨2, ![N, D]⟩ : Shape).ReducesTo [1] ⟨1, ![N]⟩)
    (hr : (⟨2, ![N, D]⟩ : Shape).Reduces [1] ⟨1, ![N]⟩) (h0 : 0 < (⟨0, ![]⟩ : Shape).numel)
    (hcol : (⟨1, ![N]⟩ : Shape).BroadcastsInDim ⟨2, ![N, 1]⟩ (![0] : Fin 1 → Fin 2))
    (hz1 : (⟨0, ![]⟩ : Shape).BroadcastsInDim ⟨2, ![N, 1]⟩ (![] : Fin 0 → Fin 2))
    (o : FVec Ideal ⟨2, ![N, D]⟩ .f32) (r : Fin N) (u : Fin 1) :
    hostMean dw hR h0 hcol hz1 o (ix2 r u) = mean dw (fun k => o (ix2 r k)) := by
  unfold hostMean mean
  rw [hostDivf_apply, bcastCol_at, hostRowSum_at hR hr, Cert.Mlp.bcastScalar_at, constant_apply]

/-- The host's row variances as a column [N, 1]: the mean taken again, the squares of the centred array summed along
    the rows, over the divisor less the integer count c; kept where that divisor is positive, a fill word elsewhere. -/
def hostVar (dw : BitVec 32) (hR : (⟨2, ![N, D]⟩ : Shape).ReducesTo [1] ⟨1, ![N]⟩) (h0 : 0 < (⟨0, ![]⟩ : Shape).numel)
    (hcol : (⟨1, ![N]⟩ : Shape).BroadcastsInDim ⟨2, ![N, 1]⟩ (![0] : Fin 1 → Fin 2))
    (hz1 : (⟨0, ![]⟩ : Shape).BroadcastsInDim ⟨2, ![N, 1]⟩ (![] : Fin 0 → Fin 2))
    (hs : (⟨2, ![N, 1]⟩ : Shape).BroadcastsInDim ⟨2, ![N, D]⟩ (![0, 1] : Fin 2 → Fin 2))
    (o : FVec Ideal ⟨2, ![N, D]⟩ .f32) (c : IVec ⟨0, ![]⟩ 32) : FVec Ideal ⟨2, ![N, 1]⟩ .f32 :=
  select
    (broadcastInDim ⟨2, ![N, 1]⟩ (![] : Fin 0 → Fin 2) hz1
      (cmpf .ogt (subf (constant (F := Ideal) ⟨0, ![]⟩ .f32 dw) (sitofp .f32 c)) (constant (F := Ideal) ⟨0, ![]⟩ .f32 0x00000000#32)))
    (Host.divf
      (broadcastInDim ⟨2, ![N, 1]⟩ (![0] : Fin 1 → Fin 2) hcol
        (Host.reduceAdd
          (mulf (subf o (broadcastInDim ⟨2, ![N, D]⟩ (![0, 1] : Fin 2 → Fin 2) hs (hostMean dw hR h0 hcol hz1 o)))
            (subf o (broadcastInDim ⟨2, ![N, D]⟩ (![0, 1] : Fin 2 → Fin 2) hs (hostMean dw hR h0 hcol hz1 o))))
          (constant (F := Ideal) ⟨0, ![]⟩ .f32 0x00000000#32) hR h0))
      (broadcastInDim ⟨2, ![N, 1]⟩ (![] : Fin 0 → Fin 2) hz1
        (subf (constant (F := Ideal) ⟨0, ![]⟩ .f32 dw) (sitofp .f32 c))))
    (broadcastInDim ⟨2, ![N, 1]⟩ (![] : Fin 0 → Fin 2) hz1 (id (constant (F := Ideal) ⟨0, ![]⟩ .f32 0x7FC00000#32)))

/-- With a count of zero and a positive divisor the guard holds and the host's variance at row r is the row's. -/
theorem hostVar_at (dw : BitVec 32) (hd : (0 : EReal) < Ideal.ofBits .f32 dw)
    (hR : (⟨2, ![N, D]⟩ : Shape).ReducesTo [1] ⟨1, ![N]⟩)
    (hr : (⟨2, ![N, D]⟩ : Shape).Reduces [1] ⟨1, ![N]⟩) (h0 : 0 < (⟨0, ![]⟩ : Shape).numel)
    (hcol : (⟨1, ![N]⟩ : Shape).BroadcastsInDim ⟨2, ![N, 1]⟩ (![0] : Fin 1 → Fin 2))
    (hz1 : (⟨0, ![]⟩ : Shape).BroadcastsInDim ⟨2, ![N, 1]⟩ (![] : Fin 0 → Fin 2))
    (hs : (⟨2, ![N, 1]⟩ : Shape).BroadcastsInDim ⟨2, ![N, D]⟩ (![0, 1] : Fin 2 → Fin 2))
    (o : FVec Ideal ⟨2, ![N, D]⟩ .f32) (r : Fin N) (u : Fin 1) :
    hostVar dw hR h0 hcol hz1 hs o (constantI ⟨0, ![]⟩ 32 0#32) (ix2 r u) = var dw (fun k => o (ix2 r k)) := by
  have hn : (subf (constant (F := Ideal) ⟨0, ![]⟩ .f32 dw) (sitofp .f32 (constantI ⟨0, ![]⟩ 32 0#32)) : FVec Ideal ⟨0, ![]⟩ .f32) ix0
      = Ideal.ofBits .f32 dw := by
    rw [subf_apply, constant_apply, sitofp_apply, constantI_apply]
    show Ideal.ofBits .f32 dw - (((0#32 : BitVec 32).toInt : ℝ) : EReal) = _
    rw [BitVec.toInt_zero, Int.cast_zero, EReal.coe_zero, sub_zero]
  unfold hostVar var
  rw [select_apply, Cert.Mlp.bcastScalar_at, cmpf_apply, hn, constant_apply, Ideal.ofBits_zero_f32]
  have hg : FloatOps.cmpf (F := Ideal) (φ := .f32) .ogt (Ideal.ofBits .f32 dw) 0 = 1 := by
    show Ideal.cmp .ogt (Ideal.ofBits .f32 dw) 0 = 1
    unfold Ideal.cmp
    simp [hd]
  rw [hg]
  show (Host.divf _ _ : FVec Ideal ⟨2, ![N, 1]⟩ .f32) (ix2 r u) = _
  rw [hostDivf_apply, bcastCol_at, hostRowSum_at hR hr, Cert.Mlp.bcastScalar_at, hn]
  refine congrArg (fun s => Ideal.div s (Ideal.ofBits .f32 dw)) ?_
  refine Finset.sum_congr rfl fun k _ => ?_
  rw [mulf_apply, subf_apply, bcastSpread_at, hostMean_at dw hR hr]

/-- The host's spelling: centre by the means; the variances (count zero) plus the offset broadcast from a scalar, their
    reciprocal square roots spread over the lanes; the product scaled and shifted by the vectors made rows and spread
    along the rows. -/
def lnHost (dw ew : BitVec 32) (hR : (⟨2, ![N, D]⟩ : Shape).ReducesTo [1] ⟨1, ![N]⟩) (h0 : 0 < (⟨0, ![]⟩ : Shape).numel)
    (hcol : (⟨1, ![N]⟩ : Shape).BroadcastsInDim ⟨2, ![N, 1]⟩ (![0] : Fin 1 → Fin 2))
    (hz1 : (⟨0, ![]⟩ : Shape).BroadcastsInDim ⟨2, ![N, 1]⟩ (![] : Fin 0 → Fin 2))
    (hs : (⟨2, ![N, 1]⟩ : Shape).BroadcastsInDim ⟨2, ![N, D]⟩ (![0, 1] : Fin 2 → Fin 2))
    (hb : (⟨2, ![1, D]⟩ : Shape).BroadcastsInDim ⟨2, ![N, D]⟩ (![0, 1] : Fin 2 → Fin 2))
    (hv : (⟨1, ![D]⟩ : Shape).BroadcastsInDim ⟨2, ![1, D]⟩ (![1] : Fin 1 → Fin 2))
    (o : FVec Ideal ⟨2, ![N, D]⟩ .f32) (g be : FVec Ideal ⟨1, ![D]⟩ .f32) : FVec Ideal ⟨2, ![N, D]⟩ .f32 :=
  addf (mulf (mulf (subf o (broadcastInDim ⟨2, ![N, D]⟩ (![0, 1] : Fin 2 → Fin 2) hs (hostMean dw hR h0 hcol hz1 o)))
        (broadcastInDim ⟨2, ![N, D]⟩ (![0, 1] : Fin 2 → Fin 2) hs
          (Host.rsqrt (addf (hostVar dw hR h0 hcol hz1 hs o (constantI ⟨0, ![]⟩ 32 0#32))
            (broadcastInDim ⟨2, ![N, 1]⟩ (![] : Fin 0 → Fin 2) hz1 (constant (F := Ideal) ⟨0, ![]⟩ .f32 ew))))))
      (broadcastInDim ⟨2, ![N, D]⟩ (![0, 1] : Fin 2 → Fin 2) hb (broadcastInDim ⟨2, ![1, D]⟩ (![1] : Fin 1 → Fin 2) hv g)))
    (broadcastInDim ⟨2, ![N, D]⟩ (![0, 1] : Fin 2 → Fin 2) hb (broadcastInDim ⟨2, ![1, D]⟩ (![1] : Fin 1 → Fin 2) hv be))

theorem lnHost_at (dw ew : BitVec 32) (hd : (0 : EReal) < Ideal.ofBits .f32 dw)
    (hR : (⟨2, ![N, D]⟩ : Shape).ReducesTo [1] ⟨1, ![N]⟩)
    (hr : (⟨2, ![N, D]⟩ : Shape).Reduces [1] ⟨1, ![N]⟩) (h0 : 0 < (⟨0, ![]⟩ : Shape).numel)
    (hcol : (⟨1, ![N]⟩ : Shape).BroadcastsInDim ⟨2, ![N, 1]⟩ (![0] : Fin 1 → Fin 2))
    (hz1 : (⟨0, ![]⟩ : Shape).BroadcastsInDim ⟨2, ![N, 1]⟩ (![] : Fin 0 → Fin 2))
    (hs : (⟨2, ![N, 1]⟩ : Shape).BroadcastsInDim ⟨2, ![N, D]⟩ (![0, 1] : Fin 2 → Fin 2))
    (hb : (⟨2, ![1, D]⟩ : Shape).BroadcastsInDim ⟨2, ![N, D]⟩ (![0, 1] : Fin 2 → Fin 2))
    (hv : (⟨1, ![D]⟩ : Shape).BroadcastsInDim ⟨2, ![1, D]⟩ (![1] : Fin 1 → Fin 2))
    (o : FVec Ideal ⟨2, ![N, D]⟩ .f32) (g be : FVec Ideal ⟨1, ![D]⟩ .f32) (r : Fin N) (q : Fin D) :
    lnHost dw ew hR h0 hcol hz1 hs hb hv o g be (ix2 r q)
      = lnVal dw ew (fun k => o (ix2 r k)) (fun k => g (ix1 k)) (fun k => be (ix1 k)) q := by
  unfold lnHost lnVal
  rw [addf_apply, mulf_apply, mulf_apply, subf_apply, bcastSpread_at, hostMean_at dw hR hr, bcastSpread_at,
    Cert.Mlp.bcastRow_at, Cert.Mlp.bcastRow_at, bcastVecRow_at, bcastVecRow_at]
  show _ * FloatOps.hostUnary (F := Ideal) (φ := .f32) .rsqrt (_ + _) * _ + _ = _
  rw [Ideal.hostUnary_rsqrt_def, hostVar_at dw hd hR hr, Cert.Mlp.bcastScalar_at, constant_apply]

end Host

end Cert.Ln

end
-- ==== Proof.AttnDefs.lean ====
/-
  The online (chunk by chunk) and the two-pass forms of the smooth-softmax attention of one query row, on the
  extended reals: definitions only.
-/
import Idealize.ShloMosaic.PureOps.Ideal

noncomputable section

namespace Cert.Attn

open Idealize.ShloMosaic

variable {J D : Type} [Fintype J]

/-- Per query row: running maximum, exp-sum, relu-sum, and the exp-weighted and relu-weighted accumulators (one entry per lane). -/
structure St (D : Type) where
  m : EReal
  l : EReal
  r : EReal
  ae : D → EReal
  ar : D → EReal

/-- Before any key: maximum −∞, all sums zero. -/
def init : St D := ⟨⊥, 0, 0, fun _ => 0, fun _ => 0⟩

/-- One chunk of keys `J`: scores `s`, values `v`, the chunk's own maximum `cur`. The exp-sums are rescaled to the new
    maximum; the relu-sums are plain running sums. -/
def step (s : J → EReal) (v : J → D → EReal) (cur : EReal) (st : St D) : St D where
  m := max st.m cur
  l := Ideal.exp (st.m - max st.m cur) * st.l + ∑ j, Ideal.exp (s j - max st.m cur)
  r := st.r + ∑ j, max (s j) 0
  ae := fun d => Ideal.exp (st.m - max st.m cur) * st.ae d + ∑ j, Ideal.exp (s j - max st.m cur) * v j d
  ar := fun d => st.ar d + ∑ j, max (s j) 0 * v j d

/-- The state after the first `k` chunks. -/
def run (s : ℕ → J → EReal) (v : ℕ → J → D → EReal) (cur : ℕ → EReal) : ℕ → St D
  | 0 => init
  | k + 1 => step (s k) (v k) (cur k) (run s v cur k)

/-- The row's output from the final state: (c·(relu-weighted) + (exp-weighted)·(1/l)) · (1/(c·r + 1)). -/
def out (c one : EReal) (st : St D) (d : D) : EReal :=
  (c * st.ar d + st.ae d * Ideal.div one st.l) * Ideal.div one (c * st.r + one)

/-- The two-pass form over all keys `I` at once, `mx` the row's maximum: weights
    (relu(s)·c + softmax(s)) normalised by their sum, applied to the values. -/
def ref {I : Type} [Fintype I] (s : I → EReal) (v : I → D → EReal) (mx c : EReal) (d : D) : EReal :=
  ∑ i, Ideal.div (max (s i) 0 * c + Ideal.div (Ideal.exp (s i - mx)) (∑ i', Ideal.exp (s i' - mx)))
        (∑ i', (max (s i') 0 * c + Ideal.div (Ideal.exp (s i' - mx)) (∑ i'', Ideal.exp (s i'' - mx)))) * v i d

end Cert.Attn

end
-- ==== Proof.Spec.lean ====
/-
  The value both programs compute, index by index, on the extended reals.

  Inputs: x [16384,128], y [8192,128], the three projections (Wq,bq), (Wk,bk), (Wv,bv), the layer-norm scale and shift
  (ln_g, ln_b), the batch-norm scale and shift (bn_g, bn_b), and a three-layer perceptron (W1,b1), (W2,b2), (W3,b3).
  Keys and values are dense maps of the batch-normalised y; queries are a dense map of the layer-normalised x; each query
  row attends to all 8192 keys with weights (0.1·relu(score) + softmax(score)) normalised by their sum; the attention
  output plus x is z1; the result is the perceptron of the layer-normalised z1, plus z1.
-/
import Idealize.ShloMosaic.PureOps.Ideal
import Idealize.ShloMosaic.Lib.ValueIdx
import proofs.«161096_j60911226192506_2_alg».proof.Proof.LibLnAt
import proofs.«161096_j60911226192506_2_alg».proof.Proof.AttnDefs

noncomputable section

namespace Cert.Spec

open Idealize.ShloMosaic Idealize.ShloMosaic.ValueIdx

/-- The words of the float constants: 128, 8192, the variance offset, the relu weight. -/
abbrev w128 : BitVec 32 := 0x43000000#32
abbrev w8192 : BitVec 32 := 0x46000000#32
abbrev wEps : BitVec 32 := 0x3727C5AC#32
abbrev w01 : BitVec 32 := 0x3DCCCCCD#32

/-- A dense map at one output: the sum over the contracted axis of the products, plus the bias. -/
def dense {K : ℕ} (a w : Fin K → EReal) (bias : EReal) : EReal := (∑ k, a k * w k) + bias

/-- Batch statistics of column d of y (mean over the 8192 rows; biased variance). -/
def bnMean (y : Fin 8192 → Fin 128 → EReal) (d : Fin 128) : EReal :=
  Ideal.div (∑ j, y j d) (Ideal.ofBits .f32 w8192)
def bnVar (y : Fin 8192 → Fin 128 → EReal) (d : Fin 128) : EReal :=
  Ideal.div (∑ j, (y j d - bnMean y d) * (y j d - bnMean y d)) (Ideal.ofBits .f32 w8192)
/-- The batch-normalised y at (j, d). -/
def bnVal (y : Fin 8192 → Fin 128 → EReal) (g b : Fin 128 → EReal) (j : Fin 8192) (d : Fin 128) : EReal :=
  (y j d - bnMean y d) * Ideal.rsqrt (bnVar y d + Ideal.ofBits .f32 wEps) * g d + b d

/-- A key or value entry: the dense map (W, bias) of row j of the batch-normalised y. -/
def kv (y : Fin 8192 → Fin 128 → EReal) (g b : Fin 128 → EReal) (W : Fin 128 → Fin 128 → EReal) (bias : Fin 128 → EReal)
    (j : Fin 8192) (c : Fin 128) : EReal :=
  dense (fun k => bnVal y g b j k) (fun k => W k c) (bias c)

/-- The layer norm of a row of 128 entries. -/
def ln (o g b : Fin 128 → EReal) : Fin 128 → EReal := Cert.Ln.lnVal w128 wEps o g b

/-- A query row: the dense map (Wq, bq) of the layer-normalised row. -/
def query (o g b : Fin 128 → EReal) (Wq : Fin 128 → Fin 128 → EReal) (bq : Fin 128 → EReal) (c : Fin 128) : EReal :=
  dense (ln o g b) (fun k => Wq k c) (bq c)

/-- The score of a query row against key j. -/
def score (q : Fin 128 → EReal) (yk : Fin 8192 → Fin 128 → EReal) (j : Fin 8192) : EReal := ∑ c, q c * yk j c

/-- The two-pass attention of one query row over all keys. -/
def attRef (s : Fin 8192 → EReal) (yv : Fin 8192 → Fin 128 → EReal) (d : Fin 128) : EReal :=
  Cert.Attn.ref s yv (Finset.univ.sup s) (Ideal.ofBits .f32 w01) d

/-- The perceptron of a row (rectified, rectified, affine) at output c. -/
def mlp (z : Fin 128 → EReal) (W1 : Fin 128 → Fin 512 → EReal) (b1 : Fin 512 → EReal) (W2 : Fin 512 → Fin 512 → EReal)
    (b2 : Fin 512 → EReal) (W3 : Fin 512 → Fin 128 → EReal) (b3 : Fin 128 → EReal) (c : Fin 128) : EReal :=
  dense (fun k2 => max (dense (fun k1 => max (dense z (fun k => W1 k k1) (b1 k1)) 0) (fun k1 => W2 k1 k2) (b2 k2)) 0)
    (fun k2 => W3 k2 c) (b3 c)

/-- From the attention output row `att` and the input row `o`: z1 = att + o, then perceptron(layer norm z1) + z1. -/
def tail (att o g b : Fin 128 → EReal) (W1 : Fin 128 → Fin 512 → EReal) (b1 : Fin 512 → EReal)
    (W2 : Fin 512 → Fin 512 → EReal) (b2 : Fin 512 → EReal) (W3 : Fin 512 → Fin 128 → EReal) (b3 : Fin 128 → EReal)
    (c : Fin 128) : EReal :=
  mlp (ln (fun k => att k + o k) g b) W1 b1 W2 b2 W3 b3 c + (att c + o c)

/-- The result at (r, c), given the key and value arrays. -/
def outOf (x : Fin 16384 → Fin 128 → EReal) (yk yv : Fin 8192 → Fin 128 → EReal)
    (Wq : Fin 128 → Fin 128 → EReal) (bq g b : Fin 128 → EReal)
    (W1 : Fin 128 → Fin 512 → EReal) (b1 : Fin 512 → EReal) (W2 : Fin 512 → Fin 512 → EReal) (b2 : Fin 512 → EReal)
    (W3 : Fin 512 → Fin 128 → EReal) (b3 : Fin 128 → EReal) (r : Fin 16384) (c : Fin 128) : EReal :=
  tail (attRef (score (query (x r) g b Wq bq) yk) yv) (x r) g b W1 b1 W2 b2 W3 b3 c

end Cert.Spec

end
-- ==== Proof.R0Value.lean ====
/-
  The batch-normalisation and projection region, read at one entry.

  For y : [N, D], a scale g and a shift b : [D], a weight W : [D, C] and a bias : [C], the region writes at (j, c)
      ∑ k, bn(j, k) · W[k, c] + bias[c],
      bn(j, k) = (y[j,k] − μ_k) · rsqrt (σ²_k + ε) · g[k] + b[k],
      μ_k = (∑ j, y[j,k]) / n,   σ²_k = (∑ j, (y[j,k] − μ_k)²) / n
  on the extended reals: the column sums are reductions along axis 0, each re-laid as one row [1, D] and spread along
  the rows; the product is a matrix product into a zero accumulator with the operands narrowed first. At the ideal
  values a change of format is the identity, so the region reads the formula above at every entry.
-/
import proofs.«161096_j60911226192506_2_alg».proof.Proof.Gen.KernelIdeal.Frame
import proofs.«161096_j60911226192506_2_alg».proof.Proof.Spec
import proofs.«161096_j60911226192506_2_alg».proof.Proof.LibKeepdims
import proofs.«161096_j60911226192506_2_alg».proof.Proof.LibMlpAt
import proofs.«161096_j60911226192506_2_alg».proof.Proof.LibLnAt
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.R0

open Idealize.ShloMosaic Idealize.ShloMosaic.ValueIdx Cert.KernelIdeal Cert.KernelIdeal.Gen

/-! ## Column sums -/

section Columns

variable {N D : Nat}

/-- A one-axis reduction of [N, D] along axis 0 visits, for column d and coordinate k of the reduced axis, the source
    index (k, d). -/
theorem lift_axis0 (h : (⟨2, ![N, D]⟩ : Shape).Reduces [0] ⟨1, ![D]⟩) (d : Fin D) (k : Fin N) :
    h.lift (ix1 d) k = ix2 k d :=
  funext fun c => Fin.ext (by match c with | ⟨0, _⟩ => rfl | ⟨1, _⟩ => rfl)

/-- A reduction of [N, D] along axis 0 at column d: the sum of the column. -/
theorem colSum_at (hr : (⟨2, ![N, D]⟩ : Shape).Reduces [0] ⟨1, ![D]⟩) (hφ : FKind.Formats .f32)
    (hacc : (0x00000000#32 : BitVec 32) = FKind.add.neutral .f32 hφ) (v : FVec Ideal ⟨2, ![N, D]⟩ .f32) (d : Fin D) :
    multiReduction .add [0] ⟨1, ![D]⟩ v 0x00000000#32 hr hφ hacc (ix1 d) = ∑ k : Fin N, v (ix2 k d) := by
  refine (Ideal.multiReduction_add_single v _ hr hφ hacc (ix1 d)).trans ?_
  exact Finset.sum_congr rfl fun k _ => congrArg v (lift_axis0 hr d k)

/-- A vector [D] re-laid as one row [1, D] and spread along the rows of [N, D] reads, at (j, d), the vector at d. -/
theorem row_spread_apply {α : Type} (x : (⟨1, ![D]⟩ : Shape).Idx → α) (hc : (⟨1, ![D]⟩ : Shape).ShapeCasts ⟨2, ![1, D]⟩)
    (hb : (⟨2, ![1, D]⟩ : Shape).Broadcasts ⟨2, ![N, D]⟩) (j : Fin N) (d : Fin D) :
    broadcastTo ⟨2, ![N, D]⟩ (shapeCast ⟨2, ![1, D]⟩ x hc) hb (ix2 j d) = x (ix1 d) :=
  (broadcastTo_1b_ab_apply _ hb j d).trans (shapeCast_a_1a_apply x hc 0 d)

end Columns

/-- The same with the accumulator's equation stated between the two words. -/
theorem colSum_at' {N D : Nat} (hr : (⟨2, ![N, D]⟩ : Shape).Reduces [0] ⟨1, ![D]⟩) (hφ : FKind.Formats .f32)
    (hacc : (0x00000000#32 : BitVec 32) = 0x00000000#32) (v : FVec Ideal ⟨2, ![N, D]⟩ .f32) (d : Fin D) :
    multiReduction .add [0] ⟨1, ![D]⟩ v 0x00000000#32 hr hφ hacc (ix1 d) = ∑ k : Fin N, v (ix2 k d) :=
  colSum_at hr hφ hacc v d

/-! ## The normalised block at an entry -/

/-- The normalised block (narrowed for the product, which changes nothing at the ideal values) at (j, k). -/
theorem pay3_apply (v0 : Vec Ideal S8192x128 .f32) (v19 v23 : Vec Ideal S128 .f32) (j : Fin 8192) (k : Fin 128) :
    k0_pay3 (F := Ideal) v0 v19 v23 (ix2 j k)
      = Cert.Spec.bnVal (fun j k => v0 (ix2 j k)) (fun k => v19 (ix1 k)) (fun k => v23 (ix1 k)) j k := by
  unfold k0_pay3
  dsimp only
  rw [truncf_apply, addf_apply, mulf_apply, mulf_apply, subf_apply]
  simp only [broadcastTo_1b_ab_apply, shapeCast_a_1a_apply, divf_apply, broadcast_apply, Cert.Ln.rsqrt_at,
    addf_apply, mulf_apply, subf_apply]
  rw [colSum_at' reduces_S8192x128_S128 _ _ v0 k, colSum_at' reduces_S8192x128_S128 _ _ _ k]
  simp only [broadcastTo_1b_ab_apply, shapeCast_a_1a_apply, divf_apply, broadcast_apply, mulf_apply, subf_apply]
  rw [colSum_at' reduces_S8192x128_S128 _ _ v0 k]
  rfl

/-! ## The projections at an entry -/

/-- The region's product has the dimension numbers of a plain product. -/
theorem dot_eq : dot_S8192x128_S128x128_S8192x128_1_0_0_1_n_n
    = Cert.Mlp.D2 Facts₀.dot_S8192x128_S128x128_S8192x128_1_0_0_1_n_n_wf := rfl

/-- A projection of the normalised block at (j, c): the dense map of its row j. -/
theorem proj_apply (v0 : Vec Ideal S8192x128 .f32) (v19 v23 : Vec Ideal S128 .f32) (w : Vec Ideal S128x128 .f32)
    (bias : Vec Ideal S128 .f32) (j : Fin 8192) (c : Fin 128) :
    addf (matmul dot_S8192x128_S128x128_S8192x128_1_0_0_1_n_n none (k0_pay3 (F := Ideal) v0 v19 v23)
          (truncf .bf16 w Facts₀.bitsLt_bf16_f32) (constant S8192x128 .f32 0x00000000#32))
        (broadcastTo S8192x128 (shapeCast S1x128 bias Facts₀.shapeCasts_S128_S1x128) Facts₀.broadcasts_S1x128_S8192x128) (ix2 j c)
      = Cert.Spec.kv (fun j k => v0 (ix2 j k)) (fun k => v19 (ix1 k)) (fun k => v23 (ix1 k)) (fun k c => w (ix2 k c))
          (fun c => bias (ix1 c)) j c := by
  rw [addf_apply, dot_eq, Cert.Mlp.matmul_zero_at, row_spread_apply]
  unfold Cert.Spec.kv Cert.Spec.dense
  refine congrArg (fun s => s + bias (ix1 c)) ?_
  refine Finset.sum_congr rfl fun k _ => ?_
  rw [pay3_apply, truncf_apply]

theorem hz : (![0, 0] : Fin 2 → Nat) = fun _ => 0 := by
  funext a; fin_cases a <;> rfl

theorem hz1 : (![0] : Fin 1 → Nat) = fun _ => 0 := by
  funext a; fin_cases a; rfl

/-- The key array the region leaves, at (j, c). -/
theorem out0_7_apply (x0 : Vec Ideal S8192x128 .f32) (x1 x2 : Vec Ideal S128 .f32) (x3 : Vec Ideal S128x128 .f32)
    (x4 : Vec Ideal S128 .f32) (x5 : Vec Ideal S128x128 .f32) (x6 : Vec Ideal S128 .f32) (j : Fin 8192) (c : Fin 128) :
    out0_7 (F := Ideal) x0 x1 x2 x3 x4 x5 x6 (ix2 j c)
      = Cert.Spec.kv (fun j k => x0 (ix2 j k)) (fun k => x1 (ix1 k)) (fun k => x2 (ix1 k)) (fun k c => x3 (ix2 k c))
          (fun c => x4 (ix1 c)) j c := by
  unfold out0_7
  rw [View.canon_unit_zero hz]
  simp only [View.ld_unit_zero (S := S8192x128) hz, View.ld_unit_zero (S := S128x128) hz, View.ld_unit_zero (S := S128) hz1]
  unfold k0_pay1 k0_pay4
  dsimp only
  rw [truncf_apply]
  exact proj_apply x0 x1 x2 x3 x4 j c

/-- The value array the region leaves, at (j, c). -/
theorem out0_8_apply (x0 : Vec Ideal S8192x128 .f32) (x1 x2 : Vec Ideal S128 .f32) (x3 : Vec Ideal S128x128 .f32)
    (x4 : Vec Ideal S128 .f32) (x5 : Vec Ideal S128x128 .f32) (x6 : Vec Ideal S128 .f32) (j : Fin 8192) (c : Fin 128) :
    out0_8 (F := Ideal) x0 x1 x2 x3 x4 x5 x6 (ix2 j c)
      = Cert.Spec.kv (fun j k => x0 (ix2 j k)) (fun k => x1 (ix1 k)) (fun k => x2 (ix1 k)) (fun k c => x5 (ix2 k c))
          (fun c => x6 (ix1 c)) j c := by
  unfold out0_8
  rw [View.canon_unit_zero hz]
  simp only [View.ld_unit_zero (S := S8192x128) hz, View.ld_unit_zero (S := S128x128) hz, View.ld_unit_zero (S := S128) hz1]
  unfold k0_pay2 k0_pay5
  dsimp only
  rw [truncf_apply]
  exact proj_apply x0 x1 x2 x5 x6 j c

end Cert.KernelIdeal.R0

end
-- ==== Proof.R0Array.lean ====
/-
  The first region's two output arrays after its run: the keys and the values.

  The region's grid has one point, and at that point every window's block is its whole array: each block index is
  zero on every axis, so a block's coordinate  index × extent + coordinate-inside-the-block  is the coordinate itself.
  Hence each input block is the input array, the block the point writes back is the body's result on the whole
  arrays, and that one block covers every index of the output array. So each output array ends holding, entry by
  entry, the dense map of the batch-normalised y that the body's result is at that entry.
-/
import proofs.«161096_j60911226192506_2_alg».proof.Proof.Gen.KernelIdeal.Frame
import proofs.«161096_j60911226192506_2_alg».proof.Proof.Spec
import proofs.«161096_j60911226192506_2_alg».proof.Proof.R0Value
import Idealize.ShloMosaic.Lib.Pipeline.Value
import Idealize.ShloMosaic.Lib.ValueIdx

noncomputable section

namespace Cert.KernelIdeal.R0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The index maps -/

/-- Every window's block index is zero on every axis, at every point of the grid (it has one). -/
theorem idx_zero : ∀ t : Fin cfg0.N,
    win0_0.index t (0 : Fin 2) = 0 ∧ win0_0.index t (1 : Fin 2) = 0
    ∧ win0_1.index t (0 : Fin 1) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## Each input block is its array -/

/-- Window 0's block at the point is its whole array. -/
theorem blk0_0 (c : Dev nD) (t : Fin cfg0.N) (y : S8192x128.Idx) : iblk0 V c 0 t y = V c main_arg1 y := by
  show V c main_arg1 (((cfg0.win 0).blk t).view.emb y) = V c main_arg1 y
  refine congrArg (V c main_arg1) (funext fun a => Fin.ext ?_)
  obtain ⟨e0, e1, -⟩ := idx_zero t
  match a with
  | ⟨0, _⟩ => show win0_0.index t (0 : Fin 2) * 8192 + 1 * (y 0).val = (y 0).val; omega
  | ⟨1, _⟩ => show win0_0.index t (1 : Fin 2) * 128 + 1 * (y 1).val = (y 1).val; omega

theorem blkfun0_0 (c : Dev nD) (t : Fin cfg0.N) : (iblk0 V c 0 t : Vec Ideal S8192x128 .f32) = V c main_arg1 :=
  funext (blk0_0 V c t)

/-- Window 1's block at the point is its whole array. -/
theorem blk0_1 (c : Dev nD) (t : Fin cfg0.N) (y : S128.Idx) : iblk0 V c 1 t y = V c main_arg10 y := by
  show V c main_arg10 (((cfg0.win 1).blk t).view.emb y) = V c main_arg10 y
  refine congrArg (V c main_arg10) (funext fun a => Fin.ext ?_)
  obtain ⟨-, -, e2, -⟩ := idx_zero t
  match a with
  | ⟨0, _⟩ => show win0_1.index t (0 : Fin 1) * 128 + 1 * (y 0).val = (y 0).val; omega

theorem blkfun0_1 (c : Dev nD) (t : Fin cfg0.N) : (iblk0 V c 1 t : Vec Ideal S128 .f32) = V c main_arg10 :=
  funext (blk0_1 V c t)

/-- Window 2's block at the point is its whole array. -/
theorem blk0_2 (c : Dev nD) (t : Fin cfg0.N) (y : S128.Idx) : iblk0 V c 2 t y = V c main_arg11 y := by
  show V c main_arg11 (((cfg0.win 2).blk t).view.emb y) = V c main_arg11 y
  refine congrArg (V c main_arg11) (funext fun a => Fin.ext ?_)
  obtain ⟨-, -, -, e3, -⟩ := idx_zero t
  match a with
  | ⟨0, _⟩ => show win0_2.index t (0 : Fin 1) * 128 + 1 * (y 0).val = (y 0).val; omega

theorem blkfun0_2 (c : Dev nD) (t : Fin cfg0.N) : (iblk0 V c 2 t : Vec Ideal S128 .f32) = V c main_arg11 :=
  funext (blk0_2 V c t)

/-- Window 3's block at the point is its whole array. -/
theorem blk0_3 (c : Dev nD) (t : Fin cfg0.N) (y : S128x128.Idx) : iblk0 V c 3 t y = V c main_arg4 y := by
  show V c main_arg4 (((cfg0.win 3).blk t).view.emb y) = V c main_arg4 y
  refine congrArg (V c main_arg4) (funext fun a => Fin.ext ?_)
  obtain ⟨-, -, -, -, e4, e5, -⟩ := idx_zero t
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blkfun0_3 (c : Dev nD) (t : Fin cfg0.N) : (iblk0 V c 3 t : Vec Ideal S128x128 .f32) = V c main_arg4 :=
  funext (blk0_3 V c t)

/-- Window 4's block at the point is its whole array. -/
theorem blk0_4 (c : Dev nD) (t : Fin cfg0.N) (y : S128.Idx) : iblk0 V c 4 t y = V c main_arg5 y := by
  show V c main_arg5 (((cfg0.win 4).blk t).view.emb y) = V c main_arg5 y
  refine congrArg (V c main_arg5) (funext fun a => Fin.ext ?_)
  obtain ⟨-, -, -, -, -, -, e6, -⟩ := idx_zero t
  match a with
  | ⟨0, _⟩ => show win0_4.index t (0 : Fin 1) * 128 + 1 * (y 0).val = (y 0).val; omega

theorem blkfun0_4 (c : Dev nD) (t : Fin cfg0.N) : (iblk0 V c 4 t : Vec Ideal S128 .f32) = V c main_arg5 :=
  funext (blk0_4 V c t)

/-- Window 5's block at the point is its whole array. -/
theorem blk0_5 (c : Dev nD) (t : Fin cfg0.N) (y : S128x128.Idx) : iblk0 V c 5 t y = V c main_arg6 y := by
  show V c main_arg6 (((cfg0.win 5).blk t).view.emb y) = V c main_arg6 y
  refine congrArg (V c main_arg6) (funext fun a => Fin.ext ?_)
  obtain ⟨-, -, -, -, -, -, -, e7, e8, -⟩ := idx_zero t
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem blkfun0_5 (c : Dev nD) (t : Fin cfg0.N) : (iblk0 V c 5 t : Vec Ideal S128x128 .f32) = V c main_arg6 :=
  funext (blk0_5 V c t)

/-- Window 6's block at the point is its whole array. -/
theorem blk0_6 (c : Dev nD) (t : Fin cfg0.N) (y : S128.Idx) : iblk0 V c 6 t y = V c main_arg7 y := by
  show V c main_arg7 (((cfg0.win 6).blk t).view.emb y) = V c main_arg7 y
  refine congrArg (V c main_arg7) (funext fun a => Fin.ext ?_)
  obtain ⟨-, -, -, -, -, -, -, -, -, e9, -⟩ := idx_zero t
  match a with
  | ⟨0, _⟩ => show win0_6.index t (0 : Fin 1) * 128 + 1 * (y 0).val = (y 0).val; omega

theorem blkfun0_6 (c : Dev nD) (t : Fin cfg0.N) : (iblk0 V c 6 t : Vec Ideal S128 .f32) = V c main_arg7 :=
  funext (blk0_6 V c t)

/-! ## Output window 7: the key -/

/-- What the key array ends holding: at (j, c) the dense map of row j of the batch-normalised y. -/
abbrev G7 (c : Dev nD) : S8192x128.Idx → EReal := fun i =>
  Cert.Spec.kv (fun j k => V c main_arg1 (ix2 j k)) (fun k => V c main_arg10 (ix1 k)) (fun k => V c main_arg11 (ix1 k))
    (fun k c' => V c main_arg4 (ix2 k c')) (fun c' => V c main_arg5 (ix1 c')) (i 0) (i 1)

/-- The output block at the point sits at the array's own indices. -/
theorem emb0_7 (t : Fin cfg0.N) (j : S8192x128.Idx) : ((cfg0.win 7).blk t).view.emb j = j := by
  funext a; apply Fin.ext
  obtain ⟨-, -, -, -, -, -, -, -, -, -, e0, e1, -⟩ := idx_zero t
  match a with
  | ⟨0, _⟩ => show win0_7.index t (0 : Fin 2) * 8192 + 1 * (j 0).val = (j 0).val; omega
  | ⟨1, _⟩ => show win0_7.index t (1 : Fin 2) * 128 + 1 * (j 1).val = (j 1).val; omega

/-- What the point writes back is its block of that function of the arrays as the region finds them. -/
theorem flushed0_7 (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7, blkfun0_0, blkfun0_1, blkfun0_2, blkfun0_3, blkfun0_4, blkfun0_5, blkfun0_6]
  funext j
  show out0_7 (F := Ideal) (V c main_arg1) (V c main_arg10) (V c main_arg11) (V c main_arg4) (V c main_arg5)
      (V c main_arg6) (V c main_arg7) j = G7 V c (((cfg0.win 7).blk t).view.emb j)
  rw [emb0_7]
  obtain ⟨p, q, rfl⟩ : ∃ (p : Fin 8192) (q : Fin 128), j = ix2 p q := ⟨j 0, j 1, eq_ix2 j⟩
  rw [out0_7_apply]

/-- An index of the array is in the point's block iff each coordinate is in the block's range on its axis. -/
theorem mem_blk0_7 (t : Fin cfg0.N) (i : S8192x128.Idx) :
    i ∈ ((cfg0.win 7).blk t).view.set ↔ ∀ a : Fin 2, win0_7.index t a * S8192x128.size a ≤ (i a).val
      ∧ (i a).val < win0_7.index t a * S8192x128.size a + S8192x128.size a := by
  show i ∈ ((View.whole main_v0_0).slice (win0_7.rect t)).set ↔ _
  rw [View.set_slice_whole, Rect.mem_set_unit]
  exact Iff.rfl

/-- Every index of the array is in the one point's block. -/
theorem covered0_7 (i : S8192x128.Idx) :
    ∃ t : Fin cfg0.N, (cfg0.win 7).flush t = true ∧ i ∈ ((cfg0.win 7).blk t).view.set := by
  refine ⟨t0_0, flush0_7 t0_0, ?_⟩
  rw [mem_blk0_7]
  obtain ⟨-, -, -, -, -, -, -, -, -, -, e0, e1, -⟩ := idx_zero t0_0
  have hi0 : (i 0).val < 8192 := (i 0).isLt
  have hi1 : (i 1).val < 128 := (i 1).isLt
  intro a
  match a with
  | ⟨0, _⟩ => show win0_7.index t0_0 (0 : Fin 2) * 8192 ≤ (i 0).val ∧ (i 0).val < win0_7.index t0_0 (0 : Fin 2) * 8192 + 8192; omega
  | ⟨1, _⟩ => show win0_7.index t0_0 (1 : Fin 2) * 128 ≤ (i 1).val ∧ (i 1).val < win0_7.index t0_0 (1 : Fin 2) * 128 + 128; omega

/-- The key array after the run. -/
theorem final0_7 (c : Dev nD) : (dat0 V c).arrAt 7 cfg0.N
    = (fun i : S8192x128.Idx => Cert.Spec.kv (fun j k => V c main_arg1 (ix2 j k)) (fun k => V c main_arg10 (ix1 k))
        (fun k => V c main_arg11 (ix1 k)) (fun k c' => V c main_arg4 (ix2 k c')) (fun c' => V c main_arg5 (ix1 c')) (i 0) (i 1)) :=
  (dat0 V c).arrAt_eq_of_cover 7 (G7 V c) (fun t _ => flushed0_7 V c t) (covered0_7)

/-! ## Output window 8: the value -/

/-- What the value array ends holding: at (j, c) the dense map of row j of the batch-normalised y. -/
abbrev G8 (c : Dev nD) : S8192x128.Idx → EReal := fun i =>
  Cert.Spec.kv (fun j k => V c main_arg1 (ix2 j k)) (fun k => V c main_arg10 (ix1 k)) (fun k => V c main_arg11 (ix1 k))
    (fun k c' => V c main_arg6 (ix2 k c')) (fun c' => V c main_arg7 (ix1 c')) (i 0) (i 1)

/-- The output block at the point sits at the array's own indices. -/
theorem emb0_8 (t : Fin cfg0.N) (j : S8192x128.Idx) : ((cfg0.win 8).blk t).view.emb j = j := by
  funext a; apply Fin.ext
  obtain ⟨-, -, -, -, -, -, -, -, -, -, -, -, e0, e1⟩ := idx_zero t
  match a with
  | ⟨0, _⟩ => show win0_8.index t (0 : Fin 2) * 8192 + 1 * (j 0).val = (j 0).val; omega
  | ⟨1, _⟩ => show win0_8.index t (1 : Fin 2) * 128 + 1 * (j 1).val = (j 1).val; omega

/-- What the point writes back is its block of that function of the arrays as the region finds them. -/
theorem flushed0_8 (c : Dev nD) (t : Fin cfg0.N) :
    (dat0 V c).flushed 8 t = ((cfg0.win 8).blk t).view.read (Elt Ideal) (G8 V c) := by
  show (cfg0.win 8).cut (grid0.coords t) ((dat0 V c).after 8 t) = _
  rw [after0_8, blkfun0_0, blkfun0_1, blkfun0_2, blkfun0_3, blkfun0_4, blkfun0_5, blkfun0_6]
  funext j
  show out0_8 (F := Ideal) (V c main_arg1) (V c main_arg10) (V c main_arg11) (V c main_arg4) (V c main_arg5)
      (V c main_arg6) (V c main_arg7) j = G8 V c (((cfg0.win 8).blk t).view.emb j)
  rw [emb0_8]
  obtain ⟨p, q, rfl⟩ : ∃ (p : Fin 8192) (q : Fin 128), j = ix2 p q := ⟨j 0, j 1, eq_ix2 j⟩
  rw [out0_8_apply]

/-- An index of the array is in the point's block iff each coordinate is in the block's range on its axis. -/
theorem mem_blk0_8 (t : Fin cfg0.N) (i : S8192x128.Idx) :
    i ∈ ((cfg0.win 8).blk t).view.set ↔ ∀ a : Fin 2, win0_8.index t a * S8192x128.size a ≤ (i a).val
      ∧ (i a).val < win0_8.index t a * S8192x128.size a + S8192x128.size a := by
  show i ∈ ((View.whole main_v0_1).slice (win0_8.rect t)).set ↔ _
  rw [View.set_slice_whole, Rect.mem_set_unit]
  exact Iff.rfl

/-- Every index of the array is in the one point's block. -/
theorem covered0_8 (i : S8192x128.Idx) :
    ∃ t : Fin cfg0.N, (cfg0.win 8).flush t = true ∧ i ∈ ((cfg0.win 8).blk t).view.set := by
  refine ⟨t0_0, flush0_8 t0_0, ?_⟩
  rw [mem_blk0_8]
  obtain ⟨-, -, -, -, -, -, -, -, -, -, -, -, e0, e1⟩ := idx_zero t0_0
  have hi0 : (i 0).val < 8192 := (i 0).isLt
  have hi1 : (i 1).val < 128 := (i 1).isLt
  intro a
  match a with
  | ⟨0, _⟩ => show win0_8.index t0_0 (0 : Fin 2) * 8192 ≤ (i 0).val ∧ (i 0).val < win0_8.index t0_0 (0 : Fin 2) * 8192 + 8192; omega
  | ⟨1, _⟩ => show win0_8.index t0_0 (1 : Fin 2) * 128 ≤ (i 1).val ∧ (i 1).val < win0_8.index t0_0 (1 : Fin 2) * 128 + 128; omega

/-- The value array after the run. -/
theorem final0_8 (c : Dev nD) : (dat0 V c).arrAt 8 cfg0.N
    = (fun i : S8192x128.Idx => Cert.Spec.kv (fun j k => V c main_arg1 (ix2 j k)) (fun k => V c main_arg10 (ix1 k))
        (fun k => V c main_arg11 (ix1 k)) (fun k c' => V c main_arg6 (ix2 k c')) (fun c' => V c main_arg7 (ix1 c')) (i 0) (i 1)) :=
  (dat0 V c).arrAt_eq_of_cover 8 (G8 V c) (fun t _ => flushed0_8 V c t) (covered0_8)

end Cert.KernelIdeal.R0

end
-- ==== Proof.R1Body.lean ====
/-
  The fused kernel's body as one function of its input blocks: the query block, then eight steps of the running
  state (maximum, exp-sum, relu-sum, exp-weighted and relu-weighted accumulators) over the eight blocks of 1024 keys,
  then the residual, layer norm and perceptron. What the kernel leaves in its output block is that function.
-/
import proofs.«161096_j60911226192506_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.R1

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A load of the whole buffer after a list of stores whose LAST one wrote the whole buffer reads that store's payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem readCov_col {sig : RefSig} {κ : Kind} {sp : Space} (v : View sig κ sp S1024x1 .f32) (w : S1024x1.Idx → Elt F .f32) (L : List (View.Piece (Elt F) S1024x1 .f32)) :
    v.readCov ((⟨Rect.unit (s := S1024x1) ![0, 0] S1024x1.size inb_S1024x1_S1024x1_0_0, w⟩ : View.Piece (Elt F) S1024x1 .f32) :: L)
      (Rect.unit (s := S1024x1) ![0, 0] S1024x1.size inb_S1024x1_S1024x1_0_0).toLoadRect = w :=
  readCov_cons_unit_zero v hz2 _ w L
theorem readCov_blk {sig : RefSig} {κ : Kind} {sp : Space} (v : View sig κ sp S1024x128 .f32) (w : S1024x128.Idx → Elt F .f32) (L : List (View.Piece (Elt F) S1024x128 .f32)) :
    v.readCov ((⟨Rect.unit (s := S1024x128) ![0, 0] S1024x128.size inb_S1024x128_S1024x128_0_0, w⟩ : View.Piece (Elt F) S1024x128 .f32) :: L)
      (Rect.unit (s := S1024x128) ![0, 0] S1024x128.size inb_S1024x128_S1024x128_0_0).toLoadRect = w :=
  readCov_cons_unit_zero v hz2 _ w L

theorem readCov_col' {sig : RefSig} {κ : Kind} {sp : Space} (v : View sig κ sp S1024x1 .f32) (w : S1024x1.Idx → Elt F .f32) (L : List (View.Piece (Elt F) S1024x1 .f32)) :
    v.readCov ((⟨Rect.unit (s := S1024x1) ![0, 0] ![1024, 1] inb_S1024x1_S1024x1_0_0, w⟩ : View.Piece (Elt F) S1024x1 .f32) :: L)
      (Rect.unit (s := S1024x1) ![0, 0] ![1024, 1] inb_S1024x1_S1024x1_0_0).toLoadRect = w :=
  readCov_cons_unit_zero v hz2 _ w L
theorem readCov_blk' {sig : RefSig} {κ : Kind} {sp : Space} (v : View sig κ sp S1024x128 .f32) (w : S1024x128.Idx → Elt F .f32) (L : List (View.Piece (Elt F) S1024x128 .f32)) :
    v.readCov ((⟨Rect.unit (s := S1024x128) ![0, 0] ![1024, 128] inb_S1024x128_S1024x128_0_0, w⟩ : View.Piece (Elt F) S1024x128 .f32) :: L)
      (Rect.unit (s := S1024x128) ![0, 0] ![1024, 128] inb_S1024x128_S1024x128_0_0).toLoadRect = w :=
  readCov_cons_unit_zero v hz2 _ w L

/-- The running state of a block of 1024 query rows. -/
structure VSt (F : FTy → Type) [FloatOps F] where
  m : FVec F S1024x1 .f32
  l : FVec F S1024x1 .f32
  r : FVec F S1024x1 .f32
  ae : FVec F S1024x128 .f32
  ar : FVec F S1024x128 .f32

/-- Before any key: maximum −∞, sums zero. -/
def initV : VSt F where
  m := broadcast S1024x1 (Scalar.ofBits .f32 0xFF800000#32)
  l := broadcast S1024x1 (Scalar.ofBits .f32 0x00000000#32)
  r := broadcast S1024x1 (Scalar.ofBits .f32 0x00000000#32)
  ae := broadcast S1024x128 (Scalar.ofBits .f32 0x00000000#32)
  ar := broadcast S1024x128 (Scalar.ofBits .f32 0x00000000#32)

/-- The scores of the query block against one block of keys: queries times keys transposed. -/
def scoresV (xq ykc : FVec F S1024x128 .bf16) : FVec F S1024x1024 .f32 :=
  matmul dot_S1024x128_S128x1024_S1024x1024_1_0_0_1_n_n none xq
    (transpose S128x1024 [1, 0] ykc transposes_S1024x128_p1_0_S128x1024) (constant S1024x1024 .f32 0x00000000#32)

/-- The new maximum: the old one against the block's row maxima. -/
def newMaxV (s : FVec F S1024x1024 .f32) (m : FVec F S1024x1 .f32) : FVec F S1024x1 .f32 :=
  maximumf m (shapeCast S1024x1 (multiReduction .maximumf [1] S1024 s 0xFF800000#32 reduces_S1024x1024_S1024 (.inl rfl) rfl) shapeCasts_S1024_S1024x1)

/-- One block of keys and values folded into the state. -/
def chunkV (xq ykc yvc : FVec F S1024x128 .bf16) (st : VSt F) : VSt F where
  m := newMaxV (scoresV xq ykc) st.m
  l := addf (mulf (exp (subf st.m (newMaxV (scoresV xq ykc) st.m))) st.l)
    (shapeCast S1024x1 (multiReduction .add [1] S1024
      (exp (subf (scoresV xq ykc) (broadcastTo S1024x1024 (newMaxV (scoresV xq ykc) st.m) broadcasts_S1024x1_S1024x1024)))
      0x00000000#32 reduces_S1024x1024_S1024 (.inl rfl) rfl) shapeCasts_S1024_S1024x1)
  r := addf st.r (shapeCast S1024x1 (multiReduction .add [1] S1024
      (maximumf (scoresV xq ykc) (broadcast S1024x1024 (Scalar.ofBits .f32 0x00000000#32)))
      0x00000000#32 reduces_S1024x1024_S1024 (.inl rfl) rfl) shapeCasts_S1024_S1024x1)
  ae := addf (mulf (broadcastTo S1024x128 (exp (subf st.m (newMaxV (scoresV xq ykc) st.m))) broadcasts_S1024x1_S1024x128) st.ae)
    (matmul dot_S1024x1024_S1024x128_S1024x128_1_0_0_1_n_n none
      (truncf .bf16 (exp (subf (scoresV xq ykc) (broadcastTo S1024x1024 (newMaxV (scoresV xq ykc) st.m) broadcasts_S1024x1_S1024x1024))) bitsLt_bf16_f32)
      yvc (constant S1024x128 .f32 0x00000000#32))
  ar := addf st.ar (matmul dot_S1024x1024_S1024x128_S1024x128_1_0_0_1_n_n none
      (truncf .bf16 (maximumf (scoresV xq ykc) (broadcast S1024x1024 (Scalar.ofBits .f32 0x00000000#32))) bitsLt_bf16_f32)
      yvc (constant S1024x128 .f32 0x00000000#32))

/-- Rows 1024·k … 1024·k+1023 of a [8192,128] array, k = 0 … 7. -/
abbrev rows0 (a : Vec F S8192x128 .bf16) : Vec F S1024x128 .bf16 := View.ld a (Rect.unit (s := S8192x128) ![0, 0] S1024x128.size inb_S8192x128_S1024x128_0_0)
abbrev rows1 (a : Vec F S8192x128 .bf16) : Vec F S1024x128 .bf16 := View.ld a (Rect.unit (s := S8192x128) ![1024, 0] S1024x128.size inb_S8192x128_S1024x128_1024_0)
abbrev rows2 (a : Vec F S8192x128 .bf16) : Vec F S1024x128 .bf16 := View.ld a (Rect.unit (s := S8192x128) ![2048, 0] S1024x128.size inb_S8192x128_S1024x128_2048_0)
abbrev rows3 (a : Vec F S8192x128 .bf16) : Vec F S1024x128 .bf16 := View.ld a (Rect.unit (s := S8192x128) ![3072, 0] S1024x128.size inb_S8192x128_S1024x128_3072_0)
abbrev rows4 (a : Vec F S8192x128 .bf16) : Vec F S1024x128 .bf16 := View.ld a (Rect.unit (s := S8192x128) ![4096, 0] S1024x128.size inb_S8192x128_S1024x128_4096_0)
abbrev rows5 (a : Vec F S8192x128 .bf16) : Vec F S1024x128 .bf16 := View.ld a (Rect.unit (s := S8192x128) ![5120, 0] S1024x128.size inb_S8192x128_S1024x128_5120_0)
abbrev rows6 (a : Vec F S8192x128 .bf16) : Vec F S1024x128 .bf16 := View.ld a (Rect.unit (s := S8192x128) ![6144, 0] S1024x128.size inb_S8192x128_S1024x128_6144_0)
abbrev rows7 (a : Vec F S8192x128 .bf16) : Vec F S1024x128 .bf16 := View.ld a (Rect.unit (s := S8192x128) ![7168, 0] S1024x128.size inb_S8192x128_S1024x128_7168_0)

/-- The state after all eight blocks, from the query block `xq`, the keys `yk` and the values `yv`. -/
def st8 (xq : FVec F S1024x128 .bf16) (yk yv : Vec F S8192x128 .bf16) : VSt F :=
  chunkV xq (rows7 yk) (rows7 yv) (chunkV xq (rows6 yk) (rows6 yv) (chunkV xq (rows5 yk) (rows5 yv) (chunkV xq (rows4 yk) (rows4 yv)
    (chunkV xq (rows3 yk) (rows3 yv) (chunkV xq (rows2 yk) (rows2 yv) (chunkV xq (rows1 yk) (rows1 yv) (chunkV xq (rows0 yk) (rows0 yv) initV)))))))

/-- From the final state: the attention output plus x, its layer norm, the perceptron, the second residual. -/
def epi (x : Vec F S1024x128 .f32) (st : VSt F) (g b : Vec F S128 .f32) (W1 : Vec F S128x512 .f32) (b1 : Vec F S512 .f32)
    (W2 : Vec F S512x512 .f32) (b2 : Vec F S512 .f32) (W3 : Vec F S512x128 .f32) (b3 : Vec F S128 .f32) : FVec F S1024x128 .f32 :=
  k1_pay1 (k1_pay104 x st.l st.r st.ar st.ae) (k1_pay108 W3)
    (k1_pay109 (k1_pay106 x st.l st.r st.ar st.ae) (k1_pay107 x st.l st.r st.ar st.ae) g b W1 W2 b1 b2) b3

/-- What the kernel leaves in its output block. -/
def body1 (x0 : Vec F S1024x128 .f32) (x1 x2 : Vec F S8192x128 .bf16) (x3 : Vec F S128x128 .f32) (x4 x5 x6 : Vec F S128 .f32)
    (x7 : Vec F S128x512 .f32) (x8 : Vec F S512 .f32) (x9 : Vec F S512x512 .f32) (x10 : Vec F S512 .f32)
    (x11 : Vec F S512x128 .f32) (x12 : Vec F S128 .f32) : FVec F S1024x128 .f32 :=
  epi x0 (st8 (k1_pay2 x0 x5 x6 x3 x4) x1 x2) x5 x6 x7 x8 x9 x10 x11 x12

set_option maxHeartbeats 1600000 in
theorem out1_eq (c : Dev nD) (i : grid1.Coords) (arg1 : Memref sig .tc .vmem S1024x128 .f32) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512 .f32) (harg11 : arg11.IsWhole) (arg12 : Memref sig .tc .vmem S512x128 .f32) (harg12 : arg12.IsWhole) (arg13 : Memref sig .tc .vmem S128 .f32) (harg13 : arg13.IsWhole) (arg14 : Memref sig .tc .vmem S1024x128 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S1024x1 .f32) (harg17 : arg17.IsWhole) (arg18 : Memref sig .tc .vmem S1024x128 .f32) (harg18 : arg18.IsWhole) (arg19 : Memref sig .tc .vmem S1024x128 .f32) (harg19 : arg19.IsWhole) (x0 : Vec F S1024x128 .f32) (x1 : Vec F S8192x128 .bf16) (x2 : Vec F S8192x128 .bf16) (x3 : Vec F S128x128 .f32) (x4 : Vec F S128 .f32) (x5 : Vec F S128 .f32) (x6 : Vec F S128 .f32) (x7 : Vec F S128x512 .f32) (x8 : Vec F S512 .f32) (x9 : Vec F S512x512 .f32) (x10 : Vec F S512 .f32) (x11 : Vec F S512x128 .f32) (x12 : Vec F S128 .f32) :
    out1_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 = body1 x0 x1 x2 x3 x4 x5 x6 x7 x8 x9 x10 x11 x12 := by
  unfold out1_A_13
  rw [View.read_writes_eq_canon _ _ _ (cover1_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12)]
  unfold kernelRun1_A
  dsimp only
  sl_unfold_words
  rw [View.canon_unit_zero hz2]
  simp only [readCov_col, readCov_col', readCov_blk, readCov_blk']
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x128) hz2,
    View.ld_unit_zero (S := S128x128) hz2, View.ld_unit_zero (S := S128x512) hz2, View.ld_unit_zero (S := S512x512) hz2,
    View.ld_unit_zero (S := S512x128) hz2, View.ld_unit_zero (S := S128) hz1, View.ld_unit_zero (S := S512) hz1]
  unfold body1 epi st8
  simp only [chunkV, initV, newMaxV, scoresV, shapeCast_self, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103]

end Cert.KernelIdeal.R1

end
-- ==== Proof.BridgeDefs.lean ====
/-
  The key index of the j-th key of the k-th block of 1024, and a block's maximum as a fold from −∞: definitions only.
-/
import Idealize.ShloMosaic.PureOps.Ideal

noncomputable section

namespace Cert.Bridge

open Idealize.ShloMosaic

/-- Key 1024·k + j of the 8192 keys (k = 0 … 7). -/
def key (k : ℕ) (j : Fin 1024) : Fin 8192 := ⟨(1024 * k + j.val) % 8192, Nat.mod_lt _ (by norm_num)⟩

/-- The maximum of a block of 1024 scores, folded from −∞. -/
def curOf (f : Fin 1024 → EReal) : EReal :=
  (Finset.univ : Finset (Fin 1024)).fold max (Ideal.ofBits .f32 0xFF800000#32) f

end Cert.Bridge

end
-- ==== Proof.LibRowSums.lean ====
/-
  Row sums of an `[a, b]` array and the two re-layings a kernel applies to them, read at an index (general: any extents).
    * `rowSum_apply`: a lane reduction by addition along the last axis, from the zero pattern, is at row p the sum over
      the b lanes of that row, at the ideal values;
    * `shapeCast_a1_1a_apply`: a column `[a, 1]` re-laid as a row `[1, a]` reads at (0, i) the column's entry (i, 0): both
      are position i in row-major order;
    * `column_as_row_spread_apply`: a vector laid as a column, re-laid as a row and spread over `c` rows reads at (p, q)
      the vector's entry q.
-/
import Idealize.ShloMosaic.Lib.Pipeline.Value
import Idealize.ShloMosaic.Lib.ValueIdx
import Idealize.ShloMosaic.Lib.ValueLayout
import Idealize.ShloMosaic.PureOps.Ideal.Laws
import proofs.«161096_j60911226192506_2_alg».proof.Proof.LibKeepdims

noncomputable section

namespace Cert.Lib.RowSums

open Idealize.ShloMosaic Idealize.ShloMosaic.ValueIdx

/-- The sum along the last axis of an `[a, b]` array, started from the f32 zero pattern, is at row `p` the sum of the
    row's `b` entries (at the ideal values, where a reduction is the exact sum in any order). -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.bits .f32)) = FKind.add.neutral .f32 hφ) (p : Fin a) :
    multiReduction (F := Ideal) .add [1] ⟨1, ![a]⟩ v 0x00000000#32 h hφ hacc (ix1 p) = ∑ k : Fin b, v (ix2 p k) := by
  refine (Ideal.multiReduction_add_single v _ h hφ hacc (ix1 p)).trans ?_
  exact Finset.sum_congr rfl fun k _ => congrArg v (Cert.Lib.Keepdims.lift_axis1 h p k)

variable {α : Type}

/-- An `[a, 1]` column re-laid as a `[1, a]` row reads, at `(u, i)`, the column's entry of row `i`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A vector laid as a column, the column re-laid as a row, the row spread over `c` rows: at `(p, q)` the vector at `q`. -/
theorem column_as_row_spread_apply {a c : ℕ} (x : (⟨1, ![a]⟩ : Shape).Idx → α)
    (h1 : (⟨1, ![a]⟩ : Shape).ShapeCasts ⟨2, ![a, 1]⟩) (h2 : (⟨2, ![a, 1]⟩ : Shape).ShapeCasts ⟨2, ![1, a]⟩)
    (h3 : (⟨2, ![1, a]⟩ : Shape).Broadcasts ⟨2, ![c, a]⟩) (p : Fin c) (q : Fin a) :
    broadcastTo ⟨2, ![c, a]⟩ (shapeCast ⟨2, ![1, a]⟩ (shapeCast ⟨2, ![a, 1]⟩ x h1) h2) h3 (ix2 p q) = x (ix1 q) :=
  (broadcastTo_1b_ab_apply _ h3 p q).trans
    ((shapeCast_a1_1a_apply _ h2 0 q).trans (Cert.Lib.Keepdims.shapeCast_a_a1_apply x h1 q 0))

end Cert.Lib.RowSums

end
-- ==== Proof.R1Chunk.lean ====
/-
  The running state of the fused kernel read row by row: row p of the block state after one block of keys is the
  per-row online step applied to row p of the state before, with the scores of query row p against the block's keys,
  the block's values, and the block's own maximum.
-/
import proofs.«161096_j60911226192506_2_alg».proof.Proof.R1Body
import proofs.«161096_j60911226192506_2_alg».proof.Proof.AttnDefs
import proofs.«161096_j60911226192506_2_alg».proof.Proof.BridgeDefs
import proofs.«161096_j60911226192506_2_alg».proof.Proof.LibKeepdims
import proofs.«161096_j60911226192506_2_alg».proof.Proof.LibRowSums
import proofs.«161096_j60911226192506_2_alg».proof.Proof.LibMlpAt
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.SL.Sem

namespace Cert.KernelIdeal.R1

open Cert.KernelIdeal Cert.KernelIdeal.Gen

/-- Row p of the block state as the per-row state. -/
def rowSt (st : VSt Ideal) (p : Fin 1024) : Cert.Attn.St (Fin 128) :=
  ⟨st.m (ix2 p (0 : Fin 1)), st.l (ix2 p (0 : Fin 1)), st.r (ix2 p (0 : Fin 1)), fun d => st.ae (ix2 p d), fun d => st.ar (ix2 p d)⟩

/-- The pattern of −∞ denotes the bottom of the extended reals. -/
theorem chunk_ofBits_negInf_f32 : Ideal.ofBits .f32 0xFF800000#32 = ⊥ := by
  simp [Ideal.ofBits, Ideal.ieee]

/-- The score of query row p against key j of the block. -/
theorem scoresV_apply (xq ykc : FVec Ideal S1024x128 .bf16) (p j : Fin 1024) :
    scoresV xq ykc (ix2 p j) = ∑ c : Fin 128, xq (ix2 p c) * ykc (ix2 j c) := by
  unfold scoresV
  refine (Cert.Mlp.matmul_zero_at dot_S1024x128_S128x1024_S1024x1024_1_0_0_1_n_n_wf none xq _ p j).trans ?_
  refine Finset.sum_congr rfl fun c _ => ?_
  rw [transpose_ix2_apply]

theorem rowSt_init (p : Fin 1024) : rowSt (initV (F := Ideal)) p = Cert.Attn.init := by
  unfold rowSt initV Cert.Attn.init
  simp only [broadcast_apply, Scalar.ofBits, Ideal.ofBits_def, chunk_ofBits_negInf_f32, Ideal.ofBits_zero_f32]

/-- The exponential of an array reads, at an index, the exponential of the entry. -/
theorem chunk_exp_apply {s : Shape} {φ : FTy} (x : FVec Ideal s φ) (i : s.Idx) : exp x i = Ideal.exp (x i) := rfl

/-- The maximum along the last axis of an [a, b] array, started from the pattern of −∞, is at row p the fold of max
    from −∞ over the b entries of the row. -/
theorem rowMax_apply {a b : ℕ} (v : FVec Ideal ⟨2, ![a, b]⟩ .f32) (h : (⟨2, ![a, b]⟩ : Shape).Reduces [1] ⟨1, ![a]⟩)
    (hφ : FKind.Formats .f32) (hacc : (0xFF800000#32 : BitVec (FTy.bits .f32)) = FKind.maximumf.neutral .f32 hφ) (p : Fin a) :
    multiReduction (F := Ideal) .maximumf [1] ⟨1, ![a]⟩ v 0xFF800000#32 h hφ hacc (ix1 p)
      = (Finset.univ : Finset (Fin b)).fold max (Ideal.ofBits .f32 0xFF800000#32) (fun k => v (ix2 p k)) := by
  refine (Ideal.multiReduction_maximumf_single v _ h hφ hacc (ix1 p)).trans ?_
  exact congrArg (fun f => (Finset.univ : Finset (Fin b)).fold max (Ideal.ofBits .f32 0xFF800000#32) f)
    (funext fun k => congrArg v (Cert.Lib.Keepdims.lift_axis1 h p k))

/-- The new maximum at row p: the old one against the fold of max from −∞ over the row's scores. -/
theorem newMaxV_apply (s : FVec Ideal S1024x1024 .f32) (m : FVec Ideal S1024x1 .f32) (p : Fin 1024) (u : Fin 1) :
    newMaxV s m (ix2 p u)
      = max (m (ix2 p u)) ((Finset.univ : Finset (Fin 1024)).fold max (Ideal.ofBits .f32 0xFF800000#32) (fun k => s (ix2 p k))) := by
  unfold newMaxV
  rw [maximumf_apply, Cert.Lib.Keepdims.shapeCast_a_a1_apply]
  exact congrArg (max (m (ix2 p u))) (rowMax_apply s _ _ _ p)

/-- The extensionality of the per-row state: equal fields give equal states. -/
theorem rowSt_ext {D : Type} {a b : Cert.Attn.St D} (hm : a.m = b.m) (hl : a.l = b.l) (hr : a.r = b.r)
    (hae : a.ae = b.ae) (har : a.ar = b.ar) : a = b := by
  cases a; cases b; simp only at hm hl hr hae har; subst hm hl hr hae har; rfl

section chunk

variable (xq ykc yvc : FVec Ideal S1024x128 .bf16) (st : VSt Ideal) (p : Fin 1024)

/-- The scores of query row p against the block's keys. -/
abbrev chunkScores : Fin 1024 → EReal := fun j => ∑ c : Fin 128, xq (ix2 p c) * ykc (ix2 j c)

theorem chunk_newMax (u : Fin 1) :
    newMaxV (scoresV xq ykc) st.m (ix2 p u) = max (st.m (ix2 p u)) (Cert.Bridge.curOf (chunkScores xq ykc p)) := by
  rw [newMaxV_apply]
  unfold Cert.Bridge.curOf
  simp only [scoresV_apply]

theorem chunk_m : (chunkV xq ykc yvc st).m (ix2 p (0 : Fin 1))
    = max (st.m (ix2 p (0 : Fin 1))) (Cert.Bridge.curOf (chunkScores xq ykc p)) := by
  show newMaxV (scoresV xq ykc) st.m (ix2 p (0 : Fin 1)) = _
  exact chunk_newMax xq ykc st p 0

theorem chunk_l : (chunkV xq ykc yvc st).l (ix2 p (0 : Fin 1))
    = Ideal.exp (st.m (ix2 p (0 : Fin 1)) - max (st.m (ix2 p (0 : Fin 1))) (Cert.Bridge.curOf (chunkScores xq ykc p))) * st.l (ix2 p (0 : Fin 1))
      + ∑ j : Fin 1024, Ideal.exp (chunkScores xq ykc p j - max (st.m (ix2 p (0 : Fin 1))) (Cert.Bridge.curOf (chunkScores xq ykc p))) := by
  show addf (mulf (exp (subf st.m (newMaxV (scoresV xq ykc) st.m))) st.l) (shapeCast S1024x1 (multiReduction .add [1] S1024
      (exp (subf (scoresV xq ykc) (broadcastTo S1024x1024 (newMaxV (scoresV xq ykc) st.m) broadcasts_S1024x1_S1024x1024)))
      0x00000000#32 reduces_S1024x1024_S1024 (.inl rfl) rfl) shapeCasts_S1024_S1024x1) (ix2 p (0 : Fin 1)) = _
  rw [addf_apply, mulf_apply, chunk_exp_apply, subf_apply, chunk_newMax, Cert.Lib.Keepdims.shapeCast_a_a1_apply]
  congr 1
  refine (Cert.Lib.RowSums.rowSum_apply _ _ _ _ p).trans ?_
  refine Finset.sum_congr rfl fun j _ => ?_
  rw [chunk_exp_apply, subf_apply, Cert.Lib.Keepdims.broadcastTo_a1_ab_apply, chunk_newMax, scoresV_apply]

end chunk

section chunk2

variable (xq ykc yvc : FVec Ideal S1024x128 .bf16) (st : VSt Ideal) (p : Fin 1024)

theorem chunk_r : (chunkV xq ykc yvc st).r (ix2 p (0 : Fin 1))
    = st.r (ix2 p (0 : Fin 1)) + ∑ j : Fin 1024, max (chunkScores xq ykc p j) 0 := by
  show addf st.r (shapeCast S1024x1 (multiReduction .add [1] S1024
      (maximumf (scoresV xq ykc) (broadcast S1024x1024 (Scalar.ofBits .f32 0x00000000#32)))
      0x00000000#32 reduces_S1024x1024_S1024 (.inl rfl) rfl) shapeCasts_S1024_S1024x1) (ix2 p (0 : Fin 1)) = _
  rw [addf_apply, Cert.Lib.Keepdims.shapeCast_a_a1_apply]
  congr 1
  refine (Cert.Lib.RowSums.rowSum_apply _ _ _ _ p).trans ?_
  refine Finset.sum_congr rfl fun j _ => ?_
  rw [maximumf_apply, broadcast_apply, scoresV_apply]
  simp only [Scalar.ofBits, Ideal.ofBits_def, Ideal.ofBits_zero_f32]

theorem chunk_ae (d : Fin 128) : (chunkV xq ykc yvc st).ae (ix2 p d)
    = Ideal.exp (st.m (ix2 p (0 : Fin 1)) - max (st.m (ix2 p (0 : Fin 1))) (Cert.Bridge.curOf (chunkScores xq ykc p))) * st.ae (ix2 p d)
      + ∑ j : Fin 1024, Ideal.exp (chunkScores xq ykc p j - max (st.m (ix2 p (0 : Fin 1))) (Cert.Bridge.curOf (chunkScores xq ykc p))) * yvc (ix2 j d) := by
  show addf (mulf (broadcastTo S1024x128 (exp (subf st.m (newMaxV (scoresV xq ykc) st.m))) broadcasts_S1024x1_S1024x128) st.ae)
    (matmul dot_S1024x1024_S1024x128_S1024x128_1_0_0_1_n_n none
      (truncf .bf16 (exp (subf (scoresV xq ykc) (broadcastTo S1024x1024 (newMaxV (scoresV xq ykc) st.m) broadcasts_S1024x1_S1024x1024))) bitsLt_bf16_f32)
      yvc (constant S1024x128 .f32 0x00000000#32)) (ix2 p d) = _
  rw [addf_apply, mulf_apply, Cert.Lib.Keepdims.broadcastTo_a1_ab_apply, chunk_exp_apply, subf_apply, chunk_newMax]
  congr 1
  refine (Cert.Mlp.matmul_zero_at dot_S1024x1024_S1024x128_S1024x128_1_0_0_1_n_n_wf none _ yvc p d).trans ?_
  refine Finset.sum_congr rfl fun j _ => ?_
  rw [truncf_apply, chunk_exp_apply, subf_apply, Cert.Lib.Keepdims.broadcastTo_a1_ab_apply, chunk_newMax, scoresV_apply]

theorem chunk_ar (d : Fin 128) : (chunkV xq ykc yvc st).ar (ix2 p d)
    = st.ar (ix2 p d) + ∑ j : Fin 1024, max (chunkScores xq ykc p j) 0 * yvc (ix2 j d) := by
  show addf st.ar (matmul dot_S1024x1024_S1024x128_S1024x128_1_0_0_1_n_n none
      (truncf .bf16 (maximumf (scoresV xq ykc) (broadcast S1024x1024 (Scalar.ofBits .f32 0x00000000#32))) bitsLt_bf16_f32)
      yvc (constant S1024x128 .f32 0x00000000#32)) (ix2 p d) = _
  rw [addf_apply]
  congr 1
  refine (Cert.Mlp.matmul_zero_at dot_S1024x1024_S1024x128_S1024x128_1_0_0_1_n_n_wf none _ yvc p d).trans ?_
  refine Finset.sum_congr rfl fun j _ => ?_
  rw [truncf_apply, maximumf_apply, broadcast_apply, scoresV_apply]
  simp only [Scalar.ofBits, Ideal.ofBits_def, Ideal.ofBits_zero_f32]

/-- One block of keys folded into the block state is, row by row, the per-row online step. -/
theorem rowSt_chunk :
    rowSt (chunkV xq ykc yvc st) p
      = Cert.Attn.step (fun j : Fin 1024 => ∑ c : Fin 128, xq (ix2 p c) * ykc (ix2 j c)) (fun (j : Fin 1024) (d : Fin 128) => yvc (ix2 j d))
          (Cert.Bridge.curOf (fun j : Fin 1024 => ∑ c : Fin 128, xq (ix2 p c) * ykc (ix2 j c))) (rowSt st p) := by
  refine rowSt_ext ?_ ?_ ?_ ?_ ?_
  · exact chunk_m xq ykc yvc st p
  · exact chunk_l xq ykc yvc st p
  · exact chunk_r xq ykc yvc st p
  · exact funext fun d => chunk_ae xq ykc yvc st p d
  · exact funext fun d => chunk_ar xq ykc yvc st p d

end chunk2

/-! Rows 1024·k + j of the keys (values) are block k's row j. -/

theorem rows0_apply (a : Vec Ideal S8192x128 .bf16) (j : Fin 1024) (c : Fin 128) :
    rows0 a (ix2 j c) = a (ix2 (Cert.Bridge.key 0 j) c) := by
  show a _ = a _
  refine congrArg a (funext fun ax => Fin.ext ?_)
  have hj := j.isLt
  match ax with
  | ⟨0, _⟩ =>
    show 0 + 1 * j.val = (1024 * 0 + j.val) % 8192
    omega
  | ⟨1, _⟩ =>
    show 0 + 1 * c.val = c.val
    omega

theorem rows1_apply (a : Vec Ideal S8192x128 .bf16) (j : Fin 1024) (c : Fin 128) :
    rows1 a (ix2 j c) = a (ix2 (Cert.Bridge.key 1 j) c) := by
  show a _ = a _
  refine congrArg a (funext fun ax => Fin.ext ?_)
  have hj := j.isLt
  match ax with
  | ⟨0, _⟩ =>
    show 1024 + 1 * j.val = (1024 * 1 + j.val) % 8192
    omega
  | ⟨1, _⟩ =>
    show 0 + 1 * c.val = c.val
    omega

theorem rows2_apply (a : Vec Ideal S8192x128 .bf16) (j : Fin 1024) (c : Fin 128) :
    rows2 a (ix2 j c) = a (ix2 (Cert.Bridge.key 2 j) c) := by
  show a _ = a _
  refine congrArg a (funext fun ax => Fin.ext ?_)
  have hj := j.isLt
  match ax with
  | ⟨0, _⟩ =>
    show 2048 + 1 * j.val = (1024 * 2 + j.val) % 8192
    omega
  | ⟨1, _⟩ =>
    show 0 + 1 * c.val = c.val
    omega

theorem rows3_apply (a : Vec Ideal S8192x128 .bf16) (j : Fin 1024) (c : Fin 128) :
    rows3 a (ix2 j c) = a (ix2 (Cert.Bridge.key 3 j) c) := by
  show a _ = a _
  refine congrArg a (funext fun ax => Fin.ext ?_)
  have hj := j.isLt
  match ax with
  | ⟨0, _⟩ =>
    show 3072 + 1 * j.val = (1024 * 3 + j.val) % 8192
    omega
  | ⟨1, _⟩ =>
    show 0 + 1 * c.val = c.val
    omega

theorem rows4_apply (a : Vec Ideal S8192x128 .bf16) (j : Fin 1024) (c : Fin 128) :
    rows4 a (ix2 j c) = a (ix2 (Cert.Bridge.key 4 j) c) := by
  show a _ = a _
  refine congrArg a (funext fun ax => Fin.ext ?_)
  have hj := j.isLt
  match ax with
  | ⟨0, _⟩ =>
    show 4096 + 1 * j.val = (1024 * 4 + j.val) % 8192
    omega
  | ⟨1, _⟩ =>
    show 0 + 1 * c.val = c.val
    omega

theorem rows5_apply (a : Vec Ideal S8192x128 .bf16) (j : Fin 1024) (c : Fin 128) :
    rows5 a (ix2 j c) = a (ix2 (Cert.Bridge.key 5 j) c) := by
  show a _ = a _
  refine congrArg a (funext fun ax => Fin.ext ?_)
  have hj := j.isLt
  match ax with
  | ⟨0, _⟩ =>
    show 5120 + 1 * j.val = (1024 * 5 + j.val) % 8192
    omega
  | ⟨1, _⟩ =>
    show 0 + 1 * c.val = c.val
    omega

theorem rows6_apply (a : Vec Ideal S8192x128 .bf16) (j : Fin 1024) (c : Fin 128) :
    rows6 a (ix2 j c) = a (ix2 (Cert.Bridge.key 6 j) c) := by
  show a _ = a _
  refine congrArg a (funext fun ax => Fin.ext ?_)
  have hj := j.isLt
  match ax with
  | ⟨0, _⟩ =>
    show 6144 + 1 * j.val = (1024 * 6 + j.val) % 8192
    omega
  | ⟨1, _⟩ =>
    show 0 + 1 * c.val = c.val
    omega

theorem rows7_apply (a : Vec Ideal S8192x128 .bf16) (j : Fin 1024) (c : Fin 128) :
    rows7 a (ix2 j c) = a (ix2 (Cert.Bridge.key 7 j) c) := by
  show a _ = a _
  refine congrArg a (funext fun ax => Fin.ext ?_)
  have hj := j.isLt
  match ax with
  | ⟨0, _⟩ =>
    show 7168 + 1 * j.val = (1024 * 7 + j.val) % 8192
    omega
  | ⟨1, _⟩ =>
    show 0 + 1 * c.val = c.val
    omega

/-- The step lemma with the block given as rows 1024·k … 1024·k + 1023 of the full key and value arrays. -/
theorem rowSt_chunk_rows (k : ℕ) (rk : Vec Ideal S8192x128 .bf16 → Vec Ideal S1024x128 .bf16)
    (hrk : ∀ (a : Vec Ideal S8192x128 .bf16) (j : Fin 1024) (c : Fin 128), rk a (ix2 j c) = a (ix2 (Cert.Bridge.key k j) c))
    (xq : FVec Ideal S1024x128 .bf16) (yk yv : Vec Ideal S8192x128 .bf16) (st : VSt Ideal) (p : Fin 1024) :
    rowSt (chunkV xq (rk yk) (rk yv) st) p
      = Cert.Attn.step (fun j : Fin 1024 => ∑ c : Fin 128, xq (ix2 p c) * yk (ix2 (Cert.Bridge.key k j) c))
          (fun (j : Fin 1024) (d : Fin 128) => yv (ix2 (Cert.Bridge.key k j) d))
          (Cert.Bridge.curOf (fun j : Fin 1024 => ∑ c : Fin 128, xq (ix2 p c) * yk (ix2 (Cert.Bridge.key k j) c))) (rowSt st p) := by
  rw [rowSt_chunk]
  simp only [hrk]

/-- The state after the eight blocks is, row by row, the per-row state after eight online steps. -/
theorem rowSt_st8 (xq : FVec Ideal S1024x128 .bf16) (yk yv : Vec Ideal S8192x128 .bf16) (p : Fin 1024) :
    rowSt (st8 xq yk yv) p
      = Cert.Attn.run (fun k (j : Fin 1024) => ∑ c : Fin 128, xq (ix2 p c) * yk (ix2 (Cert.Bridge.key k j) c))
          (fun k (j : Fin 1024) (d : Fin 128) => yv (ix2 (Cert.Bridge.key k j) d))
          (fun k => Cert.Bridge.curOf (fun j : Fin 1024 => ∑ c : Fin 128, xq (ix2 p c) * yk (ix2 (Cert.Bridge.key k j) c))) 8 := by
  unfold st8
  rw [rowSt_chunk_rows 7 rows7 rows7_apply, rowSt_chunk_rows 6 rows6 rows6_apply, rowSt_chunk_rows 5 rows5 rows5_apply,
    rowSt_chunk_rows 4 rows4 rows4_apply, rowSt_chunk_rows 3 rows3 rows3_apply, rowSt_chunk_rows 2 rows2 rows2_apply,
    rowSt_chunk_rows 1 rows1 rows1_apply, rowSt_chunk_rows 0 rows0 rows0_apply, rowSt_init]
  simp only [Cert.Attn.run]

end Cert.KernelIdeal.R1

end
-- ==== Proof.R1Ends.lean ====
/-
  The two ends of the fused kernel's body, read at one entry on the extended reals: the query block is the dense map
  of the layer norm of a row of x; the output block is the perceptron of the layer norm of z1 plus z1, where z1 is the
  attention output of the row's final state plus the row of x.
-/
import proofs.«161096_j60911226192506_2_alg».proof.Proof.R1Body
import proofs.«161096_j60911226192506_2_alg».proof.Proof.Spec
import proofs.«161096_j60911226192506_2_alg».proof.Proof.AttnDefs
import proofs.«161096_j60911226192506_2_alg».proof.Proof.LibLnAt
import proofs.«161096_j60911226192506_2_alg».proof.Proof.LibMlpAt
import proofs.«161096_j60911226192506_2_alg».proof.Proof.LibKeepdims
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx Idealize.SL.Sem

namespace Cert.KernelIdeal.R1

open Cert.KernelIdeal Cert.KernelIdeal.Gen Cert.Lib.Keepdims

/-! ## One-row blocks and the layer norm of a block -/

/-- A vector [128] re-laid as the one-row block [1, 128]. -/
def row128 (v : Vec Ideal S128 .f32) : FVec Ideal S1x128 .f32 := shapeCast S1x128 v shapeCasts_S128_S1x128

theorem row128_apply (v : Vec Ideal S128 .f32) (u : Fin 1) (i : Fin 128) : row128 v (ix2 u i) = v (ix1 i) :=
  shapeCast_a_1a_apply v shapeCasts_S128_S1x128 u i

/-- A vector [512] re-laid as the one-row block [1, 512]. -/
def row512 (v : Vec Ideal S512 .f32) : FVec Ideal S1x512 .f32 := shapeCast S1x512 v shapeCasts_S512_S1x512

theorem row512_apply (v : Vec Ideal S512 .f32) (u : Fin 1) (i : Fin 512) : row512 v (ix2 u i) = v (ix1 i) :=
  shapeCast_a_1a_apply v shapeCasts_S512_S1x512 u i

/-- The layer norm of every row of a [1024, 128] block, in the tile's spelling. -/
def lnBlk (o : FVec Ideal S1024x128 .f32) (g b : Vec Ideal S128 .f32) : FVec Ideal S1024x128 .f32 :=
  Cert.Ln.lnTile Cert.Spec.w128 Cert.Spec.wEps reduces_S1024x128_S1024 shapeCasts_S1024_S1024x1
    broadcasts_S1024x1_S1024x128 broadcasts_S1x128_S1024x128 (.inl rfl) rfl o (row128 g) (row128 b)

theorem lnBlk_apply (o : FVec Ideal S1024x128 .f32) (g b : Vec Ideal S128 .f32) (p : Fin 1024) (q : Fin 128) :
    lnBlk o g b (ix2 p q) = Cert.Spec.ln (fun k => o (ix2 p k)) (fun k => g (ix1 k)) (fun k => b (ix1 k)) q := by
  refine (Cert.Ln.lnTile_at Cert.Spec.w128 Cert.Spec.wEps reduces_S1024x128_S1024 shapeCasts_S1024_S1024x1
    broadcasts_S1024x1_S1024x128 broadcasts_S1x128_S1024x128 (.inl rfl) rfl o (row128 g) (row128 b) p q).trans ?_
  exact Cert.Ln.lnVal_congr _ _ (fun _ => rfl) (fun k => row128_apply g 0 k) (fun k => row128_apply b 0 k) q

/-! ## The query block -/

/-- The query block is the dense map of the layer-normalised block, every operand narrowed on the way. -/
theorem pay2_eq (x : Vec Ideal S1024x128 .f32) (g b : Vec Ideal S128 .f32) (Wq : Vec Ideal S128x128 .f32) (bq : Vec Ideal S128 .f32) :
    k1_pay2 (F := Ideal) x g b Wq bq
      = truncf .bf16 (addf (matmul (Cert.Mlp.D2 dot_S1024x128_S128x128_S1024x128_1_0_0_1_n_n_wf) none
            (truncf .bf16 (lnBlk x g b) bitsLt_bf16_f32) (truncf .bf16 Wq bitsLt_bf16_f32) (constant S1024x128 .f32 0x00000000#32))
          (broadcastTo S1024x128 (row128 bq) broadcasts_S1x128_S1024x128)) bitsLt_bf16_f32 := rfl

/-- The query block at (p, c): the dense map (Wq, bq) of the layer norm of row p of x. -/
theorem pay2_apply (x : Vec Ideal S1024x128 .f32) (g b : Vec Ideal S128 .f32) (Wq : Vec Ideal S128x128 .f32) (bq : Vec Ideal S128 .f32) (p : Fin 1024) (c : Fin 128) :
    k1_pay2 (F := Ideal) x g b Wq bq (ix2 p c)
      = Cert.Spec.query (fun k => x (ix2 p k)) (fun k => g (ix1 k)) (fun k => b (ix1 k)) (fun k c => Wq (ix2 k c)) (fun c => bq (ix1 c)) c := by
  rw [pay2_eq, truncf_apply, addf_apply, Cert.Mlp.matmul_zero_at, broadcastTo_1b_ab_apply, row128_apply]
  unfold Cert.Spec.query Cert.Spec.dense
  refine congrArg (fun s => s + bq (ix1 c)) ?_
  refine Finset.sum_congr rfl fun k _ => ?_
  rw [truncf_apply, truncf_apply, lnBlk_apply]

/-! ## The output block -/

/-- z1 at (p, d): the attention output of row p's state (whatever its maximum) plus x. -/
theorem pay104_apply (x : Vec Ideal S1024x128 .f32) (l r : Vec Ideal S1024x1 .f32) (ar ae : Vec Ideal S1024x128 .f32) (m : EReal)
    (p : Fin 1024) (d : Fin 128) :
    k1_pay104 (F := Ideal) x l r ar ae (ix2 p d)
      = Cert.Attn.out (Ideal.ofBits .f32 Cert.Spec.w01) (Ideal.ofBits .f32 0x3F800000#32)
          (⟨m, l (ix2 p (0 : Fin 1)), r (ix2 p (0 : Fin 1)), fun d => ae (ix2 p d), fun d => ar (ix2 p d)⟩ : Cert.Attn.St (Fin 128)) d
        + x (ix2 p d) := by
  unfold k1_pay104 Cert.Attn.out
  rw [addf_apply, mulf_apply, addf_apply, mulf_apply, mulf_apply, broadcastTo_a1_ab_apply, broadcastTo_a1_ab_apply,
    divf_apply, divf_apply, addf_apply, mulf_apply]
  rfl

/-- The output block from z1: the three-layer perceptron of the layer norm of z1, plus z1. -/
theorem epi_eq (x : Vec Ideal S1024x128 .f32) (st : VSt Ideal) (g b : Vec Ideal S128 .f32) (W1 : Vec Ideal S128x512 .f32) (b1 : Vec Ideal S512 .f32)
    (W2 : Vec Ideal S512x512 .f32) (b2 : Vec Ideal S512 .f32) (W3 : Vec Ideal S512x128 .f32) (b3 : Vec Ideal S128 .f32) :
    epi x st g b W1 b1 W2 b2 W3 b3
      = addf (addf (matmul (Cert.Mlp.D2 dot_S1024x512_S512x128_S1024x128_1_0_0_1_n_n_wf) none
            (truncf .bf16 (Cert.Mlp.mlpTile dot_S1024x128_S128x512_S1024x512_1_0_0_1_n_n_wf dot_S1024x512_S512x512_S1024x512_1_0_0_1_n_n_wf
              broadcasts_S1x512_S1024x512 bitsLt_bf16_f32 (lnBlk (k1_pay104 x st.l st.r st.ar st.ae) g b) W1 (row512 b1) W2 (row512 b2)) bitsLt_bf16_f32)
            (truncf .bf16 W3 bitsLt_bf16_f32) (constant S1024x128 .f32 0x00000000#32))
          (broadcastTo S1024x128 (row128 b3) broadcasts_S1x128_S1024x128))
        (k1_pay104 x st.l st.r st.ar st.ae) := rfl

/-- The output block at (p, c) from the final state: residual, layer norm, perceptron, residual. -/
theorem epi_apply (x : Vec Ideal S1024x128 .f32) (st : VSt Ideal) (g b : Vec Ideal S128 .f32) (W1 : Vec Ideal S128x512 .f32) (b1 : Vec Ideal S512 .f32)
    (W2 : Vec Ideal S512x512 .f32) (b2 : Vec Ideal S512 .f32) (W3 : Vec Ideal S512x128 .f32) (b3 : Vec Ideal S128 .f32) (p : Fin 1024) (c : Fin 128) :
    epi x st g b W1 b1 W2 b2 W3 b3 (ix2 p c)
      = Cert.Spec.tail
          (Cert.Attn.out (Ideal.ofBits .f32 Cert.Spec.w01) (Ideal.ofBits .f32 0x3F800000#32)
            (⟨st.m (ix2 p (0 : Fin 1)), st.l (ix2 p (0 : Fin 1)), st.r (ix2 p (0 : Fin 1)), fun d => st.ae (ix2 p d), fun d => st.ar (ix2 p d)⟩ : Cert.Attn.St (Fin 128)))
          (fun k => x (ix2 p k)) (fun k => g (ix1 k)) (fun k => b (ix1 k)) (fun k k1 => W1 (ix2 k k1)) (fun k1 => b1 (ix1 k1))
          (fun k1 k2 => W2 (ix2 k1 k2)) (fun k2 => b2 (ix1 k2)) (fun k2 c => W3 (ix2 k2 c)) (fun c => b3 (ix1 c)) c := by
  have hz : ∀ d : Fin 128, k1_pay104 (F := Ideal) x st.l st.r st.ar st.ae (ix2 p d)
      = Cert.Attn.out (Ideal.ofBits .f32 Cert.Spec.w01) (Ideal.ofBits .f32 0x3F800000#32)
          (⟨st.m (ix2 p (0 : Fin 1)), st.l (ix2 p (0 : Fin 1)), st.r (ix2 p (0 : Fin 1)), fun d => st.ae (ix2 p d), fun d => st.ar (ix2 p d)⟩ : Cert.Attn.St (Fin 128)) d
        + x (ix2 p d) := fun d => pay104_apply x st.l st.r st.ar st.ae (st.m (ix2 p (0 : Fin 1))) p d
  rw [epi_eq, addf_apply, addf_apply, Cert.Mlp.matmul_zero_at, broadcastTo_1b_ab_apply, row128_apply, hz c]
  unfold Cert.Spec.tail Cert.Spec.mlp Cert.Spec.dense
  refine congrArg (fun s => s + b3 (ix1 c) + _) ?_
  refine Finset.sum_congr rfl fun k2 _ => ?_
  rw [truncf_apply, truncf_apply, Cert.Mlp.mlpTile_at]
  unfold Cert.Mlp.mlpVal
  rw [Ideal.ofBits_zero_f32, row512_apply]
  refine congrArg (fun s => max (s + b2 (ix1 k2)) 0 * W3 (ix2 k2 c)) ?_
  refine Finset.sum_congr rfl fun k1 _ => ?_
  rw [row512_apply]
  refine congrArg (fun s => max (s + b1 (ix1 k1)) 0 * W2 (ix2 k1 k2)) ?_
  refine Finset.sum_congr rfl fun k _ => ?_
  rw [lnBlk_apply, funext hz]

end Cert.KernelIdeal.R1

end
-- ==== Proof.AttnMath.lean ====
/-
  The online (chunk by chunk) smooth-softmax attention of one query row equals the two-pass form, on the extended
  reals, when every score and value is a real number.

  Online: a running maximum M, the sums Σ exp (s - M) and Σ exp (s - M)·v rescaled by exp (M - M') whenever the
  maximum moves to M', and the plain running sums Σ max (s, 0) and Σ max (s, 0)·v. After the first chunk all of these
  are real (the start value -∞ of the maximum only ever multiplies zeros), and by exp (M - M')·exp (s - M) =
  exp (s - M') the rescaled sums after k chunks are the sums relative to the current maximum. At the end the running
  maximum is the row maximum mx; one key attains it, so L = Σ exp (s - mx) ≥ 1 > 0, the softmax weights sum to one, the
  two-pass weights (max (s, 0)·c + exp (s - mx)/L) sum to c·R + 1 ≥ 1, and both forms equal
  (c·Σ max (s, 0)·v + (Σ exp (s - mx)·v)·(1/L))·(1/(c·R + 1)).
-/
import proofs.«161096_j60911226192506_2_alg».proof.Proof.AttnDefs

noncomputable section

namespace Cert.Attn

open Idealize.ShloMosaic

variable {J D : Type} [Fintype J]

/-! ### Coercion of real sums, maxima and exponentials into the extended reals -/

/-- The coercion of a finite real sum is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion is monotone, so it commutes with the binary maximum. -/
theorem coe_max (a b : ℝ) : ((max a b : ℝ) : EReal) = max (a : EReal) (b : EReal) :=
  EReal.coe_strictMono.monotone.map_max

theorem exp_coe_sub (a b : ℝ) : Ideal.exp ((a : EReal) - (b : EReal)) = ((Real.exp (a - b) : ℝ) : EReal) := by
  rw [← EReal.coe_sub]; rfl

theorem relu_coe (a : ℝ) : max (a : EReal) 0 = ((max a 0 : ℝ) : EReal) := by
  rw [coe_max, EReal.coe_zero]

section Chunk
variable {ι : Type} [Fintype ι]

theorem sum_exp_coe (s : ι → ℝ) (M : ℝ) :
    ∑ i, Ideal.exp ((s i : EReal) - (M : EReal)) = ((∑ i, Real.exp (s i - M) : ℝ) : EReal) := by
  rw [coe_sum]; exact Finset.sum_congr rfl fun i _ => exp_coe_sub _ _

theorem sum_relu_coe (s : ι → ℝ) :
    ∑ i, max (s i : EReal) 0 = ((∑ i, max (s i) 0 : ℝ) : EReal) := by
  rw [coe_sum]; exact Finset.sum_congr rfl fun i _ => relu_coe _

theorem sum_exp_mul_coe (s : ι → ℝ) (w : ι → ℝ) (M : ℝ) :
    ∑ i, Ideal.exp ((s i : EReal) - (M : EReal)) * (w i : EReal)
      = ((∑ i, Real.exp (s i - M) * w i : ℝ) : EReal) := by
  rw [coe_sum]
  exact Finset.sum_congr rfl fun i _ => by rw [exp_coe_sub, EReal.coe_mul]

theorem sum_relu_mul_coe (s : ι → ℝ) (w : ι → ℝ) :
    ∑ i, max (s i : EReal) 0 * (w i : EReal) = ((∑ i, max (s i) 0 * w i : ℝ) : EReal) := by
  rw [coe_sum]
  exact Finset.sum_congr rfl fun i _ => by rw [relu_coe, EReal.coe_mul]

end Chunk

/-! ### The real-valued invariant of the online recursion -/

/-- After k ≥ 1 chunks the state is real: the maximum is M, the exp-sums are taken relative to M, the
    relu-sums are plain. -/
structure Inv (s : ℕ → J → ℝ) (v : ℕ → J → D → ℝ) (k : ℕ) (M : ℝ) (st : St D) : Prop where
  m : st.m = (M : EReal)
  l : st.l = ((∑ k' ∈ Finset.range k, ∑ j, Real.exp (s k' j - M) : ℝ) : EReal)
  r : st.r = ((∑ k' ∈ Finset.range k, ∑ j, max (s k' j) 0 : ℝ) : EReal)
  ae : ∀ d, st.ae d = ((∑ k' ∈ Finset.range k, ∑ j, Real.exp (s k' j - M) * v k' j d : ℝ) : EReal)
  ar : ∀ d, st.ar d = ((∑ k' ∈ Finset.range k, ∑ j, max (s k' j) 0 * v k' j d : ℝ) : EReal)

/-- Rescaling: exp (M - M') · Σ Σ exp (s - M) · w = Σ Σ exp (s - M') · w. -/
theorem rescale (s : ℕ → J → ℝ) (w : ℕ → J → ℝ) (k : ℕ) (M M' : ℝ) :
    Real.exp (M - M') * ∑ k' ∈ Finset.range k, ∑ j, Real.exp (s k' j - M) * w k' j
      = ∑ k' ∈ Finset.range k, ∑ j, Real.exp (s k' j - M') * w k' j := by
  rw [Finset.mul_sum]
  refine Finset.sum_congr rfl fun k' _ => ?_
  rw [Finset.mul_sum]
  refine Finset.sum_congr rfl fun j _ => ?_
  rw [← mul_assoc, ← Real.exp_add]
  congr 2; ring

theorem rescale_one (s : ℕ → J → ℝ) (k : ℕ) (M M' : ℝ) :
    Real.exp (M - M') * ∑ k' ∈ Finset.range k, ∑ j, Real.exp (s k' j - M)
      = ∑ k' ∈ Finset.range k, ∑ j, Real.exp (s k' j - M') := by
  simpa using rescale s (fun _ _ => 1) k M M'

/-- The first chunk, from the empty state: exp (-∞) = 0 kills nothing but zeros. -/
theorem Inv.first (s : ℕ → J → ℝ) (v : ℕ → J → D → ℝ) (c : ℝ) :
    Inv s v 1 c (step (fun j => (s 0 j : EReal)) (fun j d => (v 0 j d : EReal)) (c : EReal) (init : St D)) where
  m := by
    show max (⊥ : EReal) (c : EReal) = _
    exact max_eq_right bot_le
  l := by
    show Ideal.exp (⊥ - max ⊥ (c : EReal)) * 0 + ∑ j, Ideal.exp ((s 0 j : EReal) - max ⊥ (c : EReal)) = _
    rw [mul_zero, zero_add, max_eq_right (bot_le : (⊥ : EReal) ≤ c), sum_exp_coe, Finset.sum_range_one]
  r := by
    show (0 : EReal) + ∑ j, max (s 0 j : EReal) 0 = _
    rw [zero_add, sum_relu_coe, Finset.sum_range_one]
  ae := fun d => by
    show Ideal.exp (⊥ - max ⊥ (c : EReal)) * 0
      + ∑ j, Ideal.exp ((s 0 j : EReal) - max ⊥ (c : EReal)) * (v 0 j d : EReal) = _
    rw [mul_zero, zero_add, max_eq_right (bot_le : (⊥ : EReal) ≤ c),
      sum_exp_mul_coe (fun j => s 0 j) (fun j => v 0 j d), Finset.sum_range_one]
  ar := fun d => by
    show (0 : EReal) + ∑ j, max (s 0 j : EReal) 0 * (v 0 j d : EReal) = _
    rw [zero_add, sum_relu_mul_coe (fun j => s 0 j) (fun j => v 0 j d), Finset.sum_range_one]

/-- One further chunk: the old sums are rescaled from M to max M c. -/
theorem Inv.next {s : ℕ → J → ℝ} {v : ℕ → J → D → ℝ} {k : ℕ} {M : ℝ} {st : St D}
    (h : Inv s v k M st) (c : ℝ) :
    Inv s v (k + 1) (max M c)
      (step (fun j => (s k j : EReal)) (fun j d => (v k j d : EReal)) (c : EReal) st) where
  m := by
    show max st.m (c : EReal) = _
    rw [h.m, coe_max]
  l := by
    show Ideal.exp (st.m - max st.m (c : EReal)) * st.l
      + ∑ j, Ideal.exp ((s k j : EReal) - max st.m (c : EReal)) = _
    rw [h.m, h.l, ← coe_max, exp_coe_sub, sum_exp_coe, ← EReal.coe_mul, ← EReal.coe_add,
      rescale_one, Finset.sum_range_succ]
  r := by
    show st.r + ∑ j, max (s k j : EReal) 0 = _
    rw [h.r, sum_relu_coe, ← EReal.coe_add, Finset.sum_range_succ]
  ae := fun d => by
    show Ideal.exp (st.m - max st.m (c : EReal)) * st.ae d
      + ∑ j, Ideal.exp ((s k j : EReal) - max st.m (c : EReal)) * (v k j d : EReal) = _
    rw [h.m, h.ae, ← coe_max, exp_coe_sub, sum_exp_mul_coe (fun j => s k j) (fun j => v k j d),
      ← EReal.coe_mul, ← EReal.coe_add, rescale s (fun k' j => v k' j d), Finset.sum_range_succ]
  ar := fun d => by
    show st.ar d + ∑ j, max (s k j : EReal) 0 * (v k j d : EReal) = _
    rw [h.ar, sum_relu_mul_coe (fun j => s k j) (fun j => v k j d), ← EReal.coe_add,
      Finset.sum_range_succ]

/-- After k+1 chunks the state is real, and its maximum is the greatest of the chunk maxima so far. -/
theorem run_inv (s : ℕ → J → ℝ) (v : ℕ → J → D → ℝ) (cur : ℕ → ℝ) (k : ℕ) :
    ∃ M : ℝ, (∀ k', k' ≤ k → cur k' ≤ M) ∧ (∃ k', k' ≤ k ∧ M = cur k') ∧
      Inv s v (k + 1) M
        (run (fun k j => (s k j : EReal)) (fun k j d => (v k j d : EReal)) (fun k => (cur k : EReal)) (k + 1)) := by
  induction k with
  | zero =>
    refine ⟨cur 0, fun k' hk' => ?_, ⟨0, le_rfl, rfl⟩, Inv.first s v (cur 0)⟩
    rw [Nat.le_zero.1 hk']
  | succ k ih =>
    obtain ⟨M, hub, ⟨k0, hk0, hM⟩, hinv⟩ := ih
    refine ⟨max M (cur (k + 1)), fun k' hk' => ?_, ?_, hinv.next (cur (k + 1))⟩
    · rcases Nat.lt_or_ge k' (k + 1) with hlt | hge
      · exact le_trans (hub k' (Nat.lt_succ_iff.1 hlt)) (le_max_left _ _)
      · rw [le_antisymm hk' hge]; exact le_max_right _ _
    · rcases le_total M (cur (k + 1)) with hle | hle
      · exact ⟨k + 1, le_rfl, max_eq_right hle⟩
      · exact ⟨k0, Nat.le_succ_of_le hk0, by rw [max_eq_left hle, hM]⟩

/-! ### The closing algebra, on the reals -/

section Final
variable {I : Type} [Fintype I]

/-- The two-pass weights sum to c·R + 1: the softmax part sums to one. -/
theorem weight_sum (a e : I → ℝ) (c : ℝ) (hL : (∑ i, e i) ≠ 0) :
    ∑ i, (a i * c + e i * (1 / ∑ i', e i')) = c * (∑ i, a i) + 1 := by
  rw [Finset.sum_add_distrib, ← Finset.sum_mul, ← Finset.sum_mul, mul_one_div_cancel hL, mul_comm]

/-- The normalised weighted sum, with the sums pulled out. -/
theorem weighted_sum (a e w : I → ℝ) (c L W : ℝ) :
    ∑ i, (a i * c + e i * (1 / L)) * (1 / W) * w i
      = (c * (∑ i, a i * w i) + (∑ i, e i * w i) * (1 * (1 / L))) * (1 * (1 / W)) := by
  rw [Finset.mul_sum, Finset.sum_mul, ← Finset.sum_add_distrib, Finset.sum_mul]
  refine Finset.sum_congr rfl fun i _ => ?_
  ring

/-- The two-pass form on real data is real, with the closed form below. -/
theorem ref_coe (s : I → ℝ) (v : I → D → ℝ) (mx c : ℝ) (hL : 0 < ∑ i, Real.exp (s i - mx))
    (hc : 0 ≤ c) (d : D) :
    ref (fun i => (s i : EReal)) (fun i d => (v i d : EReal)) (mx : EReal) (c : EReal) d
      = (((c * (∑ i, max (s i) 0 * v i d) + (∑ i, Real.exp (s i - mx) * v i d)
            * (1 * (1 / ∑ i, Real.exp (s i - mx)))) * (1 * (1 / (c * (∑ i, max (s i) 0) + 1))) : ℝ) : EReal) := by
  have hR : 0 ≤ ∑ i, max (s i) 0 := Finset.sum_nonneg fun i _ => le_max_right _ _
  have hW : c * (∑ i, max (s i) 0) + 1 ≠ 0 := by positivity
  have hw : ∀ i, max (s i : EReal) 0 * (c : EReal)
      + Ideal.div (Ideal.exp ((s i : EReal) - (mx : EReal))) (∑ i', Ideal.exp ((s i' : EReal) - (mx : EReal)))
      = ((max (s i) 0 * c + Real.exp (s i - mx) * (1 / ∑ i', Real.exp (s i' - mx)) : ℝ) : EReal) := fun i => by
    rw [sum_exp_coe, Ideal.div_coe hL.ne', exp_coe_sub, relu_coe, ← EReal.coe_mul, ← EReal.coe_mul,
      ← EReal.coe_add]
  show ∑ i, Ideal.div (max (s i : EReal) 0 * (c : EReal)
        + Ideal.div (Ideal.exp ((s i : EReal) - (mx : EReal))) (∑ i', Ideal.exp ((s i' : EReal) - (mx : EReal))))
      (∑ i', (max (s i' : EReal) 0 * (c : EReal)
        + Ideal.div (Ideal.exp ((s i' : EReal) - (mx : EReal))) (∑ i'', Ideal.exp ((s i'' : EReal) - (mx : EReal)))))
      * (v i d : EReal) = _
  simp only [hw]
  rw [← coe_sum, weight_sum (fun i => max (s i) 0) (fun i => Real.exp (s i - mx)) c hL.ne']
  rw [← weighted_sum (fun i => max (s i) 0) (fun i => Real.exp (s i - mx)) (fun i => v i d), coe_sum]
  refine Finset.sum_congr rfl fun i _ => ?_
  rw [Ideal.div_coe hW, ← EReal.coe_mul, ← EReal.coe_mul]

end Final

/-- The online form's output from a real state, in the same closed form. -/
theorem out_coe (st : St D) (c L R AE AR : ℝ) (d : D) (hL : L ≠ 0) (hW : c * R + 1 ≠ 0)
    (hl : st.l = (L : EReal)) (hr : st.r = (R : EReal)) (hae : st.ae d = (AE : EReal))
    (har : st.ar d = (AR : EReal)) :
    out (c : EReal) 1 st d = (((c * AR + AE * (1 * (1 / L))) * (1 * (1 / (c * R + 1))) : ℝ) : EReal) := by
  show ((c : EReal) * st.ar d + st.ae d * Ideal.div 1 st.l) * Ideal.div 1 ((c : EReal) * st.r + 1) = _
  rw [hl, hr, hae, har, ← EReal.coe_one, Ideal.div_coe hL, ← EReal.coe_mul c R, ← EReal.coe_add,
    Ideal.div_coe hW]
  simp only [← EReal.coe_mul, ← EReal.coe_add]

/-- A sum over (chunk, key) pairs is the iterated sum. -/
theorem sum_fin_prod (n : ℕ) (f : ℕ → J → ℝ) :
    ∑ i : Fin n × J, f i.1.val i.2 = ∑ k ∈ Finset.range n, ∑ j, f k j := by
  rw [Fintype.sum_prod_type, Fin.sum_univ_eq_sum_range (fun k => ∑ j, f k j)]

/-- The online computation over n chunks of real scores and values equals the two-pass smooth-softmax attention over
    all keys, whenever each chunk maximum cur k is attained in and bounds its chunk and mx is attained in and bounds
    the whole row. -/
theorem out_run_eq_ref (n : ℕ) (s : ℕ → J → ℝ) (v : ℕ → J → D → ℝ) (cur : ℕ → ℝ)
    (hle : ∀ k j, s k j ≤ cur k) (hex : ∀ k, ∃ j, cur k = s k j)
    (mx : ℝ) (hmle : ∀ k : Fin n, ∀ j, s k j ≤ mx) (hmex : ∃ k : Fin n, ∃ j, mx = s k j)
    (c : ℝ) (hc : 0 ≤ c) (d : D) :
    out (c : EReal) 1 (run (fun k j => (s k j : EReal)) (fun k j d => (v k j d : EReal)) (fun k => (cur k : EReal)) n) d
      = ref (I := Fin n × J) (fun kj => (s kj.1.val kj.2 : EReal)) (fun kj d => (v kj.1.val kj.2 d : EReal)) (mx : EReal) (c : EReal) d := by
  obtain ⟨k0, j0, hk0⟩ := hmex
  obtain ⟨k, rfl⟩ : ∃ k, n = k + 1 := ⟨n - 1, (Nat.succ_pred_eq_of_pos (Fin.pos k0)).symm⟩
  obtain ⟨M, hub, ⟨k1, hk1, hM⟩, hinv⟩ := run_inv s v cur k
  -- the running maximum is the row maximum
  have hMmx : M = mx := by
    apply le_antisymm
    · obtain ⟨j1, hj1⟩ := hex k1
      rw [hM, hj1]
      exact hmle ⟨k1, Nat.lt_succ_of_le hk1⟩ j1
    · rw [hk0]
      exact le_trans (hle k0 j0) (hub k0 (Nat.lt_succ_iff.1 k0.isLt))
  subst hMmx
  -- one key attains the maximum, so the exp-sum is positive
  have hLpos : 0 < ∑ i : Fin (k + 1) × J, Real.exp (s i.1.val i.2 - M) :=
    Finset.sum_pos (fun i _ => Real.exp_pos _) ⟨(k0, j0), Finset.mem_univ _⟩
  have hR : 0 ≤ ∑ k' ∈ Finset.range (k + 1), ∑ j, max (s k' j) 0 :=
    Finset.sum_nonneg fun _ _ => Finset.sum_nonneg fun _ _ => le_max_right _ _
  have e1 := sum_fin_prod (J := J) (k + 1) (fun k' j => Real.exp (s k' j - M))
  have e2 := sum_fin_prod (J := J) (k + 1) (fun k' j => max (s k' j) 0)
  have e3 := sum_fin_prod (J := J) (k + 1) (fun k' j => Real.exp (s k' j - M) * v k' j d)
  have e4 := sum_fin_prod (J := J) (k + 1) (fun k' j => max (s k' j) 0 * v k' j d)
  rw [ref_coe (fun kj : Fin (k + 1) × J => s kj.1.val kj.2) (fun kj d => v kj.1.val kj.2 d) M c hLpos hc d]
  simp only [e1, e2, e3, e4]
  rw [e1] at hLpos
  exact out_coe _ c _ _ _ _ d hLpos.ne' (by positivity) hinv.l hinv.r (hinv.ae d) (hinv.ar d)

end Cert.Attn

end
-- ==== Proof.AttnBridge.lean ====
/-
  From real inputs to real intermediate values, and from the chunked online attention of one query row to the
  two-pass form over all 8192 keys.

  An extended real is called real when it is the coercion of a real number. Sums, differences, products and maxima
  of reals are real; so are quotients by the constants 128 and 8192, and the reciprocal square root of a
  non-negative real plus the positive variance offset. Hence layer norm, batch norm, the dense maps, the queries and
  the scores are real whenever their inputs are. For a real score row the maximum of each chunk of 1024 keys, taken
  as a fold of max from -∞, is the real maximum of the chunk, and the supremum over the row is the real maximum of
  the row; the online recursion over the 8 chunks then equals the two-pass form over the pairs (chunk, position),
  which is the two-pass form over the keys 1024·k + j re-indexed along a bijection.
-/
import proofs.«161096_j60911226192506_2_alg».proof.Proof.Spec
import proofs.«161096_j60911226192506_2_alg».proof.Proof.AttnMath
import proofs.«161096_j60911226192506_2_alg».proof.Proof.BridgeDefs

noncomputable section

namespace Cert.Bridge

open Idealize.ShloMosaic

/-! ### Real extended reals -/

/-- An extended real that is (the coercion of) a real number. -/
def IsReal (x : EReal) : Prop := ∃ r : ℝ, x = r

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy; exact ⟨Max.max a b, (Cert.Attn.coe_max a b).symm⟩

/-- A finite sum of reals is real. -/
theorem isReal_sum {ι : Type*} (t : Finset ι) (f : ι → EReal) (h : ∀ i ∈ t, IsReal (f i)) :
    IsReal (∑ i ∈ t, f i) :=
  Finset.sum_induction f IsReal (fun _ _ => IsReal.add) isReal_zero h

theorem isReal_univ_sum {ι : Type*} [Fintype ι] (f : ι → EReal) (h : ∀ i, IsReal (f i)) : IsReal (∑ i, f i) :=
  isReal_sum _ f fun i _ => h i

/-! ### The float constants -/

theorem ofBits_128 : Ideal.ofBits .f32 0x43000000#32 = ((128 : ℝ) : EReal) := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

/-- The variance offset is the real 10995116 / 2^40 (about 1e-5). -/
theorem ofBits_eps : Ideal.ofBits .f32 0x3727C5AC#32 = ((10995116 / 2 ^ 40 : ℝ) : EReal) := by
  simp [Ideal.ofBits, Ideal.ieee, -EReal.coe_mul]; norm_num

theorem ofBits_eps_pos : (0 : EReal) < Ideal.ofBits .f32 Cert.Spec.wEps := by
  show (0 : EReal) < Ideal.ofBits .f32 0x3727C5AC#32
  rw [ofBits_eps]; exact EReal.coe_pos.mpr (by norm_num)

theorem isReal_eps : IsReal (Ideal.ofBits .f32 Cert.Spec.wEps) := ⟨_, ofBits_eps⟩

/-- The relu weight is the real 13421773 / 2^27 (about 0.1). -/
theorem ofBits_w01 : Ideal.ofBits .f32 0x3DCCCCCD#32 = ((13421773 / 2 ^ 27 : ℝ) : EReal) := by
  simp [Ideal.ofBits, Ideal.ieee, -EReal.coe_mul]; norm_num

theorem ofBits_w01_nonneg : ∃ c : ℝ, 0 ≤ c ∧ Ideal.ofBits .f32 Cert.Spec.w01 = (c : EReal) :=
  ⟨_, by norm_num, ofBits_w01⟩

theorem ofBits_neg_inf : Ideal.ofBits .f32 0xFF800000#32 = ⊥ := by
  simp [Ideal.ofBits, Ideal.ieee]

theorem ofBits_one : Ideal.ofBits .f32 0x3F800000#32 = 1 := by
  simp [Ideal.ofBits, Ideal.ieee, -EReal.coe_mul]; norm_num

theorem ofBits_zero : Ideal.ofBits .f32 0x00000000#32 = 0 := by
  simp [Ideal.ofBits, Ideal.ieee]

/-! ### Quotients and reciprocal square roots -/

theorem IsReal.div_coe {x : EReal} (hx : IsReal x) {y : ℝ} (hy : y ≠ 0) : IsReal (Ideal.div x (y : EReal)) := by
  obtain ⟨a, rfl⟩ := hx
  rw [Ideal.div_coe hy, ← EReal.coe_mul]; exact isReal_coe _

theorem IsReal.div_128 {x : EReal} (hx : IsReal x) : IsReal (Ideal.div x (Ideal.ofBits .f32 Cert.Spec.w128)) := by
  show IsReal (Ideal.div x (Ideal.ofBits .f32 0x43000000#32))
  rw [ofBits_128]; exact hx.div_coe (by norm_num)

theorem IsReal.div_8192 {x : EReal} (hx : IsReal x) : IsReal (Ideal.div x (Ideal.ofBits .f32 Cert.Spec.w8192)) := by
  show IsReal (Ideal.div x (Ideal.ofBits .f32 0x46000000#32))
  rw [ofBits_8192]; exact hx.div_coe (by norm_num)

theorem isReal_rsqrt_of_pos {r : ℝ} (hr : 0 < r) : IsReal (Ideal.rsqrt (r : EReal)) := by
  rw [Ideal.rsqrt_coe, if_neg (not_lt.2 hr.le), if_neg hr.ne']; exact isReal_coe _

/-- The reciprocal square root of a non-negative real plus the variance offset is real. -/
theorem isReal_rsqrt_add_eps {v : ℝ} (hv : 0 ≤ v) :
    IsReal (Ideal.rsqrt ((v : EReal) + Ideal.ofBits .f32 Cert.Spec.wEps)) := by
  show IsReal (Ideal.rsqrt ((v : EReal) + Ideal.ofBits .f32 0x3727C5AC#32))
  rw [ofBits_eps, ← EReal.coe_add]
  refine isReal_rsqrt_of_pos ?_
  have : (0 : ℝ) < 10995116 / 2 ^ 40 := by norm_num
  linarith

/-- A mean of squares of reals (over a positive real divisor) is a non-negative real. -/
theorem meanSq_coe {ι : Type*} [Fintype ι] (a : ι → EReal) (ha : ∀ k, IsReal (a k)) {y : ℝ} (hy : 0 < y) :
    ∃ r : ℝ, 0 ≤ r ∧ Ideal.div (∑ k, a k * a k) (y : EReal) = (r : EReal) := by
  choose a' ha' using ha
  refine ⟨(∑ k, a' k * a' k) * (1 / y),
    mul_nonneg (Finset.sum_nonneg fun k _ => mul_self_nonneg _) (by positivity), ?_⟩
  rw [Ideal.div_coe hy.ne', EReal.coe_mul, Cert.Attn.coe_sum]
  congr 1
  exact Finset.sum_congr rfl fun k _ => by rw [ha' k, EReal.coe_mul]

theorem meanSq_128 {ι : Type*} [Fintype ι] (a : ι → EReal) (ha : ∀ k, IsReal (a k)) :
    ∃ r : ℝ, 0 ≤ r ∧ Ideal.div (∑ k, a k * a k) (Ideal.ofBits .f32 Cert.Spec.w128) = (r : EReal) := by
  show ∃ r : ℝ, 0 ≤ r ∧ Ideal.div (∑ k, a k * a k) (Ideal.ofBits .f32 0x43000000#32) = (r : EReal)
  rw [ofBits_128]; exact meanSq_coe a ha (by norm_num)

theorem meanSq_8192 {ι : Type*} [Fintype ι] (a : ι → EReal) (ha : ∀ k, IsReal (a k)) :
    ∃ r : ℝ, 0 ≤ r ∧ Ideal.div (∑ k, a k * a k) (Ideal.ofBits .f32 Cert.Spec.w8192) = (r : EReal) := by
  show ∃ r : ℝ, 0 ≤ r ∧ Ideal.div (∑ k, a k * a k) (Ideal.ofBits .f32 0x46000000#32) = (r : EReal)
  rw [ofBits_8192]; exact meanSq_coe a ha (by norm_num)

/-! ### Real inputs give real layer norms, batch norms, dense maps, queries and scores -/

theorem isReal_lnVal (o g b : Fin 128 → EReal) (ho : ∀ k, IsReal (o k)) (hg : ∀ k, IsReal (g k))
    (hb : ∀ k, IsReal (b k)) (q : Fin 128) :
    IsReal (Cert.Ln.lnVal Cert.Spec.w128 Cert.Spec.wEps o g b q) := by
  have hμ : IsReal (Cert.Ln.mean Cert.Spec.w128 o) := (isReal_univ_sum o ho).div_128
  have hc : ∀ k, IsReal (o k - Cert.Ln.mean Cert.Spec.w128 o) := fun k => (ho k).sub hμ
  obtain ⟨r, hr0, hr⟩ := meanSq_128 (fun k => o k - Cert.Ln.mean Cert.Spec.w128 o) hc
  have hvar : Cert.Ln.var Cert.Spec.w128 o = (r : EReal) := hr
  unfold Cert.Ln.lnVal
  rw [hvar]
  exact (((hc q).mul (isReal_rsqrt_add_eps hr0)).mul (hg q)).add (hb q)

theorem isReal_ln (o g b : Fin 128 → EReal) (ho : ∀ k, IsReal (o k)) (hg : ∀ k, IsReal (g k))
    (hb : ∀ k, IsReal (b k)) (q : Fin 128) : IsReal (Cert.Spec.ln o g b q) :=
  isReal_lnVal o g b ho hg hb q

theorem isReal_bnVal (y : Fin 8192 → Fin 128 → EReal) (g b : Fin 128 → EReal) (hy : ∀ j k, IsReal (y j k))
    (hg : ∀ k, IsReal (g k)) (hb : ∀ k, IsReal (b k)) (j : Fin 8192) (d : Fin 128) :
    IsReal (Cert.Spec.bnVal y g b j d) := by
  have hμ : IsReal (Cert.Spec.bnMean y d) := (isReal_univ_sum (fun j => y j d) fun j => hy j d).div_8192
  have hc : ∀ j, IsReal (y j d - Cert.Spec.bnMean y d) := fun j => (hy j d).sub hμ
  obtain ⟨r, hr0, hr⟩ := meanSq_8192 (fun j => y j d - Cert.Spec.bnMean y d) hc
  have hvar : Cert.Spec.bnVar y d = (r : EReal) := hr
  unfold Cert.Spec.bnVal
  rw [hvar]
  exact (((hc j).mul (isReal_rsqrt_add_eps hr0)).mul (hg d)).add (hb d)

theorem isReal_dense {K : ℕ} (a w : Fin K → EReal) (bias : EReal) (ha : ∀ k, IsReal (a k))
    (hw : ∀ k, IsReal (w k)) (hbias : IsReal bias) : IsReal (Cert.Spec.dense a w bias) :=
  (isReal_univ_sum _ fun k => (ha k).mul (hw k)).add hbias

theorem isReal_kv (y : Fin 8192 → Fin 128 → EReal) (g b : Fin 128 → EReal) (W : Fin 128 → Fin 128 → EReal)
    (bias : Fin 128 → EReal) (hy : ∀ j k, IsReal (y j k)) (hg : ∀ k, IsReal (g k)) (hb : ∀ k, IsReal (b k))
    (hW : ∀ k c, IsReal (W k c)) (hbias : ∀ c, IsReal (bias c)) (j : Fin 8192) (c : Fin 128) :
    IsReal (Cert.Spec.kv y g b W bias j c) :=
  isReal_dense _ _ _ (fun k => isReal_bnVal y g b hy hg hb j k) (fun k => hW k c) (hbias c)

theorem isReal_query (o g b : Fin 128 → EReal) (Wq : Fin 128 → Fin 128 → EReal) (bq : Fin 128 → EReal)
    (ho : ∀ k, IsReal (o k)) (hg : ∀ k, IsReal (g k)) (hb : ∀ k, IsReal (b k)) (hW : ∀ k c, IsReal (Wq k c))
    (hbq : ∀ c, IsReal (bq c)) (c : Fin 128) : IsReal (Cert.Spec.query o g b Wq bq c) :=
  isReal_dense _ _ _ (fun k => isReal_ln o g b ho hg hb k) (fun k => hW k c) (hbq c)

theorem isReal_score (q : Fin 128 → EReal) (yk : Fin 8192 → Fin 128 → EReal) (hq : ∀ c, IsReal (q c))
    (hyk : ∀ j c, IsReal (yk j c)) (j : Fin 8192) : IsReal (Cert.Spec.score q yk j) :=
  isReal_univ_sum _ fun c => (hq c).mul (hyk j c)

/-! ### Maxima of real rows -/

/-- The supremum of a non-empty finite family of reals, taken in the extended reals, is the real maximum. -/
theorem sup_coe {ι : Type*} [Fintype ι] [Nonempty ι] (f : ι → ℝ) :
    (Finset.univ.sup fun i => (f i : EReal)) = ((Finset.univ.sup' Finset.univ_nonempty f : ℝ) : EReal) := by
  rw [← Finset.sup'_eq_sup Finset.univ_nonempty]
  exact (Finset.comp_sup'_eq_sup'_comp Finset.univ_nonempty (fun r : ℝ => (r : EReal))
    (fun a b => Cert.Attn.coe_max a b)).symm

/-- It is a real that bounds the family and is attained. -/
theorem sup_real {ι : Type*} [Fintype ι] [Nonempty ι] (f : ι → ℝ) :
    ∃ m : ℝ, (∀ i, f i ≤ m) ∧ (∃ i, m = f i) ∧ (Finset.univ.sup fun i => (f i : EReal)) = (m : EReal) := by
  refine ⟨Finset.univ.sup' Finset.univ_nonempty f, fun i => Finset.le_sup' f (Finset.mem_univ i), ?_, sup_coe f⟩
  obtain ⟨i, _, hi⟩ := Finset.exists_mem_eq_sup' Finset.univ_nonempty f
  exact ⟨i, hi⟩

theorem curOf_eq_sup (f : Fin 1024 → EReal) : curOf f = Finset.univ.sup f := by
  unfold curOf; rw [ofBits_neg_inf]; rfl

/-- For a chunk of reals it is a real that bounds the chunk and is attained. -/
theorem curOf_real (f : Fin 1024 → ℝ) :
    ∃ c : ℝ, (∀ j, f j ≤ c) ∧ (∃ j, c = f j) ∧ curOf (fun j => (f j : EReal)) = (c : EReal) := by
  obtain ⟨m, h1, h2, h3⟩ := sup_real f
  exact ⟨m, h1, h2, (curOf_eq_sup _).trans h3⟩

/-! ### Re-indexing the two-pass form -/

/-- The two-pass form does not depend on how its keys are named. -/
theorem ref_equiv {I I' D : Type} [Fintype I] [Fintype I'] (e : I ≃ I') (s : I' → EReal) (v : I' → D → EReal)
    (mx c : EReal) (d : D) :
    Cert.Attn.ref (fun i => s (e i)) (fun i d => v (e i) d) mx c d = Cert.Attn.ref s v mx c d := by
  have h1 : ∑ i, Ideal.exp (s (e i) - mx) = ∑ i', Ideal.exp (s i' - mx) :=
    e.sum_comp fun i' => Ideal.exp (s i' - mx)
  have h2 : ∑ i, (max (s (e i)) 0 * c + Ideal.div (Ideal.exp (s (e i) - mx)) (∑ i', Ideal.exp (s i' - mx)))
      = ∑ i', (max (s i') 0 * c + Ideal.div (Ideal.exp (s i' - mx)) (∑ i'', Ideal.exp (s i'' - mx))) :=
    e.sum_comp fun i' => max (s i') 0 * c + Ideal.div (Ideal.exp (s i' - mx)) (∑ i'', Ideal.exp (s i'' - mx))
  show ∑ i, Ideal.div (max (s (e i)) 0 * c + Ideal.div (Ideal.exp (s (e i) - mx)) (∑ i', Ideal.exp (s (e i') - mx)))
        (∑ i', (max (s (e i')) 0 * c + Ideal.div (Ideal.exp (s (e i') - mx)) (∑ i'', Ideal.exp (s (e i'') - mx))))
        * v (e i) d = _
  rw [h1, h2]
  exact e.sum_comp fun i' =>
    Ideal.div (max (s i') 0 * c + Ideal.div (Ideal.exp (s i' - mx)) (∑ i'', Ideal.exp (s i'' - mx)))
      (∑ i'', (max (s i'') 0 * c + Ideal.div (Ideal.exp (s i'' - mx)) (∑ i''', Ideal.exp (s i''' - mx)))) * v i' d

/-- (chunk, position) ↦ 1024·chunk + position, a bijection from 8 × 1024 onto the 8192 keys. -/
def keyEquiv : Fin 8 × Fin 1024 ≃ Fin 8192 :=
  finProdFinEquiv.trans (finCongr (by norm_num))

theorem key_eq (kj : Fin 8 × Fin 1024) : key kj.1.val kj.2 = keyEquiv kj := by
  apply Fin.ext
  show (1024 * kj.1.val + kj.2.val) % 8192 = (finProdFinEquiv (m := 8) (n := 1024) kj).val
  rw [finProdFinEquiv_apply_val]
  have h1 := kj.1.isLt
  have h2 := kj.2.isLt
  omega

/-! ### The chunked online form is the two-pass form -/

theorem kernel_attn_eq_ref (s : Fin 8192 → EReal) (yv : Fin 8192 → Fin 128 → EReal) (hs : ∀ j, IsReal (s j))
    (hv : ∀ j d, IsReal (yv j d)) (d : Fin 128) :
    Cert.Attn.out (Ideal.ofBits .f32 Cert.Spec.w01) (Ideal.ofBits .f32 0x3F800000#32)
        (Cert.Attn.run (fun k (j : Fin 1024) => s (key k j)) (fun k (j : Fin 1024) d => yv (key k j) d)
          (fun k => curOf (fun j => s (key k j))) 8) d
      = Cert.Spec.attRef s yv d := by
  choose s' hs' using hs
  choose v' hv' using hv
  obtain rfl : s = fun j => (s' j : EReal) := funext hs'
  obtain rfl : yv = fun j d => (v' j d : EReal) := funext fun j => funext fun d => hv' j d
  -- the chunk maxima and the row maximum are real, bound their entries and are attained
  choose cur hle hex hcur using fun k : ℕ => curOf_real (fun j => s' (key k j))
  obtain ⟨mx, hmle, ⟨i0, hi0⟩, hmx⟩ := sup_real s'
  have hcur' : (fun k => curOf (fun j => (s' (key k j) : EReal))) = fun k => (cur k : EReal) := funext hcur
  show Cert.Attn.out (Ideal.ofBits .f32 0x3DCCCCCD#32) (Ideal.ofBits .f32 0x3F800000#32)
      (Cert.Attn.run (fun k (j : Fin 1024) => (s' (key k j) : EReal)) (fun k (j : Fin 1024) d => (v' (key k j) d : EReal))
        (fun k => curOf (fun j => (s' (key k j) : EReal))) 8) d
    = Cert.Attn.ref (fun j => (s' j : EReal)) (fun j d => (v' j d : EReal)) (Finset.univ.sup fun j => (s' j : EReal))
        (Ideal.ofBits .f32 0x3DCCCCCD#32) d
  rw [hcur', hmx, ofBits_w01, ofBits_one]
  refine (Cert.Attn.out_run_eq_ref 8 (fun k j => s' (key k j)) (fun k j d => v' (key k j) d) cur hle hex mx
    (fun k j => hmle _) ?_ _ (by norm_num) d).trans ?_
  · refine ⟨(keyEquiv.symm i0).1, (keyEquiv.symm i0).2, ?_⟩
    rw [key_eq, Equiv.apply_symm_apply]; exact hi0
  · rw [← ref_equiv keyEquiv (fun j => (s' j : EReal)) (fun j d => (v' j d : EReal))]
    have h1 : (fun kj : Fin 8 × Fin 1024 => (s' (key kj.1.val kj.2) : EReal)) = fun kj => (s' (keyEquiv kj) : EReal) :=
      funext fun kj => by rw [key_eq]
    have h2 : (fun (kj : Fin 8 × Fin 1024) (d : Fin 128) => (v' (key kj.1.val kj.2) d : EReal))
        = fun kj d => (v' (keyEquiv kj) d : EReal) := funext fun kj => by rw [key_eq]
    rw [h1, h2]

end Cert.Bridge

end
-- ==== Proof.KerOut.lean ====
/-
  One row of the kernel's result: the eight-block running computation over the keys, then the residual, layer norm and
  perceptron — and, for real-valued data, its equality with the two-pass form of the specification.
-/
import proofs.«161096_j60911226192506_2_alg».proof.Proof.Spec
import proofs.«161096_j60911226192506_2_alg».proof.Proof.BridgeDefs
import proofs.«161096_j60911226192506_2_alg».proof.Proof.AttnBridge

noncomputable section

namespace Cert.KernelIdeal.R1

open Idealize.ShloMosaic Cert.Bridge

/-- One row of the kernel's result: the eight-block running computation over the keys, then the tail. -/
def kerOut (o : Fin 128 → EReal) (yk yv : Fin 8192 → Fin 128 → EReal) (Wq : Fin 128 → Fin 128 → EReal) (bq g b : Fin 128 → EReal)
    (W1 : Fin 128 → Fin 512 → EReal) (b1 : Fin 512 → EReal) (W2 : Fin 512 → Fin 512 → EReal) (b2 : Fin 512 → EReal)
    (W3 : Fin 512 → Fin 128 → EReal) (b3 : Fin 128 → EReal) (q : Fin 128) : EReal :=
  Cert.Spec.tail
    (Cert.Attn.out (Ideal.ofBits .f32 Cert.Spec.w01) (Ideal.ofBits .f32 0x3F800000#32)
      (Cert.Attn.run (fun k (j : Fin 1024) => Cert.Spec.score (Cert.Spec.query o g b Wq bq) yk (Cert.Bridge.key k j))
        (fun k (j : Fin 1024) (d : Fin 128) => yv (Cert.Bridge.key k j) d)
        (fun k => Cert.Bridge.curOf (fun j : Fin 1024 => Cert.Spec.score (Cert.Spec.query o g b Wq bq) yk (Cert.Bridge.key k j))) 8))
    o g b W1 b1 W2 b2 W3 b3 q

/-- With every query score and every value a real number, the running computation gives the two-pass attention, so
    the kernel's row is the specification's row. -/
theorem kerOut_eq_tail (o : Fin 128 → EReal) (yk yv : Fin 8192 → Fin 128 → EReal) (Wq : Fin 128 → Fin 128 → EReal) (bq g b : Fin 128 → EReal)
    (W1 : Fin 128 → Fin 512 → EReal) (b1 : Fin 512 → EReal) (W2 : Fin 512 → Fin 512 → EReal) (b2 : Fin 512 → EReal)
    (W3 : Fin 512 → Fin 128 → EReal) (b3 : Fin 128 → EReal)
    (hs : ∀ j, IsReal (Cert.Spec.score (Cert.Spec.query o g b Wq bq) yk j)) (hv : ∀ j d, IsReal (yv j d)) (q : Fin 128) :
    kerOut o yk yv Wq bq g b W1 b1 W2 b2 W3 b3 q
      = Cert.Spec.tail (Cert.Spec.attRef (Cert.Spec.score (Cert.Spec.query o g b Wq bq) yk) yv) o g b W1 b1 W2 b2 W3 b3 q := by
  unfold kerOut
  refine congrArg (fun a => Cert.Spec.tail a o g b W1 b1 W2 b2 W3 b3 q) (funext fun d => ?_)
  exact kernel_attn_eq_ref (Cert.Spec.score (Cert.Spec.query o g b Wq bq) yk) yv hs hv d

end Cert.KernelIdeal.R1

end
-- ==== Proof.R1Array.lean ====
/-
  The second region's result ARRAY after its run. Point t of the 16 grid points reads rows 1024·t … 1024·t+1023 of x and
  the whole of every other array, and writes back rows 1024·t … of the result; the blocks tile the array, so the array
  ends holding one function of the arrays the region finds: row by row, the kernel's row function.
-/
import proofs.«161096_j60911226192506_2_alg».proof.Proof.Gen.KernelIdeal.Frame
import proofs.«161096_j60911226192506_2_alg».proof.Proof.R1Body
import proofs.«161096_j60911226192506_2_alg».proof.Proof.R1Chunk
import proofs.«161096_j60911226192506_2_alg».proof.Proof.R1Ends
import proofs.«161096_j60911226192506_2_alg».proof.Proof.KerOut
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

/-- The kernel body's output block at (p, q) is that row function of row p of the x block and the whole arrays. -/
theorem body1_apply (x0 : Vec Ideal S1024x128 .f32) (x1 x2 : Vec Ideal S8192x128 .bf16) (x3 : Vec Ideal S128x128 .f32) (x4 x5 x6 : Vec Ideal S128 .f32)
    (x7 : Vec Ideal S128x512 .f32) (x8 : Vec Ideal S512 .f32) (x9 : Vec Ideal S512x512 .f32) (x10 : Vec Ideal S512 .f32)
    (x11 : Vec Ideal S512x128 .f32) (x12 : Vec Ideal S128 .f32) (p : Fin 1024) (q : Fin 128) :
    body1 x0 x1 x2 x3 x4 x5 x6 x7 x8 x9 x10 x11 x12 (ix2 p q)
      = kerOut (fun k => x0 (ix2 p k)) (fun j c => x1 (ix2 j c)) (fun j d => x2 (ix2 j d)) (fun k c => x3 (ix2 k c)) (fun c => x4 (ix1 c))
          (fun k => x5 (ix1 k)) (fun k => x6 (ix1 k)) (fun k k1 => x7 (ix2 k k1)) (fun k1 => x8 (ix1 k1)) (fun k1 k2 => x9 (ix2 k1 k2))
          (fun k2 => x10 (ix1 k2)) (fun k2 c => x11 (ix2 k2 c)) (fun c => x12 (ix1 c)) q := by
  unfold body1 kerOut
  rw [epi_apply]
  refine congrArg (fun a => Cert.Spec.tail a _ _ _ _ _ _ _ _ _ q) ?_
  refine congrArg (Cert.Attn.out (Ideal.ofBits .f32 Cert.Spec.w01) (Ideal.ofBits .f32 0x3F800000#32)) ?_
  refine (rowSt_st8 (k1_pay2 x0 x5 x6 x3 x4) x1 x2 p).trans ?_
  simp only [pay2_apply]
  rfl

variable (V : (c : Dev nD) → (b : Ref sig .tc) → Buf (Elt Ideal) ((c : Thread nD τ).loc b))

/-- The printed index maps over the grid: x and the result move with the point along the rows; every other window stays. -/
theorem idx_facts1 : ∀ t : Fin cfg1.N, win1_0.index t (0 : Fin 2) = t.val ∧ win1_0.index t (1 : Fin 2) = 0
    ∧ win1_13.index t (0 : Fin 2) = t.val ∧ win1_13.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 1) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = 0 ∧ win1_9.index t (1 : Fin 2) = 0
    ∧ win1_10.index t (0 : Fin 1) = 0
    ∧ win1_11.index t (0 : Fin 2) = 0 ∧ win1_11.index t (1 : Fin 2) = 0
    ∧ win1_12.index t (0 : Fin 1) = 0 :=
  (by decide +kernel : ∀ t : Fin grid1.N, _)

/-- Row 1024·t + p of the 16384 rows. -/
def row (t : Fin cfg1.N) (p : Fin 1024) : Fin 16384 := ⟨1024 * t.val + p.val, by have := t.isLt; have h : cfg1.N = 16 := N_1; have := p.isLt; omega⟩

/-- Entry (p, k) of point t's block of x is entry (1024·t + p, k) of x. -/
theorem emb1_0 (t : Fin cfg1.N) (p : Fin 1024) (k : Fin 128) :
    ((cfg1.win 0).blk t).view.emb (ix2 p k : S1024x128.Idx) = (ix2 (row t p) k : S16384x128.Idx) := by
  obtain ⟨e0, e1, -⟩ := idx_facts1 t
  funext a; apply Fin.ext
  match a with
  | ⟨0, _⟩ => show win1_0.index t (0 : Fin 2) * 1024 + 1 * p.val = 1024 * t.val + p.val; omega
  | ⟨1, _⟩ => show win1_0.index t (1 : Fin 2) * 128 + 1 * k.val = k.val; omega

theorem iblk1_0 (c : Dev nD) (t : Fin cfg1.N) (p : Fin 1024) (k : Fin 128) :
    iblk1 V c 0 t (ix2 p k : S1024x128.Idx) = V c main_arg0 (ix2 (row t p) k : S16384x128.Idx) := by
  show V c main_arg0 (((cfg1.win 0).blk t).view.emb (ix2 p k : S1024x128.Idx)) = _
  rw [emb1_0]

theorem idx1_1 : ∀ t : Fin cfg1.N, win1_1.index t (0 : Fin 2) = 0 ∧ win1_1.index t (1 : Fin 2) = 0 := (by decide +kernel : ∀ t : Fin grid1.N, _)
theorem idx1_2 : ∀ t : Fin cfg1.N, win1_2.index t (0 : Fin 2) = 0 ∧ win1_2.index t (1 : Fin 2) = 0 := (by decide +kernel : ∀ t : Fin grid1.N, _)
theorem idx1_3 : ∀ t : Fin cfg1.N, win1_3.index t (0 : Fin 2) = 0 ∧ win1_3.index t (1 : Fin 2) = 0 := (by decide +kernel : ∀ t : Fin grid1.N, _)
theorem idx1_4 : ∀ t : Fin cfg1.N, win1_4.index t (0 : Fin 1) = 0 := (by decide +kernel : ∀ t : Fin grid1.N, _)
theorem idx1_5 : ∀ t : Fin cfg1.N, win1_5.index t (0 : Fin 1) = 0 := (by decide +kernel : ∀ t : Fin grid1.N, _)
theorem idx1_6 : ∀ t : Fin cfg1.N, win1_6.index t (0 : Fin 1) = 0 := (by decide +kernel : ∀ t : Fin grid1.N, _)
theorem idx1_7 : ∀ t : Fin cfg1.N, win1_7.index t (0 : Fin 2) = 0 ∧ win1_7.index t (1 : Fin 2) = 0 := (by decide +kernel : ∀ t : Fin grid1.N, _)
theorem idx1_8 : ∀ t : Fin cfg1.N, win1_8.index t (0 : Fin 1) = 0 := (by decide +kernel : ∀ t : Fin grid1.N, _)
theorem idx1_9 : ∀ t : Fin cfg1.N, win1_9.index t (0 : Fin 2) = 0 ∧ win1_9.index t (1 : Fin 2) = 0 := (by decide +kernel : ∀ t : Fin grid1.N, _)
theorem idx1_10 : ∀ t : Fin cfg1.N, win1_10.index t (0 : Fin 1) = 0 := (by decide +kernel : ∀ t : Fin grid1.N, _)
theorem idx1_11 : ∀ t : Fin cfg1.N, win1_11.index t (0 : Fin 2) = 0 ∧ win1_11.index t (1 : Fin 2) = 0 := (by decide +kernel : ∀ t : Fin grid1.N, _)
theorem idx1_12 : ∀ t : Fin cfg1.N, win1_12.index t (0 : Fin 1) = 0 := (by decide +kernel : ∀ t : Fin grid1.N, _)

theorem iblk1_1 (c : Dev nD) (t : Fin cfg1.N) : (iblk1 V c 1 t : S8192x128.Idx → EReal) = V c main_v0_0 := by
  obtain ⟨e0, e1⟩ := idx1_1 t
  funext y
  show V c main_v0_0 (((cfg1.win 1).blk t).view.emb y) = V c main_v0_0 y
  refine congrArg _ (funext fun a => Fin.ext ?_)
  match a with
  | ⟨0, _⟩ => show win1_1.index t (0 : Fin 2) * 8192 + 1 * (y 0).val = (y 0).val; omega
  | ⟨1, _⟩ => show win1_1.index t (1 : Fin 2) * 128 + 1 * (y 1).val = (y 1).val; omega

theorem iblk1_2 (c : Dev nD) (t : Fin cfg1.N) : (iblk1 V c 2 t : S8192x128.Idx → EReal) = V c main_v0_1 := by
  obtain ⟨e0, e1⟩ := idx1_2 t
  funext y
  show V c main_v0_1 (((cfg1.win 2).blk t).view.emb y) = V c main_v0_1 y
  refine congrArg _ (funext fun a => Fin.ext ?_)
  match a with
  | ⟨0, _⟩ => show win1_2.index t (0 : Fin 2) * 8192 + 1 * (y 0).val = (y 0).val; omega
  | ⟨1, _⟩ => show win1_2.index t (1 : Fin 2) * 128 + 1 * (y 1).val = (y 1).val; omega

theorem iblk1_3 (c : Dev nD) (t : Fin cfg1.N) : (iblk1 V c 3 t : S128x128.Idx → EReal) = V c main_arg2 := by
  obtain ⟨e0, e1⟩ := idx1_3 t
  funext y
  show V c main_arg2 (((cfg1.win 3).blk t).view.emb y) = V c main_arg2 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem iblk1_4 (c : Dev nD) (t : Fin cfg1.N) : (iblk1 V c 4 t : S128.Idx → EReal) = V c main_arg3 := by
  have e0 := idx1_4 t
  funext y
  show V c main_arg3 (((cfg1.win 4).blk t).view.emb y) = V c main_arg3 y
  refine congrArg _ (funext fun a => Fin.ext ?_)
  match a with
  | ⟨0, _⟩ => show win1_4.index t (0 : Fin 1) * 128 + 1 * (y 0).val = (y 0).val; omega

theorem iblk1_5 (c : Dev nD) (t : Fin cfg1.N) : (iblk1 V c 5 t : S128.Idx → EReal) = V c main_arg8 := by
  have e0 := idx1_5 t
  funext y
  show V c main_arg8 (((cfg1.win 5).blk t).view.emb y) = V c main_arg8 y
  refine congrArg _ (funext fun a => Fin.ext ?_)
  match a with
  | ⟨0, _⟩ => show win1_5.index t (0 : Fin 1) * 128 + 1 * (y 0).val = (y 0).val; omega

theorem iblk1_6 (c : Dev nD) (t : Fin cfg1.N) : (iblk1 V c 6 t : S128.Idx → EReal) = V c main_arg9 := by
  have e0 := idx1_6 t
  funext y
  show V c main_arg9 (((cfg1.win 6).blk t).view.emb y) = V c main_arg9 y
  refine congrArg _ (funext fun a => Fin.ext ?_)
  match a with
  | ⟨0, _⟩ => show win1_6.index t (0 : Fin 1) * 128 + 1 * (y 0).val = (y 0).val; omega

theorem iblk1_7 (c : Dev nD) (t : Fin cfg1.N) : (iblk1 V c 7 t : S128x512.Idx → EReal) = V c main_arg12 := by
  obtain ⟨e0, e1⟩ := idx1_7 t
  funext y
  show V c main_arg12 (((cfg1.win 7).blk t).view.emb y) = V c main_arg12 y
  refine congrArg _ (funext fun a => Fin.ext ?_)
  match a with
  | ⟨0, _⟩ => show win1_7.index t (0 : Fin 2) * 128 + 1 * (y 0).val = (y 0).val; omega
  | ⟨1, _⟩ => show win1_7.index t (1 : Fin 2) * 512 + 1 * (y 1).val = (y 1).val; omega

theorem iblk1_8 (c : Dev nD) (t : Fin cfg1.N) : (iblk1 V c 8 t : S512.Idx → EReal) = V c main_arg13 := by
  have e0 := idx1_8 t
  funext y
  show V c main_arg13 (((cfg1.win 8).blk t).view.emb y) = V c main_arg13 y
  refine congrArg _ (funext fun a => Fin.ext ?_)
  match a with
  | ⟨0, _⟩ => show win1_8.index t (0 : Fin 1) * 512 + 1 * (y 0).val = (y 0).val; omega

theorem iblk1_9 (c : Dev nD) (t : Fin cfg1.N) : (iblk1 V c 9 t : S512x512.Idx → EReal) = V c main_arg14 := by
  obtain ⟨e0, e1⟩ := idx1_9 t
  funext y
  show V c main_arg14 (((cfg1.win 9).blk t).view.emb y) = V c main_arg14 y
  refine congrArg _ (funext fun a => Fin.ext ?_)
  match a with
  | ⟨0, _⟩ => show win1_9.index t (0 : Fin 2) * 512 + 1 * (y 0).val = (y 0).val; omega
  | ⟨1, _⟩ => show win1_9.index t (1 : Fin 2) * 512 + 1 * (y 1).val = (y 1).val; omega

theorem iblk1_10 (c : Dev nD) (t : Fin cfg1.N) : (iblk1 V c 10 t : S512.Idx → EReal) = V c main_arg15 := by
  have e0 := idx1_10 t
  funext y
  show V c main_arg15 (((cfg1.win 10).blk t).view.emb y) = V c main_arg15 y
  refine congrArg _ (funext fun a => Fin.ext ?_)
  match a with
  | ⟨0, _⟩ => show win1_10.index t (0 : Fin 1) * 512 + 1 * (y 0).val = (y 0).val; omega

theorem iblk1_11 (c : Dev nD) (t : Fin cfg1.N) : (iblk1 V c 11 t : S512x128.Idx → EReal) = V c main_arg16 := by
  obtain ⟨e0, e1⟩ := idx1_11 t
  funext y
  show V c main_arg16 (((cfg1.win 11).blk t).view.emb y) = V c main_arg16 y
  refine congrArg _ (funext fun a => Fin.ext ?_)
  match a with
  | ⟨0, _⟩ => show win1_11.index t (0 : Fin 2) * 512 + 1 * (y 0).val = (y 0).val; omega
  | ⟨1, _⟩ => show win1_11.index t (1 : Fin 2) * 128 + 1 * (y 1).val = (y 1).val; omega

theorem iblk1_12 (c : Dev nD) (t : Fin cfg1.N) : (iblk1 V c 12 t : S128.Idx → EReal) = V c main_arg17 := by
  have e0 := idx1_12 t
  funext y
  show V c main_arg17 (((cfg1.win 12).blk t).view.emb y) = V c main_arg17 y
  refine congrArg _ (funext fun a => Fin.ext ?_)
  match a with
  | ⟨0, _⟩ => show win1_12.index t (0 : Fin 1) * 128 + 1 * (y 0).val = (y 0).val; omega

theorem emb1_13 (t : Fin cfg1.N) (p : Fin 1024) (q : Fin 128) :
    ((cfg1.win 13).blk t).view.emb (ix2 p q : S1024x128.Idx) = (ix2 (row t p) q : S16384x128.Idx) := by
  obtain ⟨-, -, e0, e1, -⟩ := idx_facts1 t
  funext a; apply Fin.ext
  match a with
  | ⟨0, _⟩ => show win1_13.index t (0 : Fin 2) * 1024 + 1 * p.val = 1024 * t.val + p.val; omega
  | ⟨1, _⟩ => show win1_13.index t (1 : Fin 2) * 128 + 1 * q.val = q.val; omega

/-- The result array as one function of the arrays the region finds. -/
def G13 (c : Dev nD) : S16384x128.Idx → EReal := fun i =>
  kerOut (fun k => V c main_arg0 (ix2 (i 0) k : S16384x128.Idx)) (fun j c' => V c main_v0_0 (ix2 j c' : S8192x128.Idx)) (fun j d => V c main_v0_1 (ix2 j d : S8192x128.Idx))
    (fun k c' => V c main_arg2 (ix2 k c' : S128x128.Idx)) (fun c' => V c main_arg3 (ix1 c' : S128.Idx))
    (fun k => V c main_arg8 (ix1 k : S128.Idx)) (fun k => V c main_arg9 (ix1 k : S128.Idx))
    (fun k k1 => V c main_arg12 (ix2 k k1 : S128x512.Idx)) (fun k1 => V c main_arg13 (ix1 k1 : S512.Idx))
    (fun k1 k2 => V c main_arg14 (ix2 k1 k2 : S512x512.Idx)) (fun k2 => V c main_arg15 (ix1 k2 : S512.Idx))
    (fun k2 c' => V c main_arg16 (ix2 k2 c' : S512x128.Idx)) (fun c' => V c main_arg17 (ix1 c' : S128.Idx)) (i 1)

theorem flushed13_eq (c : Dev nD) (t : Fin cfg1.N) :
    (dat1 V c).flushed 13 t = ((cfg1.win 13).blk t).view.read (Elt Ideal) (G13 V c) := by
  show (cfg1.win 13).cut (grid1.coords t) ((dat1 V c).after 13 t) = _
  rw [after1_13]
  unfold outsAt1
  rw [out1_eq]
  funext j
  obtain ⟨p, q, rfl⟩ : ∃ (p : Fin 1024) (q : Fin 128), j = ix2 p q := ⟨j 0, j 1, eq_ix2 j⟩
  show body1 (iblk1 V c 0 t) (iblk1 V c 1 t) (iblk1 V c 2 t) (iblk1 V c 3 t) (iblk1 V c 4 t) (iblk1 V c 5 t) (iblk1 V c 6 t) (iblk1 V c 7 t)
      (iblk1 V c 8 t) (iblk1 V c 9 t) (iblk1 V c 10 t) (iblk1 V c 11 t) (iblk1 V c 12 t) (ix2 p q)
    = G13 V c (((cfg1.win 13).blk t).view.emb (ix2 p q : S1024x128.Idx))
  rw [emb1_13, body1_apply]
  unfold G13
  simp only [iblk1_0 V c t, iblk1_1 V c t, iblk1_2 V c t, iblk1_3 V c t, iblk1_4 V c t, iblk1_5 V c t, iblk1_6 V c t, iblk1_7 V c t, iblk1_8 V c t,
    iblk1_9 V c t, iblk1_10 V c t, iblk1_11 V c t, iblk1_12 V c t]

theorem mem_blk13 (t : Fin cfg1.N) (i : S16384x128.Idx) :
    i ∈ ((cfg1.win 13).blk t).view.set ↔ ∀ a : Fin 2, win1_13.index t a * S1024x128.size a ≤ (i a).val ∧ (i a).val < win1_13.index t a * S1024x128.size a + S1024x128.size a := by
  show i ∈ ((View.whole main_v1).slice (win1_13.rect t)).set ↔ _
  rw [View.set_slice_whole, Rect.mem_set_unit]
  exact Iff.rfl

theorem cover13 (i : S16384x128.Idx) : ∃ t : Fin cfg1.N, (cfg1.win 13).flush t = true ∧ i ∈ ((cfg1.win 13).blk t).view.set := by
  have hi0 : (i 0).val < 16384 := (i 0).isLt
  have hi1 : (i 1).val < 128 := (i 1).isLt
  have hN : cfg1.N = 16 := N_1
  let t : Fin cfg1.N := ⟨(i 0).val / 1024, by omega⟩
  obtain ⟨-, -, e0, e1, -⟩ := idx_facts1 t
  refine ⟨t, flush1_13 t, ?_⟩
  rw [mem_blk13]
  intro a
  match a with
  | ⟨0, _⟩ => show win1_13.index t (0 : Fin 2) * 1024 ≤ (i 0).val ∧ (i 0).val < win1_13.index t (0 : Fin 2) * 1024 + 1024; rw [e0]; show (i 0).val / 1024 * 1024 ≤ (i 0).val ∧ (i 0).val < (i 0).val / 1024 * 1024 + 1024; omega
  | ⟨1, _⟩ => show win1_13.index t (1 : Fin 2) * 128 ≤ (i 1).val ∧ (i 1).val < win1_13.index t (1 : Fin 2) * 128 + 128; omega

/-- The result array after the region's run. -/
theorem final13 (c : Dev nD) : (dat1 V c).arrAt 13 cfg1.N = G13 V c :=
  (dat1 V c).arrAt_eq_of_cover 13 (G13 V c) (fun t _ => flushed13_eq V c t) (cover13)

end Cert.KernelIdeal.R1

end
-- ==== Proof.LibFiniteCheck.lean ====
/-
  One finiteness check of a printed precondition, read back (general: any shape, any reduced axes).

  A precondition "every float input is finite" prints, per argument x, as a reduction by "and" over all axes of the
  one-bit array (|x| < +inf), started from the constant 1, and the claim states that the result is 1. Then the
  comparison is 1 at every index; an extended real whose absolute value max(x, -x) is below plus infinity is neither
  infinity; so every entry of x is a real number.
-/
import Idealize.ShloMosaic.Lib.ReduceAll
import Idealize.ShloMosaic.Lib.ValueIdx
import Idealize.ShloMosaic.Lib.Pipeline.Value
import Idealize.ShloMosaic.PureOps.Ideal

noncomputable section

namespace Cert.Lib.FiniteCheck

open Idealize.ShloMosaic Idealize.ShloMosaic.ValueIdx

/-- `Cert.Lib.FiniteCheck.scalarIdx_subsingleton`: the result of a reduction over all axes has one index. -/
instance scalarIdx_subsingleton : Subsingleton (⟨0, ![]⟩ : Shape).Idx := ⟨fun a b => funext fun d => d.elim0⟩

/-- `Cert.Lib.FiniteCheck.ofBits_inf`: the f32 pattern of plus infinity denotes plus infinity. -/
theorem ofBits_inf : Ideal.ofBits .f32 0x7F800000#32 = (⊤ : EReal) := by
  simp [Ideal.ofBits, Ideal.ieee]

/-- `Cert.Lib.FiniteCheck.real_of_abs_lt_top`: an extended real whose absolute value is below plus infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- `Cert.Lib.FiniteCheck.all_real`: one check of the precondition. If "all entries have absolute value below plus
    infinity" came out 1, every entry is a real number. The shape relations are whatever the program states. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x)
        (broadcastInDim s (![] : Fin 0 → Fin s.rank) hb (constant (F := Ideal) ⟨0, ![]⟩ .f32 0x7F800000#32)))
        (constantI ⟨0, ![]⟩ 1 1#1) hr hu ix0 = 1#1) (i : s.Idx) : ∃ r : ℝ, x i = (r : EReal) := by
  have h1 := Host.reduce_andi_all _ _ hr hu ix0 e i
  rw [cmpf_apply, broadcastInDim_apply _ hb _ i ix0 (fun ax => ax.elim0)] at h1
  apply real_of_abs_lt_top
  have h2 : Ideal.cmp .olt (max (x i) (-(x i))) (Ideal.ofBits .f32 0x7F800000#32) = 1#1 := h1
  rw [ofBits_inf] at h2
  unfold Ideal.cmp at h2
  by_contra hn
  simp [hn] at h2

end Cert.Lib.FiniteCheck

end
-- ==== Proof.FiniteInputs.lean ====
/-
  From the finiteness precondition to "every input entry is a real number".

  The precondition is the conjunction, over the eighteen input arrays, of "every entry has absolute value below +∞",
  each taken as a reduction by "and" over all axes started from 1, and it is stated to come out 1. A conjunction that
  is 1 has both conjuncts 1; a reduction by "and" over all axes that is 1 has every element 1; an extended real whose
  absolute value is below +∞ is neither infinity, so it is a real number.
-/
import proofs.«161096_j60911226192506_2_alg».proof.Pre_finite_inputs
import proofs.«161096_j60911226192506_2_alg».proof.Proof.LibFiniteCheck
import proofs.«161096_j60911226192506_2_alg».proof.Proof.AttnBridge

noncomputable section

namespace Cert.Finite

open Idealize.ShloMosaic Idealize.ShloMosaic.ValueIdx Cert.Pre_finite_inputs

/-- If the finiteness precondition holds of the eighteen input arrays, every entry of every array is real. -/
theorem real_of_pre [Cert.Pre_finite_inputs.Facts]
    (a0 : FVec Ideal S16384x128 .f32)
    (a1 : FVec Ideal S8192x128 .f32)
    (a2 : FVec Ideal S128x128 .f32)
    (a3 : FVec Ideal S128 .f32)
    (a4 : FVec Ideal S128x128 .f32)
    (a5 : FVec Ideal S128 .f32)
    (a6 : FVec Ideal S128x128 .f32)
    (a7 : FVec Ideal S128 .f32)
    (a8 : FVec Ideal S128 .f32)
    (a9 : FVec Ideal S128 .f32)
    (a10 : FVec Ideal S128 .f32)
    (a11 : FVec Ideal S128 .f32)
    (a12 : FVec Ideal S128x512 .f32)
    (a13 : FVec Ideal S512 .f32)
    (a14 : FVec Ideal S512x512 .f32)
    (a15 : FVec Ideal S512 .f32)
    (a16 : FVec Ideal S512x128 .f32)
    (a17 : FVec Ideal S128 .f32)
    (h : Cert.Pre_finite_inputs.fn (F := Ideal) a0 a1 a2 a3 a4 a5 a6 a7 a8 a9 a10 a11 a12 a13 a14 a15 a16 a17 = (fun _ => 1#1)) :
      (∀ i, Cert.Bridge.IsReal (a0 i)) ∧
      (∀ i, Cert.Bridge.IsReal (a1 i)) ∧
      (∀ i, Cert.Bridge.IsReal (a2 i)) ∧
      (∀ i, Cert.Bridge.IsReal (a3 i)) ∧
      (∀ i, Cert.Bridge.IsReal (a4 i)) ∧
      (∀ i, Cert.Bridge.IsReal (a5 i)) ∧
      (∀ i, Cert.Bridge.IsReal (a6 i)) ∧
      (∀ i, Cert.Bridge.IsReal (a7 i)) ∧
      (∀ i, Cert.Bridge.IsReal (a8 i)) ∧
      (∀ i, Cert.Bridge.IsReal (a9 i)) ∧
      (∀ i, Cert.Bridge.IsReal (a10 i)) ∧
      (∀ i, Cert.Bridge.IsReal (a11 i)) ∧
      (∀ i, Cert.Bridge.IsReal (a12 i)) ∧
      (∀ i, Cert.Bridge.IsReal (a13 i)) ∧
      (∀ i, Cert.Bridge.IsReal (a14 i)) ∧
      (∀ i, Cert.Bridge.IsReal (a15 i)) ∧
      (∀ i, Cert.Bridge.IsReal (a16 i)) ∧
      (∀ i, Cert.Bridge.IsReal (a17 i)) := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Idealize.ShloMosaic.andi] at h0
  simp only [IntOp.andi_eq_one] at h0
  obtain ⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩ := h0
  exact ⟨fun i => Cert.Lib.FiniteCheck.all_real a0 _ _ _ e0 i,
    fun i => Cert.Lib.FiniteCheck.all_real a1 _ _ _ e1 i,
    fun i => Cert.Lib.FiniteCheck.all_real a2 _ _ _ e2 i,
    fun i => Cert.Lib.FiniteCheck.all_real a3 _ _ _ e3 i,
    fun i => Cert.Lib.FiniteCheck.all_real a4 _ _ _ e4 i,
    fun i => Cert.Lib.FiniteCheck.all_real a5 _ _ _ e5 i,
    fun i => Cert.Lib.FiniteCheck.all_real a6 _ _ _ e6 i,
    fun i => Cert.Lib.FiniteCheck.all_real a7 _ _ _ e7 i,
    fun i => Cert.Lib.FiniteCheck.all_real a8 _ _ _ e8 i,
    fun i => Cert.Lib.FiniteCheck.all_real a9 _ _ _ e9 i,
    fun i => Cert.Lib.FiniteCheck.all_real a10 _ _ _ e10 i,
    fun i => Cert.Lib.FiniteCheck.all_real a11 _ _ _ e11 i,
    fun i => Cert.Lib.FiniteCheck.all_real a12 _ _ _ e12 i,
    fun i => Cert.Lib.FiniteCheck.all_real a13 _ _ _ e13 i,
    fun i => Cert.Lib.FiniteCheck.all_real a14 _ _ _ e14 i,
    fun i => Cert.Lib.FiniteCheck.all_real a15 _ _ _ e15 i,
    fun i => Cert.Lib.FiniteCheck.all_real a16 _ _ _ e16 i,
    fun i => Cert.Lib.FiniteCheck.all_real a17 _ _ _ e17 i⟩

end Cert.Finite

end
-- ==== Proof.SpecResult.lean ====
/-
  The result array as one function of the eighteen argument arrays.
-/
import proofs.«161096_j60911226192506_2_alg».proof.Proof.Spec

noncomputable section

namespace Cert.Spec

open Idealize.ShloMosaic Idealize.ShloMosaic.ValueIdx

/-- Entry (r, c) of the result from the argument arrays x, y, Wq, bq, Wk, bk, Wv, bv, ln_g, ln_b, bn_g, bn_b, W1, b1, W2, b2,
    W3, b3 (in this order): keys and values from the batch-normalised y, then `outOf`. -/
def result (a0 : (⟨2, ![16384, 128]⟩ : Shape).Idx → EReal) (a1 : (⟨2, ![8192, 128]⟩ : Shape).Idx → EReal)
    (a2 : (⟨2, ![128, 128]⟩ : Shape).Idx → EReal) (a3 : (⟨1, ![128]⟩ : Shape).Idx → EReal)
    (a4 : (⟨2, ![128, 128]⟩ : Shape).Idx → EReal) (a5 : (⟨1, ![128]⟩ : Shape).Idx → EReal)
    (a6 : (⟨2, ![128, 128]⟩ : Shape).Idx → EReal) (a7 : (⟨1, ![128]⟩ : Shape).Idx → EReal)
    (a8 a9 a10 a11 : (⟨1, ![128]⟩ : Shape).Idx → EReal)
    (a12 : (⟨2, ![128, 512]⟩ : Shape).Idx → EReal) (a13 : (⟨1, ![512]⟩ : Shape).Idx → EReal)
    (a14 : (⟨2, ![512, 512]⟩ : Shape).Idx → EReal) (a15 : (⟨1, ![512]⟩ : Shape).Idx → EReal)
    (a16 : (⟨2, ![512, 128]⟩ : Shape).Idx → EReal) (a17 : (⟨1, ![128]⟩ : Shape).Idx → EReal) :
    (⟨2, ![16384, 128]⟩ : Shape).Idx → EReal := fun i =>
  outOf (fun r k => a0 (ix2 r k))
    (kv (fun j k => a1 (ix2 j k)) (fun k => a10 (ix1 k)) (fun k => a11 (ix1 k)) (fun k c => a4 (ix2 k c)) (fun c => a5 (ix1 c)))
    (kv (fun j k => a1 (ix2 j k)) (fun k => a10 (ix1 k)) (fun k => a11 (ix1 k)) (fun k c => a6 (ix2 k c)) (fun c => a7 (ix1 c)))
    (fun k c => a2 (ix2 k c)) (fun c => a3 (ix1 c)) (fun k => a8 (ix1 k)) (fun k => a9 (ix1 k))
    (fun k k1 => a12 (ix2 k k1)) (fun k1 => a13 (ix1 k1)) (fun k1 k2 => a14 (ix2 k1 k2)) (fun k2 => a15 (ix1 k2))
    (fun k2 c => a16 (ix2 k2 c)) (fun c => a17 (ix1 c)) (i 0) (i 1)

end Cert.Spec

end
-- ==== Proof.KValue.lean ====
/-
  The idealized kernel's result array as one function of the eighteen argument arrays.

  The second region finds x and the query, layer-norm and perceptron parameters as launched, and finds the keys and
  values the first region left: at (j, c) the dense map of row j of the batch-normalised y. Its result array holds, row
  by row, the running attention over the eight key blocks followed by the residual, layer norm and perceptron. Under the
  finiteness precondition every input entry is a real number, hence so are every key, value, query entry and score,
  and for real data the running attention is the two-pass attention of the specification. So the array is the
  specification's result, entry by entry.
-/
import proofs.«161096_j60911226192506_2_alg».proof.Proof.KRun
import proofs.«161096_j60911226192506_2_alg».proof.Proof.R0Array
import proofs.«161096_j60911226192506_2_alg».proof.Proof.R1Array
import proofs.«161096_j60911226192506_2_alg».proof.Proof.FiniteInputs
import proofs.«161096_j60911226192506_2_alg».proof.Proof.AttnBridge
import proofs.«161096_j60911226192506_2_alg».proof.Proof.SpecResult

noncomputable section

namespace Cert.KernelIdeal.Value

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## The arrays the second region finds -/

/-- An argument array no window of the first region writes is, at the second region's entry, as launched. -/
theorem V1_arg0 (c : Dev nD) : V1 m ρ c main_arg0 = m ((c.tc : Thread nD τ).loc main_arg0) :=
  (W1_of_ne m ρ c main_arg0 (by decide)).trans rfl
theorem V1_arg2 (c : Dev nD) : V1 m ρ c main_arg2 = m ((c.tc : Thread nD τ).loc main_arg2) :=
  (W1_of_ne m ρ c main_arg2 (by decide)).trans rfl
theorem V1_arg3 (c : Dev nD) : V1 m ρ c main_arg3 = m ((c.tc : Thread nD τ).loc main_arg3) :=
  (W1_of_ne m ρ c main_arg3 (by decide)).trans rfl
theorem V1_arg8 (c : Dev nD) : V1 m ρ c main_arg8 = m ((c.tc : Thread nD τ).loc main_arg8) :=
  (W1_of_ne m ρ c main_arg8 (by decide)).trans rfl
theorem V1_arg9 (c : Dev nD) : V1 m ρ c main_arg9 = m ((c.tc : Thread nD τ).loc main_arg9) :=
  (W1_of_ne m ρ c main_arg9 (by decide)).trans rfl
theorem V1_arg12 (c : Dev nD) : V1 m ρ c main_arg12 = m ((c.tc : Thread nD τ).loc main_arg12) :=
  (W1_of_ne m ρ c main_arg12 (by decide)).trans rfl
theorem V1_arg13 (c : Dev nD) : V1 m ρ c main_arg13 = m ((c.tc : Thread nD τ).loc main_arg13) :=
  (W1_of_ne m ρ c main_arg13 (by decide)).trans rfl
theorem V1_arg14 (c : Dev nD) : V1 m ρ c main_arg14 = m ((c.tc : Thread nD τ).loc main_arg14) :=
  (W1_of_ne m ρ c main_arg14 (by decide)).trans rfl
theorem V1_arg15 (c : Dev nD) : V1 m ρ c main_arg15 = m ((c.tc : Thread nD τ).loc main_arg15) :=
  (W1_of_ne m ρ c main_arg15 (by decide)).trans rfl
theorem V1_arg16 (c : Dev nD) : V1 m ρ c main_arg16 = m ((c.tc : Thread nD τ).loc main_arg16) :=
  (W1_of_ne m ρ c main_arg16 (by decide)).trans rfl
theorem V1_arg17 (c : Dev nD) : V1 m ρ c main_arg17 = m ((c.tc : Thread nD τ).loc main_arg17) :=
  (W1_of_ne m ρ c main_arg17 (by decide)).trans rfl

/-- The keys the second region finds: at (j, c') the dense map (Wk, bk) of row j of the batch-normalised y. -/
theorem V1_keys (c : Dev nD) (j : Fin 8192) (c' : Fin 128) :
    V1 m ρ c main_v0_0 (ix2 j c')
      = Cert.Spec.kv (fun j k => m ((c.tc : Thread nD τ).loc main_arg1) (ix2 j k)) (fun k => m ((c.tc : Thread nD τ).loc main_arg10) (ix1 k))
        (fun k => m ((c.tc : Thread nD τ).loc main_arg11) (ix1 k)) (fun k c' => m ((c.tc : Thread nD τ).loc main_arg4) (ix2 k c')) (fun c' => m ((c.tc : Thread nD τ).loc main_arg5) (ix1 c')) j c' :=
  congrFun ((W1_arr m ρ c 7).trans (R0.final0_7 (V0 m ρ) c)) (ix2 j c')

/-- The values the second region finds: at (j, d) the dense map (Wv, bv) of row j of the batch-normalised y. -/
theorem V1_vals (c : Dev nD) (j : Fin 8192) (d : Fin 128) :
    V1 m ρ c main_v0_1 (ix2 j d)
      = Cert.Spec.kv (fun j k => m ((c.tc : Thread nD τ).loc main_arg1) (ix2 j k)) (fun k => m ((c.tc : Thread nD τ).loc main_arg10) (ix1 k))
        (fun k => m ((c.tc : Thread nD τ).loc main_arg11) (ix1 k)) (fun k c' => m ((c.tc : Thread nD τ).loc main_arg6) (ix2 k c')) (fun c' => m ((c.tc : Thread nD τ).loc main_arg7) (ix1 c')) j d :=
  congrFun ((W1_arr m ρ c 8).trans (R0.final0_8 (V0 m ρ) c)) (ix2 j d)

/-! ## Real data: the running attention is the two-pass attention -/

/-- With every entry of x, y, the three projections and the two normalisations' parameters a real number, every key,
    value, query entry and score is real, so the kernel's row is the specification's row. -/
theorem kerOut_eq_outOf (x : Fin 16384 → Fin 128 → EReal) (y : Fin 8192 → Fin 128 → EReal)
    (Wq : Fin 128 → Fin 128 → EReal) (bq : Fin 128 → EReal) (Wk : Fin 128 → Fin 128 → EReal) (bk : Fin 128 → EReal)
    (Wv : Fin 128 → Fin 128 → EReal) (bv lg lb bg bb : Fin 128 → EReal)
    (W1 : Fin 128 → Fin 512 → EReal) (b1 : Fin 512 → EReal) (W2 : Fin 512 → Fin 512 → EReal) (b2 : Fin 512 → EReal)
    (W3 : Fin 512 → Fin 128 → EReal) (b3 : Fin 128 → EReal)
    (hx : ∀ r k, Cert.Bridge.IsReal (x r k)) (hy : ∀ j k, Cert.Bridge.IsReal (y j k))
    (hWq : ∀ k c, Cert.Bridge.IsReal (Wq k c)) (hbq : ∀ c, Cert.Bridge.IsReal (bq c))
    (hWk : ∀ k c, Cert.Bridge.IsReal (Wk k c)) (hbk : ∀ c, Cert.Bridge.IsReal (bk c))
    (hWv : ∀ k c, Cert.Bridge.IsReal (Wv k c)) (hbv : ∀ c, Cert.Bridge.IsReal (bv c))
    (hlg : ∀ k, Cert.Bridge.IsReal (lg k)) (hlb : ∀ k, Cert.Bridge.IsReal (lb k))
    (hbg : ∀ k, Cert.Bridge.IsReal (bg k)) (hbb : ∀ k, Cert.Bridge.IsReal (bb k)) (r : Fin 16384) (q : Fin 128) :
    R1.kerOut (x r) (Cert.Spec.kv y bg bb Wk bk) (Cert.Spec.kv y bg bb Wv bv) Wq bq lg lb W1 b1 W2 b2 W3 b3 q
      = Cert.Spec.outOf x (Cert.Spec.kv y bg bb Wk bk) (Cert.Spec.kv y bg bb Wv bv) Wq bq lg lb W1 b1 W2 b2 W3 b3 r q :=
  R1.kerOut_eq_tail (x r) (Cert.Spec.kv y bg bb Wk bk) (Cert.Spec.kv y bg bb Wv bv) Wq bq lg lb W1 b1 W2 b2 W3 b3
    (fun j => Cert.Bridge.isReal_score (Cert.Spec.query (x r) lg lb Wq bq) (Cert.Spec.kv y bg bb Wk bk)
      (fun c' => Cert.Bridge.isReal_query (x r) lg lb Wq bq (hx r) hlg hlb hWq hbq c')
      (fun j c' => Cert.Bridge.isReal_kv y bg bb Wk bk hy hbg hbb hWk hbk j c') j)
    (fun j d => Cert.Bridge.isReal_kv y bg bb Wv bv hy hbg hbb hWv hbv j d) q

/-! ## The result array -/

/-- The result array after the run, from what the second region's write-backs leave. -/
theorem W2_result (c : Dev nD) : W2 m ρ c (Proc.devRef .tc main_v1) = R1.G13 (V1 m ρ) c :=
  (W2_arr m ρ c 13).trans (R1.final13 (V1 m ρ) c)

/-- Under the finiteness precondition the kernel's result array is the specification's result of the launch arrays. -/
theorem result_eq [Cert.Pre_finite_inputs.Facts]
    (hpre : ∀ c : Dev nD, Cert.Pre_finite_inputs.fn (F := Ideal)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17)) = (fun _ => 1#1))
    (c : Dev nD) :
    Gen.W2 m ρ c (Proc.devRef .tc main_v1) = Cert.Spec.result
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17)) := by
  obtain ⟨h0, h1, h2, h3, h4, h5, h6, h7, h8, h9, h10, h11, -⟩ :=
    Cert.Finite.real_of_pre _ _ _ _ _ _ _ _ _ _ _ _ _ _ _ _ _ _ (hpre c)
  rw [W2_result]
  funext i
  obtain ⟨r, q, rfl⟩ : ∃ (r : Fin 16384) (q : Fin 128), i = ix2 r q := ⟨i 0, i 1, eq_ix2 i⟩
  show R1.kerOut (fun k => V1 m ρ c main_arg0 (ix2 r k)) (fun j c' => V1 m ρ c main_v0_0 (ix2 j c'))
      (fun j d => V1 m ρ c main_v0_1 (ix2 j d)) (fun k c' => V1 m ρ c main_arg2 (ix2 k c')) (fun c' => V1 m ρ c main_arg3 (ix1 c'))
      (fun k => V1 m ρ c main_arg8 (ix1 k)) (fun k => V1 m ρ c main_arg9 (ix1 k)) (fun k k1 => V1 m ρ c main_arg12 (ix2 k k1))
      (fun k1 => V1 m ρ c main_arg13 (ix1 k1)) (fun k1 k2 => V1 m ρ c main_arg14 (ix2 k1 k2)) (fun k2 => V1 m ρ c main_arg15 (ix1 k2))
      (fun k2 c' => V1 m ρ c main_arg16 (ix2 k2 c')) (fun c' => V1 m ρ c main_arg17 (ix1 c')) q = _
  simp only [V1_keys m ρ c, V1_vals m ρ c, V1_arg0 m ρ c, V1_arg2 m ρ c, V1_arg3 m ρ c, V1_arg8 m ρ c, V1_arg9 m ρ c,
    V1_arg12 m ρ c, V1_arg13 m ρ c, V1_arg14 m ρ c, V1_arg15 m ρ c, V1_arg16 m ρ c, V1_arg17 m ρ c]
  exact kerOut_eq_outOf (fun r k => m ((c.tc : Thread nD τ).loc main_arg0) (ix2 r k)) (fun j k => m ((c.tc : Thread nD τ).loc main_arg1) (ix2 j k))
    (fun k c' => m ((c.tc : Thread nD τ).loc main_arg2) (ix2 k c')) (fun c' => m ((c.tc : Thread nD τ).loc main_arg3) (ix1 c'))
    (fun k c' => m ((c.tc : Thread nD τ).loc main_arg4) (ix2 k c')) (fun c' => m ((c.tc : Thread nD τ).loc main_arg5) (ix1 c'))
    (fun k c' => m ((c.tc : Thread nD τ).loc main_arg6) (ix2 k c')) (fun c' => m ((c.tc : Thread nD τ).loc main_arg7) (ix1 c'))
    (fun k => m ((c.tc : Thread nD τ).loc main_arg8) (ix1 k)) (fun k => m ((c.tc : Thread nD τ).loc main_arg9) (ix1 k))
    (fun k => m ((c.tc : Thread nD τ).loc main_arg10) (ix1 k)) (fun k => m ((c.tc : Thread nD τ).loc main_arg11) (ix1 k))
    (fun k k1 => m ((c.tc : Thread nD τ).loc main_arg12) (ix2 k k1)) (fun k1 => m ((c.tc : Thread nD τ).loc main_arg13) (ix1 k1))
    (fun k1 k2 => m ((c.tc : Thread nD τ).loc main_arg14) (ix2 k1 k2)) (fun k2 => m ((c.tc : Thread nD τ).loc main_arg15) (ix1 k2))
    (fun k2 c' => m ((c.tc : Thread nD τ).loc main_arg16) (ix2 k2 c')) (fun c' => m ((c.tc : Thread nD τ).loc main_arg17) (ix1 c'))
    (fun _ _ => h0 _) (fun _ _ => h1 _) (fun _ _ => h2 _) (fun _ => h3 _) (fun _ _ => h4 _) (fun _ => h5 _)
    (fun _ _ => h6 _) (fun _ => h7 _) (fun _ => h8 _) (fun _ => h9 _) (fun _ => h10 _) (fun _ => h11 _) r q

end Cert.KernelIdeal.Value

end
-- ==== Proof.RefQKV.lean ====
/-
  The reference program's queries, keys and values, read at one entry.

  Queries: row r of x is layer-normalised (mean and biased variance over its 128 entries, the variance spelled as the
  mean of the squared distances from the mean), scaled and shifted, and mapped by (Wq, bq). Keys and values: column d of y
  is batch-normalised (mean and biased variance over the 8192 rows), scaled and shifted, and row j of the result is
  mapped by (Wk, bk), respectively (Wv, bv). At the ideal values every operation is exact, so each stage reads the
  closed formula at every entry; the only facts used are that a sum started from zero is the sum, and that a broadcast
  reads its operand at the matching entry.
-/
import proofs.«161096_j60911226192506_2_alg».proof.Proof.Gen.ReferenceIdeal.Read
import proofs.«161096_j60911226192506_2_alg».proof.Proof.Spec

noncomputable section

open scoped BigOperators

namespace Cert.RefValue

open Cert.ReferenceIdeal Cert.ReferenceIdeal.Gen Cert.ReferenceIdeal.Read Idealize.ShloMosaic Idealize.ShloMosaic.ValueIdx

/-! ## The layer norm of x -/

section LayerNorm

variable (x0 : (⟨S16384x128, .f32⟩ : BufTy).Contents (Elt Ideal)) (x8 x9 : (⟨S128, .f32⟩ : BufTy).Contents (Elt Ideal))

/-- The row means, as a column: at (r, u) the mean of row r. -/
theorem v3_at (r : Fin 16384) (u : Fin 1) :
    val_main_v3 (F := Ideal) x0 (ix2 r u) = Cert.Ln.mean Cert.Spec.w128 (fun k => x0 (ix2 r k)) := by
  have e : ∀ k : Fin 128, idx_main_v0 (idx_main_v1 (ix2 r u)) k = ix2 r k := fun k =>
    funext fun a => Fin.ext (by match a with | ⟨0, _⟩ => rfl | ⟨1, _⟩ => rfl)
  rw [val_main_v3_apply, val_main_v1_apply, val_main_v0_apply, val_main_v2_apply, val_main_cst_0_apply,
    val_main_cst_apply]
  simp only [e, Ideal.hostDivf_def, Ideal.ofBits_def, Ideal.ofBits_zero_f32, zero_add]
  rfl

/-- The centred array at (r, k). -/
theorem v5_at (r : Fin 16384) (k : Fin 128) :
    val_main_v5 (F := Ideal) x0 (ix2 r k) = x0 (ix2 r k) - Cert.Ln.mean Cert.Spec.w128 (fun k => x0 (ix2 r k)) := by
  have e : idx_main_v4 (ix2 r k) = ix2 r (0 : Fin 1) :=
    funext fun a => Fin.ext (by match a with | ⟨0, _⟩ => rfl | ⟨1, _⟩ => rfl)
  rw [val_main_v5_apply, val_main_v4_apply, e, v3_at]
  rfl

/-- The row variances, as a column: at (r, u) the mean of the squared distances of row r from its mean. -/
theorem v10_at (r : Fin 16384) (u : Fin 1) :
    val_main_v10 (F := Ideal) x0 (ix2 r u) = Cert.Ln.var Cert.Spec.w128 (fun k => x0 (ix2 r k)) := by
  have e : ∀ k : Fin 128, idx_main_v7 (idx_main_v8 (ix2 r u)) k = ix2 r k := fun k =>
    funext fun a => Fin.ext (by match a with | ⟨0, _⟩ => rfl | ⟨1, _⟩ => rfl)
  rw [val_main_v10_apply, val_main_v8_apply, val_main_v7_apply, val_main_v9_apply, val_main_cst_2_apply,
    val_main_cst_1_apply]
  simp only [e, val_main_v6_apply, v5_at, Ideal.hostDivf_def, Ideal.mulf_def, Ideal.ofBits_def, Ideal.ofBits_zero_f32,
    zero_add]
  rfl

/-- The layer norm of x at (r, c). -/
theorem v23_at (r : Fin 16384) (c : Fin 128) :
    val_main_v23 (F := Ideal) x0 x8 x9 (ix2 r c)
      = Cert.Spec.ln (fun k => x0 (ix2 r k)) (fun k => x8 (ix1 k)) (fun k => x9 (ix1 k)) c := by
  have e11 : idx_main_v11 (ix2 r c) = ix2 r (0 : Fin 1) :=
    funext fun a => Fin.ext (by match a with | ⟨0, _⟩ => rfl | ⟨1, _⟩ => rfl)
  have e16 : idx_main_v16 (ix2 r c) = ix2 r (0 : Fin 1) :=
    funext fun a => Fin.ext (by match a with | ⟨0, _⟩ => rfl | ⟨1, _⟩ => rfl)
  have e19 : idx_main_v18 (idx_main_v19 (ix2 r c)) = ix1 c :=
    funext fun a => Fin.ext (by match a with | ⟨0, _⟩ => rfl)
  have e22 : idx_main_v21 (idx_main_v22 (ix2 r c)) = ix1 c :=
    funext fun a => Fin.ext (by match a with | ⟨0, _⟩ => rfl)
  rw [val_main_v23_apply, val_main_v20_apply, val_main_v17_apply, val_main_v12_apply, val_main_v11_apply,
    val_main_v16_apply, val_main_v15_apply, val_main_v14_apply, val_main_v13_apply, val_main_cst_3_apply,
    val_main_v19_apply, val_main_v18_apply, val_main_v22_apply, val_main_v21_apply, e11, e16, e19, e22, v3_at, v10_at]
  rfl

end LayerNorm

/-! ## The batch norm of y -/

section BatchNorm

variable (x1 : (⟨S8192x128, .f32⟩ : BufTy).Contents (Elt Ideal)) (x10 x11 : (⟨S128, .f32⟩ : BufTy).Contents (Elt Ideal))

/-- The column means, as a row: at (u, d) the mean of column d. -/
theorem v27_at (u : Fin 1) (d : Fin 128) :
    val_main_v27 (F := Ideal) x1 (ix2 u d) = Cert.Spec.bnMean (fun j k => x1 (ix2 j k)) d := by
  have e : ∀ k : Fin 8192, idx_main_v24 (idx_main_v25 (ix2 u d)) k = ix2 k d := fun k =>
    funext fun a => Fin.ext (by match a with | ⟨0, _⟩ => rfl | ⟨1, _⟩ => rfl)
  rw [val_main_v27_apply, val_main_v25_apply, val_main_v24_apply, val_main_v26_apply, val_main_cst_5_apply,
    val_main_cst_4_apply]
  simp only [e, Ideal.hostDivf_def, Ideal.ofBits_def, Ideal.ofBits_zero_f32, zero_add]
  rfl

/-- The centred array at (j, d). -/
theorem v29_at (j : Fin 8192) (d : Fin 128) :
    val_main_v29 (F := Ideal) x1 (ix2 j d) = x1 (ix2 j d) - Cert.Spec.bnMean (fun j k => x1 (ix2 j k)) d := by
  have e : idx_main_v28 (ix2 j d) = ix2 (0 : Fin 1) d :=
    funext fun a => Fin.ext (by match a with | ⟨0, _⟩ => rfl | ⟨1, _⟩ => rfl)
  rw [val_main_v29_apply, val_main_v28_apply, e, v27_at]
  rfl

/-- The column variances, as a row: at (u, d) the mean of the squared distances of column d from its mean. -/
theorem v34_at (u : Fin 1) (d : Fin 128) :
    val_main_v34 (F := Ideal) x1 (ix2 u d) = Cert.Spec.bnVar (fun j k => x1 (ix2 j k)) d := by
  have e : ∀ k : Fin 8192, idx_main_v31 (idx_main_v32 (ix2 u d)) k = ix2 k d := fun k =>
    funext fun a => Fin.ext (by match a with | ⟨0, _⟩ => rfl | ⟨1, _⟩ => rfl)
  rw [val_main_v34_apply, val_main_v32_apply, val_main_v31_apply, val_main_v33_apply, val_main_cst_7_apply,
    val_main_cst_6_apply]
  simp only [e, val_main_v30_apply, v29_at, Ideal.hostDivf_def, Ideal.mulf_def, Ideal.ofBits_def, Ideal.ofBits_zero_f32,
    zero_add]
  rfl

/-- The batch norm of y at (j, d). -/
theorem v47_at (j : Fin 8192) (d : Fin 128) :
    val_main_v47 (F := Ideal) x1 x10 x11 (ix2 j d)
      = Cert.Spec.bnVal (fun j k => x1 (ix2 j k)) (fun k => x10 (ix1 k)) (fun k => x11 (ix1 k)) j d := by
  have e35 : idx_main_v35 (ix2 j d) = ix2 (0 : Fin 1) d :=
    funext fun a => Fin.ext (by match a with | ⟨0, _⟩ => rfl | ⟨1, _⟩ => rfl)
  have e40 : idx_main_v40 (ix2 j d) = ix2 (0 : Fin 1) d :=
    funext fun a => Fin.ext (by match a with | ⟨0, _⟩ => rfl | ⟨1, _⟩ => rfl)
  have e43 : idx_main_v42 (idx_main_v43 (ix2 j d)) = ix1 d :=
    funext fun a => Fin.ext (by match a with | ⟨0, _⟩ => rfl)
  have e46 : idx_main_v45 (idx_main_v46 (ix2 j d)) = ix1 d :=
    funext fun a => Fin.ext (by match a with | ⟨0, _⟩ => rfl)
  rw [val_main_v47_apply, val_main_v44_apply, val_main_v41_apply, val_main_v36_apply, val_main_v35_apply,
    val_main_v40_apply, val_main_v39_apply, val_main_v38_apply, val_main_v37_apply, val_main_cst_8_apply,
    val_main_v43_apply, val_main_v42_apply, val_main_v46_apply, val_main_v45_apply, e35, e40, e43, e46, v27_at, v34_at]
  rfl

end BatchNorm

/-! ## The three dense maps -/

/-- A query entry: the dense map (Wq, bq) of the layer-normalised row r of x, at output c. -/
theorem v51_apply (x0 : (⟨S16384x128, .f32⟩ : BufTy).Contents (Elt Ideal)) (x2 : (⟨S128x128, .f32⟩ : BufTy).Contents (Elt Ideal))
    (x3 x8 x9 : (⟨S128, .f32⟩ : BufTy).Contents (Elt Ideal)) (r : Fin 16384) (c : Fin 128) :
    Cert.ReferenceIdeal.Read.val_main_v51 (F := Ideal) x0 x2 x3 x8 x9 (ix2 r c)
      = Cert.Spec.query (fun k => x0 (ix2 r k)) (fun k => x8 (ix1 k)) (fun k => x9 (ix1 k)) (fun k c => x2 (ix2 k c))
          (fun c => x3 (ix1 c)) c := by
  have el : ∀ k : Fin 128, lidx_main_v48 (ix2 r c) k = ix2 r k := fun k =>
    funext fun a => Fin.ext (by match a with | ⟨0, _⟩ => rfl | ⟨1, _⟩ => rfl)
  have er : ∀ k : Fin 128, ridx_main_v48 (ix2 r c) k = ix2 k c := fun k =>
    funext fun a => Fin.ext (by match a with | ⟨0, _⟩ => rfl | ⟨1, _⟩ => rfl)
  have eb : idx_main_v49 (idx_main_v50 (ix2 r c)) = ix1 c :=
    funext fun a => Fin.ext (by match a with | ⟨0, _⟩ => rfl)
  rw [val_main_v51_apply, val_main_v48_apply, val_main_v50_apply, val_main_v49_apply, eb]
  simp only [el, er, v23_at, Ideal.addf_def]
  rfl

/-- A key entry: the dense map (Wk, bk) of row j of the batch-normalised y, at output c. -/
theorem v55_apply (x1 : (⟨S8192x128, .f32⟩ : BufTy).Contents (Elt Ideal)) (x4 : (⟨S128x128, .f32⟩ : BufTy).Contents (Elt Ideal))
    (x5 x10 x11 : (⟨S128, .f32⟩ : BufTy).Contents (Elt Ideal)) (j : Fin 8192) (c : Fin 128) :
    Cert.ReferenceIdeal.Read.val_main_v55 (F := Ideal) x1 x4 x5 x10 x11 (ix2 j c)
      = Cert.Spec.kv (fun j k => x1 (ix2 j k)) (fun k => x10 (ix1 k)) (fun k => x11 (ix1 k)) (fun k c => x4 (ix2 k c))
          (fun c => x5 (ix1 c)) j c := by
  have el : ∀ k : Fin 128, lidx_main_v52 (ix2 j c) k = ix2 j k := fun k =>
    funext fun a => Fin.ext (by match a with | ⟨0, _⟩ => rfl | ⟨1, _⟩ => rfl)
  have er : ∀ k : Fin 128, ridx_main_v52 (ix2 j c) k = ix2 k c := fun k =>
    funext fun a => Fin.ext (by match a with | ⟨0, _⟩ => rfl | ⟨1, _⟩ => rfl)
  have eb : idx_main_v53 (idx_main_v54 (ix2 j c)) = ix1 c :=
    funext fun a => Fin.ext (by match a with | ⟨0, _⟩ => rfl)
  rw [val_main_v55_apply, val_main_v52_apply, val_main_v54_apply, val_main_v53_apply, eb]
  simp only [el, er, v47_at, Ideal.addf_def]
  rfl

/-- A value entry: the dense map (Wv, bv) of row j of the batch-normalised y, at output c. -/
theorem v59_apply (x1 : (⟨S8192x128, .f32⟩ : BufTy).Contents (Elt Ideal)) (x6 : (⟨S128x128, .f32⟩ : BufTy).Contents (Elt Ideal))
    (x7 x10 x11 : (⟨S128, .f32⟩ : BufTy).Contents (Elt Ideal)) (j : Fin 8192) (c : Fin 128) :
    Cert.ReferenceIdeal.Read.val_main_v59 (F := Ideal) x1 x6 x7 x10 x11 (ix2 j c)
      = Cert.Spec.kv (fun j k => x1 (ix2 j k)) (fun k => x10 (ix1 k)) (fun k => x11 (ix1 k)) (fun k c => x6 (ix2 k c))
          (fun c => x7 (ix1 c)) j c := by
  have el : ∀ k : Fin 128, lidx_main_v56 (ix2 j c) k = ix2 j k := fun k =>
    funext fun a => Fin.ext (by match a with | ⟨0, _⟩ => rfl | ⟨1, _⟩ => rfl)
  have er : ∀ k : Fin 128, ridx_main_v56 (ix2 j c) k = ix2 k c := fun k =>
    funext fun a => Fin.ext (by match a with | ⟨0, _⟩ => rfl | ⟨1, _⟩ => rfl)
  have eb : idx_main_v57 (idx_main_v58 (ix2 j c)) = ix1 c :=
    funext fun a => Fin.ext (by match a with | ⟨0, _⟩ => rfl)
  rw [val_main_v59_apply, val_main_v56_apply, val_main_v58_apply, val_main_v57_apply, eb]
  simp only [el, er, v47_at, Ideal.addf_def]
  rfl

end Cert.RefValue

end
-- ==== Proof.RefAttn.lean ====
/-
  The reference from the scores to the first residual sum, read at one entry, over the query, key and value stages.

  For a query row r: the score against key j is the sum over the 128 lanes of query times key; the row maximum is the
  supremum of the row's scores (a fold of max from −∞); the softmax weight is exp(score − maximum) over the row's sum of
  such exponentials; the unnormalised weight is relu(score)·0.1 + softmax weight, normalised by the row's sum of them;
  the attention output is the weights applied to the values; z1 = attention output + x. Every sum starts at zero and
  every operation is exact on the extended reals, so each stage reads its formula at every entry.
-/
import proofs.«161096_j60911226192506_2_alg».proof.Proof.Gen.ReferenceIdeal.Read
import proofs.«161096_j60911226192506_2_alg».proof.Proof.Spec

noncomputable section

open scoped BigOperators

namespace Cert.RefValue

open Cert.ReferenceIdeal Cert.ReferenceIdeal.Gen Cert.ReferenceIdeal.Read Idealize.ShloMosaic Idealize.ShloMosaic.ValueIdx
open Idealize.ShloMosaic.StableHlo

variable (x0 : (⟨S16384x128, .f32⟩ : BufTy).Contents (Elt Ideal)) (x1 : (⟨S8192x128, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 x8 x9 x10 x11 : (⟨S128, .f32⟩ : BufTy).Contents (Elt Ideal))
  (x12 : (⟨S128x512, .f32⟩ : BufTy).Contents (Elt Ideal)) (x13 : (⟨S512, .f32⟩ : BufTy).Contents (Elt Ideal))
  (x14 : (⟨S512x512, .f32⟩ : BufTy).Contents (Elt Ideal)) (x15 : (⟨S512, .f32⟩ : BufTy).Contents (Elt Ideal))
  (x16 : (⟨S512x128, .f32⟩ : BufTy).Contents (Elt Ideal)) (x17 : (⟨S128, .f32⟩ : BufTy).Contents (Elt Ideal))

/-- The score of query row r against key j: the sum over the 128 lanes of query times key. -/
theorem v61_at (r : Fin 16384) (j : Fin 8192) :
    val_main_v61 (F := Ideal) x0 x1 x2 x3 x4 x5 x8 x9 x10 x11 (ix2 r j)
      = Cert.Spec.score (fun c' => val_main_v51 (F := Ideal) x0 x2 x3 x8 x9 (ix2 r c'))
          (fun j' c' => val_main_v55 (F := Ideal) x1 x4 x5 x10 x11 (ix2 j' c')) j := by
  rw [val_main_v61_apply]
  unfold Cert.Spec.score
  refine Finset.sum_congr rfl fun k _ => ?_
  rw [val_main_v60_apply]
  have e1 : lidx_main_v61 (ix2 r j) k = ix2 r k :=
    funext fun a => Fin.ext (by match a with | ⟨0, _⟩ => rfl | ⟨1, _⟩ => rfl)
  have e2 : idx_main_v60 (ridx_main_v61 (ix2 r j) k) = ix2 j k :=
    funext fun a => Fin.ext (by match a with | ⟨0, _⟩ => rfl | ⟨1, _⟩ => rfl)
  rw [e1, e2]

/-- The word of −∞ is the bottom element. -/
theorem ofBits_neg_inf : Ideal.ofBits .f32 0xFF800000#32 = (⊥ : EReal) := by
  simp [Ideal.ofBits, Ideal.ieee]

/-- A fold of max from the bottom element over a finite type is the supremum. -/
theorem fold_max_bot {ι : Type} [Fintype ι] (f : ι → EReal) :
    (Finset.univ : Finset ι).fold max ⊥ f = Finset.univ.sup f := rfl

/-- The row maximum: the supremum of the row's scores (the fold starts at −∞, and the maximum with −∞ changes nothing). -/
theorem v64_at (r : Fin 16384) :
    val_main_v64 (F := Ideal) x0 x1 x2 x3 x4 x5 x8 x9 x10 x11 (ix1 r)
      = Finset.univ.sup fun j : Fin 8192 => val_main_v61 (F := Ideal) x0 x1 x2 x3 x4 x5 x8 x9 x10 x11 (ix2 r j) := by
  rw [val_main_v64_apply, val_main_v63_apply, val_main_cst_10_apply]
  unfold val_main_v62
  generalize val_main_v61 (F := Ideal) x0 x1 x2 x3 x4 x5 x8 x9 x10 x11 = s
  have h := Host.reduce_eq_fold_single (α := Ideal .f32) (FloatOps.maximumf (F := Ideal) (φ := .f32)) s
    (val_main_cst_9 (F := Ideal)) reducesTo_S16384x8192_S16384_d1 (by decide) h_S_ (ix1 r)
  refine (congrArg (FloatOps.maximumf (F := Ideal) (φ := .f32) _) h).trans ?_
  rw [val_main_cst_9_apply]
  simp only [Ideal.ofBits_def, Ideal.maximumf_def, ofBits_neg_inf, bot_le, max_eq_right]
  refine (Finset.fold_congr (g := fun j : Fin 8192 => s (ix2 r j)) fun k _ => ?_).trans (fold_max_bot _)
  exact congrArg s (funext fun a => Fin.ext (by match a with | ⟨0, _⟩ => rfl | ⟨1, _⟩ => rfl))

/-- The exponential of a score minus its row's maximum. -/
theorem v68_at (r : Fin 16384) (j : Fin 8192) :
    val_main_v68 (F := Ideal) x0 x1 x2 x3 x4 x5 x8 x9 x10 x11 (ix2 r j)
      = Ideal.exp (val_main_v61 (F := Ideal) x0 x1 x2 x3 x4 x5 x8 x9 x10 x11 (ix2 r j) - val_main_v64 (F := Ideal) x0 x1 x2 x3 x4 x5 x8 x9 x10 x11 (ix1 r)) := by
  rw [val_main_v68_apply, val_main_v67_apply, val_main_v66_apply, val_main_v65_apply]
  have e : idx_main_v65 (idx_main_v66 (ix2 r j)) = ix1 r := funext fun a => Fin.ext (by match a with | ⟨0, _⟩ => rfl)
  rw [e]
  rfl

/-- The row's sum of exponentials (the sum starts at zero). -/
theorem v69_at (r : Fin 16384) :
    val_main_v69 (F := Ideal) x0 x1 x2 x3 x4 x5 x8 x9 x10 x11 (ix1 r) = ∑ j : Fin 8192, val_main_v68 (F := Ideal) x0 x1 x2 x3 x4 x5 x8 x9 x10 x11 (ix2 r j) := by
  rw [val_main_v69_apply, val_main_cst_11_apply]
  simp only [Ideal.ofBits_def, Ideal.ofBits_zero_f32, zero_add]
  refine Finset.sum_congr rfl fun k _ => ?_
  exact congrArg _ (funext fun a => Fin.ext (by match a with | ⟨0, _⟩ => rfl | ⟨1, _⟩ => rfl))

/-- The softmax weight: the exponential over the row's sum. -/
theorem v72_at (r : Fin 16384) (j : Fin 8192) :
    val_main_v72 (F := Ideal) x0 x1 x2 x3 x4 x5 x8 x9 x10 x11 (ix2 r j)
      = Ideal.div (val_main_v68 (F := Ideal) x0 x1 x2 x3 x4 x5 x8 x9 x10 x11 (ix2 r j)) (val_main_v69 (F := Ideal) x0 x1 x2 x3 x4 x5 x8 x9 x10 x11 (ix1 r)) := by
  rw [val_main_v72_apply, val_main_v71_apply, val_main_v70_apply]
  have e : idx_main_v70 (idx_main_v71 (ix2 r j)) = ix1 r := funext fun a => Fin.ext (by match a with | ⟨0, _⟩ => rfl)
  rw [e]
  rfl

/-- The unnormalised weight: the rectified score times the constant, plus the softmax weight. -/
theorem v76_at (r : Fin 16384) (j : Fin 8192) :
    val_main_v76 (F := Ideal) x0 x1 x2 x3 x4 x5 x8 x9 x10 x11 (ix2 r j)
      = max (val_main_v61 (F := Ideal) x0 x1 x2 x3 x4 x5 x8 x9 x10 x11 (ix2 r j)) 0 * Ideal.ofBits .f32 Cert.Spec.w01 + val_main_v72 (F := Ideal) x0 x1 x2 x3 x4 x5 x8 x9 x10 x11 (ix2 r j) := by
  rw [val_main_v76_apply, val_main_v75_apply, val_main_v73_apply, val_main_call0_v0_apply, val_main_call0_cst_apply,
    val_main_v74_apply, val_main_cst_12_apply]
  simp only [Ideal.addf_def, Ideal.mulf_def, Ideal.maximumf_def, Ideal.ofBits_def, Ideal.ofBits_zero_f32]

/-- The row's sum of unnormalised weights. -/
theorem v77_at (r : Fin 16384) :
    val_main_v77 (F := Ideal) x0 x1 x2 x3 x4 x5 x8 x9 x10 x11 (ix1 r) = ∑ j : Fin 8192, val_main_v76 (F := Ideal) x0 x1 x2 x3 x4 x5 x8 x9 x10 x11 (ix2 r j) := by
  rw [val_main_v77_apply, val_main_cst_13_apply]
  simp only [Ideal.ofBits_def, Ideal.ofBits_zero_f32, zero_add]
  refine Finset.sum_congr rfl fun k _ => ?_
  exact congrArg _ (funext fun a => Fin.ext (by match a with | ⟨0, _⟩ => rfl | ⟨1, _⟩ => rfl))

/-- The normalised weight. -/
theorem v80_at (r : Fin 16384) (j : Fin 8192) :
    val_main_v80 (F := Ideal) x0 x1 x2 x3 x4 x5 x8 x9 x10 x11 (ix2 r j)
      = Ideal.div (val_main_v76 (F := Ideal) x0 x1 x2 x3 x4 x5 x8 x9 x10 x11 (ix2 r j)) (val_main_v77 (F := Ideal) x0 x1 x2 x3 x4 x5 x8 x9 x10 x11 (ix1 r)) := by
  rw [val_main_v80_apply, val_main_v79_apply, val_main_v78_apply]
  have e : idx_main_v78 (idx_main_v79 (ix2 r j)) = ix1 r := funext fun a => Fin.ext (by match a with | ⟨0, _⟩ => rfl)
  rw [e]
  rfl

/-- The attention output: the weights applied to the values. -/
theorem v81_at (r : Fin 16384) (d : Fin 128) :
    val_main_v81 (F := Ideal) x0 x1 x2 x3 x4 x5 x6 x7 x8 x9 x10 x11 (ix2 r d)
      = ∑ j : Fin 8192, val_main_v80 (F := Ideal) x0 x1 x2 x3 x4 x5 x8 x9 x10 x11 (ix2 r j) * val_main_v59 (F := Ideal) x1 x6 x7 x10 x11 (ix2 j d) := by
  rw [val_main_v81_apply]
  refine Finset.sum_congr rfl fun k _ => ?_
  have e1 : lidx_main_v81 (ix2 r d) k = ix2 r k := funext fun a => Fin.ext (by match a with | ⟨0, _⟩ => rfl | ⟨1, _⟩ => rfl)
  have e2 : ridx_main_v81 (ix2 r d) k = ix2 k d := funext fun a => Fin.ext (by match a with | ⟨0, _⟩ => rfl | ⟨1, _⟩ => rfl)
  rw [e1, e2]

/-- The attention output of row r in the two-pass form over the row's scores. -/
theorem v81_att (r : Fin 16384) (d : Fin 128) :
    val_main_v81 (F := Ideal) x0 x1 x2 x3 x4 x5 x6 x7 x8 x9 x10 x11 (ix2 r d)
      = Cert.Spec.attRef (fun j : Fin 8192 => val_main_v61 (F := Ideal) x0 x1 x2 x3 x4 x5 x8 x9 x10 x11 (ix2 r j)) (fun (j' : Fin 8192) (d' : Fin 128) => val_main_v59 (F := Ideal) x1 x6 x7 x10 x11 (ix2 j' d')) d := by
  rw [v81_at]
  unfold Cert.Spec.attRef Cert.Attn.ref
  simp only [v80_at, v77_at, v76_at, v72_at, v69_at, v68_at, v64_at]

/-- The residual sum z1 = attention output + x. -/
theorem v82_apply (r : Fin 16384) (k : Fin 128) :
    val_main_v82 (F := Ideal) x0 x1 x2 x3 x4 x5 x6 x7 x8 x9 x10 x11 (ix2 r k) = (Cert.Spec.attRef (Cert.Spec.score (fun c' : Fin 128 => val_main_v51 (F := Ideal) x0 x2 x3 x8 x9 (ix2 r c')) (fun (j' : Fin 8192) (c' : Fin 128) => val_main_v55 (F := Ideal) x1 x4 x5 x10 x11 (ix2 j' c'))) (fun (j' : Fin 8192) (d' : Fin 128) => val_main_v59 (F := Ideal) x1 x6 x7 x10 x11 (ix2 j' d'))) k + x0 (ix2 r k) := by
  rw [val_main_v82_apply, v81_att]
  have hs : (fun j : Fin 8192 => val_main_v61 (F := Ideal) x0 x1 x2 x3 x4 x5 x8 x9 x10 x11 (ix2 r j)) = Cert.Spec.score (fun c' : Fin 128 => val_main_v51 (F := Ideal) x0 x2 x3 x8 x9 (ix2 r c')) (fun (j' : Fin 8192) (c' : Fin 128) => val_main_v55 (F := Ideal) x1 x4 x5 x10 x11 (ix2 j' c')) :=
    funext fun j => v61_at x0 x1 x2 x3 x4 x5 x8 x9 x10 x11 r j
  rw [hs]
  rfl

end Cert.RefValue

end
-- ==== Proof.RefTail.lean ====
/-
  The reference from the first residual sum z1 to the result, read at one entry: the layer norm of a row of z1
  (mean, centred entries, biased variance, reciprocal square root, scale and shift), the three dense layers with two
  rectifications, and the second residual sum. Every sum starts at zero and every operation is exact on the extended
  reals, so each stage reads its formula at every entry.
-/
import proofs.«161096_j60911226192506_2_alg».proof.Proof.Gen.ReferenceIdeal.Read
import proofs.«161096_j60911226192506_2_alg».proof.Proof.Spec
import proofs.«161096_j60911226192506_2_alg».proof.Proof.RefAttn

noncomputable section

open scoped BigOperators

namespace Cert.RefValue

open Cert.ReferenceIdeal Cert.ReferenceIdeal.Gen Cert.ReferenceIdeal.Read Idealize.ShloMosaic Idealize.ShloMosaic.ValueIdx
open Idealize.ShloMosaic.StableHlo

variable (x0 : (⟨S16384x128, .f32⟩ : BufTy).Contents (Elt Ideal)) (x1 : (⟨S8192x128, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 x8 x9 x10 x11 : (⟨S128, .f32⟩ : BufTy).Contents (Elt Ideal))
  (x12 : (⟨S128x512, .f32⟩ : BufTy).Contents (Elt Ideal)) (x13 : (⟨S512, .f32⟩ : BufTy).Contents (Elt Ideal))
  (x14 : (⟨S512x512, .f32⟩ : BufTy).Contents (Elt Ideal)) (x15 : (⟨S512, .f32⟩ : BufTy).Contents (Elt Ideal))
  (x16 : (⟨S512x128, .f32⟩ : BufTy).Contents (Elt Ideal)) (x17 : (⟨S128, .f32⟩ : BufTy).Contents (Elt Ideal))

/-! ## The tail: layer norm of a row z of z1, the perceptron, and the second residual sum.
    The row is carried as a function z with the hypothesis that stage %82 reads it. -/

/-- The mean of the row (read in the [16384,1] column). -/
theorem v86_at (r : Fin 16384) (z : Fin 128 → EReal) (hz : ∀ k : Fin 128, val_main_v82 (F := Ideal) x0 x1 x2 x3 x4 x5 x6 x7 x8 x9 x10 x11 (ix2 r k) = z k) (u : Fin 1) :
    val_main_v86 (F := Ideal) x0 x1 x2 x3 x4 x5 x6 x7 x8 x9 x10 x11 (ix2 r u) = Cert.Ln.mean Cert.Spec.w128 z := by
  rw [val_main_v86_apply, val_main_v84_apply, val_main_v85_apply, val_main_cst_15_apply, val_main_v83_apply,
    val_main_cst_14_apply]
  simp only [Ideal.ofBits_def, Ideal.ofBits_zero_f32, zero_add, Ideal.hostDivf_def]
  have hs : ∀ k : Fin 128, val_main_v82 (F := Ideal) x0 x1 x2 x3 x4 x5 x6 x7 x8 x9 x10 x11 (idx_main_v83 (idx_main_v84 (ix2 r u)) k) = z k := fun k => by
    have e : idx_main_v83 (idx_main_v84 (ix2 r u)) k = ix2 r k := funext fun a => Fin.ext (by match a with | ⟨0, _⟩ => rfl | ⟨1, _⟩ => rfl)
    rw [e, hz]
  rw [Finset.sum_congr rfl fun k _ => hs k]
  rfl

/-- The centred entry. -/
theorem v88_at (r : Fin 16384) (z : Fin 128 → EReal) (hz : ∀ k : Fin 128, val_main_v82 (F := Ideal) x0 x1 x2 x3 x4 x5 x6 x7 x8 x9 x10 x11 (ix2 r k) = z k) (k : Fin 128) :
    val_main_v88 (F := Ideal) x0 x1 x2 x3 x4 x5 x6 x7 x8 x9 x10 x11 (ix2 r k) = z k - Cert.Ln.mean Cert.Spec.w128 z := by
  rw [val_main_v88_apply, val_main_v87_apply]
  have e : idx_main_v87 (ix2 r k) = ix2 r (0 : Fin 1) := funext fun a => Fin.ext (by match a with | ⟨0, _⟩ => rfl | ⟨1, _⟩ => rfl)
  rw [e, v86_at x0 x1 x2 x3 x4 x5 x6 x7 x8 x9 x10 x11 r z hz, hz]
  rfl

/-- The variance of the row: the mean of the squared centred entries. -/
theorem v93_at (r : Fin 16384) (z : Fin 128 → EReal) (hz : ∀ k : Fin 128, val_main_v82 (F := Ideal) x0 x1 x2 x3 x4 x5 x6 x7 x8 x9 x10 x11 (ix2 r k) = z k) (u : Fin 1) :
    val_main_v93 (F := Ideal) x0 x1 x2 x3 x4 x5 x6 x7 x8 x9 x10 x11 (ix2 r u) = Cert.Ln.var Cert.Spec.w128 z := by
  rw [val_main_v93_apply, val_main_v91_apply, val_main_v92_apply, val_main_cst_17_apply, val_main_v90_apply,
    val_main_cst_16_apply]
  simp only [Ideal.ofBits_def, Ideal.ofBits_zero_f32, zero_add, Ideal.hostDivf_def]
  have hs : ∀ k : Fin 128, val_main_v89 (F := Ideal) x0 x1 x2 x3 x4 x5 x6 x7 x8 x9 x10 x11 (idx_main_v90 (idx_main_v91 (ix2 r u)) k)
      = (z k - Cert.Ln.mean Cert.Spec.w128 z) * (z k - Cert.Ln.mean Cert.Spec.w128 z) := fun k => by
    have e : idx_main_v90 (idx_main_v91 (ix2 r u)) k = ix2 r k := funext fun a => Fin.ext (by match a with | ⟨0, _⟩ => rfl | ⟨1, _⟩ => rfl)
    rw [e, val_main_v89_apply, v88_at x0 x1 x2 x3 x4 x5 x6 x7 x8 x9 x10 x11 r z hz]
    rfl
  rw [Finset.sum_congr rfl fun k _ => hs k]
  rfl

/-- The layer-normalised row at q. -/
theorem v106_at (r : Fin 16384) (z : Fin 128 → EReal) (hz : ∀ k : Fin 128, val_main_v82 (F := Ideal) x0 x1 x2 x3 x4 x5 x6 x7 x8 x9 x10 x11 (ix2 r k) = z k) (q : Fin 128) :
    val_main_v106 (F := Ideal) x0 x1 x2 x3 x4 x5 x6 x7 x8 x9 x10 x11 (ix2 r q) = (Cert.Spec.ln z (fun k : Fin 128 => x8 (ix1 k)) (fun k : Fin 128 => x9 (ix1 k))) q := by
  rw [val_main_v106_apply, val_main_v103_apply, val_main_v100_apply, val_main_v95_apply, val_main_v94_apply,
    val_main_v99_apply, val_main_v98_apply, val_main_v97_apply, val_main_v96_apply, val_main_cst_18_apply,
    val_main_v102_apply, val_main_v101_apply, val_main_v105_apply, val_main_v104_apply]
  have e1 : idx_main_v94 (ix2 r q) = ix2 r (0 : Fin 1) := funext fun a => Fin.ext (by match a with | ⟨0, _⟩ => rfl | ⟨1, _⟩ => rfl)
  have e2 : idx_main_v99 (ix2 r q) = ix2 r (0 : Fin 1) := funext fun a => Fin.ext (by match a with | ⟨0, _⟩ => rfl | ⟨1, _⟩ => rfl)
  have e3 : idx_main_v101 (idx_main_v102 (ix2 r q)) = ix1 q := funext fun a => Fin.ext (by match a with | ⟨0, _⟩ => rfl)
  have e4 : idx_main_v104 (idx_main_v105 (ix2 r q)) = ix1 q := funext fun a => Fin.ext (by match a with | ⟨0, _⟩ => rfl)
  rw [e1, e2, e3, e4, v86_at x0 x1 x2 x3 x4 x5 x6 x7 x8 x9 x10 x11 r z hz, v93_at x0 x1 x2 x3 x4 x5 x6 x7 x8 x9 x10 x11 r z hz, hz]
  rfl

/-- The first hidden layer, rectified. -/
theorem v111_at (r : Fin 16384) (z : Fin 128 → EReal) (hz : ∀ k : Fin 128, val_main_v82 (F := Ideal) x0 x1 x2 x3 x4 x5 x6 x7 x8 x9 x10 x11 (ix2 r k) = z k) (k1 : Fin 512) :
    val_main_v111 (F := Ideal) x0 x1 x2 x3 x4 x5 x6 x7 x8 x9 x10 x11 x12 x13 (ix2 r k1) = (fun k1 : Fin 512 => max (Cert.Spec.dense (Cert.Spec.ln z (fun k : Fin 128 => x8 (ix1 k)) (fun k : Fin 128 => x9 (ix1 k))) (fun k : Fin 128 => x12 (ix2 k k1)) (x13 (ix1 k1))) 0) k1 := by
  rw [val_main_v111_apply, val_main_call1_v0_apply, val_main_call1_cst_apply, val_main_v110_apply, val_main_v109_apply,
    val_main_v108_apply, val_main_v107_apply]
  have e : idx_main_v108 (idx_main_v109 (ix2 r k1)) = ix1 k1 := funext fun a => Fin.ext (by match a with | ⟨0, _⟩ => rfl)
  have hs : ∀ k : Fin 128, val_main_v106 (F := Ideal) x0 x1 x2 x3 x4 x5 x6 x7 x8 x9 x10 x11 (lidx_main_v107 (ix2 r k1) k) * x12 (ridx_main_v107 (ix2 r k1) k)
      = (Cert.Spec.ln z (fun k : Fin 128 => x8 (ix1 k)) (fun k : Fin 128 => x9 (ix1 k))) k * x12 (ix2 k k1) := fun k => by
    have e1 : lidx_main_v107 (ix2 r k1) k = ix2 r k := funext fun a => Fin.ext (by match a with | ⟨0, _⟩ => rfl | ⟨1, _⟩ => rfl)
    have e2 : ridx_main_v107 (ix2 r k1) k = ix2 k k1 := funext fun a => Fin.ext (by match a with | ⟨0, _⟩ => rfl | ⟨1, _⟩ => rfl)
    rw [e1, e2, v106_at x0 x1 x2 x3 x4 x5 x6 x7 x8 x9 x10 x11 r z hz]
  rw [e, Finset.sum_congr rfl fun k _ => hs k]
  simp only [Ideal.maximumf_def, Ideal.addf_def, Ideal.ofBits_def, Ideal.ofBits_zero_f32]
  rfl

/-- The second hidden layer, rectified. -/
theorem v116_at (r : Fin 16384) (z : Fin 128 → EReal) (hz : ∀ k : Fin 128, val_main_v82 (F := Ideal) x0 x1 x2 x3 x4 x5 x6 x7 x8 x9 x10 x11 (ix2 r k) = z k) (k2 : Fin 512) :
    val_main_v116 (F := Ideal) x0 x1 x2 x3 x4 x5 x6 x7 x8 x9 x10 x11 x12 x13 x14 x15 (ix2 r k2) = (fun k2 : Fin 512 => max (Cert.Spec.dense (fun k1 : Fin 512 => max (Cert.Spec.dense (Cert.Spec.ln z (fun k : Fin 128 => x8 (ix1 k)) (fun k : Fin 128 => x9 (ix1 k))) (fun k : Fin 128 => x12 (ix2 k k1)) (x13 (ix1 k1))) 0) (fun k1 : Fin 512 => x14 (ix2 k1 k2)) (x15 (ix1 k2))) 0) k2 := by
  rw [val_main_v116_apply, val_main_call2_v0_apply, val_main_call2_cst_apply, val_main_v115_apply, val_main_v114_apply,
    val_main_v113_apply, val_main_v112_apply]
  have e : idx_main_v113 (idx_main_v114 (ix2 r k2)) = ix1 k2 := funext fun a => Fin.ext (by match a with | ⟨0, _⟩ => rfl)
  have hs : ∀ k : Fin 512, val_main_v111 (F := Ideal) x0 x1 x2 x3 x4 x5 x6 x7 x8 x9 x10 x11 x12 x13 (lidx_main_v112 (ix2 r k2) k) * x14 (ridx_main_v112 (ix2 r k2) k)
      = (fun k1 : Fin 512 => max (Cert.Spec.dense (Cert.Spec.ln z (fun k : Fin 128 => x8 (ix1 k)) (fun k : Fin 128 => x9 (ix1 k))) (fun k : Fin 128 => x12 (ix2 k k1)) (x13 (ix1 k1))) 0) k * x14 (ix2 k k2) := fun k => by
    have e1 : lidx_main_v112 (ix2 r k2) k = ix2 r k := funext fun a => Fin.ext (by match a with | ⟨0, _⟩ => rfl | ⟨1, _⟩ => rfl)
    have e2 : ridx_main_v112 (ix2 r k2) k = ix2 k k2 := funext fun a => Fin.ext (by match a with | ⟨0, _⟩ => rfl | ⟨1, _⟩ => rfl)
    rw [e1, e2, v111_at x0 x1 x2 x3 x4 x5 x6 x7 x8 x9 x10 x11 x12 x13 r z hz]
  rw [e, Finset.sum_congr rfl fun k _ => hs k]
  simp only [Ideal.maximumf_def, Ideal.addf_def, Ideal.ofBits_def, Ideal.ofBits_zero_f32]
  rfl

/-- The perceptron's output. -/
theorem v120_at (r : Fin 16384) (z : Fin 128 → EReal) (hz : ∀ k : Fin 128, val_main_v82 (F := Ideal) x0 x1 x2 x3 x4 x5 x6 x7 x8 x9 x10 x11 (ix2 r k) = z k) (c : Fin 128) :
    val_main_v120 (F := Ideal) x0 x1 x2 x3 x4 x5 x6 x7 x8 x9 x10 x11 x12 x13 x14 x15 x16 x17 (ix2 r c)
      = Cert.Spec.mlp (Cert.Spec.ln z (fun k : Fin 128 => x8 (ix1 k)) (fun k : Fin 128 => x9 (ix1 k))) (fun (k : Fin 128) (k1 : Fin 512) => x12 (ix2 k k1)) (fun k1 : Fin 512 => x13 (ix1 k1)) (fun (k1 : Fin 512) (k2 : Fin 512) => x14 (ix2 k1 k2)) (fun k2 : Fin 512 => x15 (ix1 k2)) (fun (k2 : Fin 512) (c' : Fin 128) => x16 (ix2 k2 c')) (fun c' : Fin 128 => x17 (ix1 c')) c := by
  rw [val_main_v120_apply, val_main_v119_apply, val_main_v118_apply, val_main_v117_apply]
  have e : idx_main_v118 (idx_main_v119 (ix2 r c)) = ix1 c := funext fun a => Fin.ext (by match a with | ⟨0, _⟩ => rfl)
  have hs : ∀ k : Fin 512, val_main_v116 (F := Ideal) x0 x1 x2 x3 x4 x5 x6 x7 x8 x9 x10 x11 x12 x13 x14 x15 (lidx_main_v117 (ix2 r c) k) * x16 (ridx_main_v117 (ix2 r c) k)
      = (fun k2 : Fin 512 => max (Cert.Spec.dense (fun k1 : Fin 512 => max (Cert.Spec.dense (Cert.Spec.ln z (fun k : Fin 128 => x8 (ix1 k)) (fun k : Fin 128 => x9 (ix1 k))) (fun k : Fin 128 => x12 (ix2 k k1)) (x13 (ix1 k1))) 0) (fun k1 : Fin 512 => x14 (ix2 k1 k2)) (x15 (ix1 k2))) 0) k * x16 (ix2 k c) := fun k => by
    have e1 : lidx_main_v117 (ix2 r c) k = ix2 r k := funext fun a => Fin.ext (by match a with | ⟨0, _⟩ => rfl | ⟨1, _⟩ => rfl)
    have e2 : ridx_main_v117 (ix2 r c) k = ix2 k c := funext fun a => Fin.ext (by match a with | ⟨0, _⟩ => rfl | ⟨1, _⟩ => rfl)
    rw [e1, e2, v116_at x0 x1 x2 x3 x4 x5 x6 x7 x8 x9 x10 x11 x12 x13 x14 x15 r z hz]
  rw [e, Finset.sum_congr rfl fun k _ => hs k]
  rfl

/-- The reference's result at (r, c), over the query, key and value stages: the tail of the two-pass attention of
    row r's scores. -/
theorem v121_apply (r : Fin 16384) (c : Fin 128) :
    val_main_v121 (F := Ideal) x0 x1 x2 x3 x4 x5 x6 x7 x8 x9 x10 x11 x12 x13 x14 x15 x16 x17 (ix2 r c)
      = Cert.Spec.tail (Cert.Spec.attRef (Cert.Spec.score (fun c' : Fin 128 => val_main_v51 (F := Ideal) x0 x2 x3 x8 x9 (ix2 r c')) (fun (j' : Fin 8192) (c' : Fin 128) => val_main_v55 (F := Ideal) x1 x4 x5 x10 x11 (ix2 j' c'))) (fun (j' : Fin 8192) (d' : Fin 128) => val_main_v59 (F := Ideal) x1 x6 x7 x10 x11 (ix2 j' d')))
          (fun k : Fin 128 => x0 (ix2 r k)) (fun k : Fin 128 => x8 (ix1 k)) (fun k : Fin 128 => x9 (ix1 k))
          (fun (k : Fin 128) (k1 : Fin 512) => x12 (ix2 k k1)) (fun k1 : Fin 512 => x13 (ix1 k1)) (fun (k1 : Fin 512) (k2 : Fin 512) => x14 (ix2 k1 k2)) (fun k2 : Fin 512 => x15 (ix1 k2)) (fun (k2 : Fin 512) (c' : Fin 128) => x16 (ix2 k2 c')) (fun c' : Fin 128 => x17 (ix1 c')) c := by
  rw [val_main_v121_apply,
    v120_at x0 x1 x2 x3 x4 x5 x6 x7 x8 x9 x10 x11 x12 x13 x14 x15 x16 x17 r (fun k : Fin 128 => (Cert.Spec.attRef (Cert.Spec.score (fun c' : Fin 128 => val_main_v51 (F := Ideal) x0 x2 x3 x8 x9 (ix2 r c')) (fun (j' : Fin 8192) (c' : Fin 128) => val_main_v55 (F := Ideal) x1 x4 x5 x10 x11 (ix2 j' c'))) (fun (j' : Fin 8192) (d' : Fin 128) => val_main_v59 (F := Ideal) x1 x6 x7 x10 x11 (ix2 j' d'))) k + x0 (ix2 r k))
      (fun k => v82_apply x0 x1 x2 x3 x4 x5 x6 x7 x8 x9 x10 x11 r k) c,
    v82_apply]
  rfl

end Cert.RefValue

end
-- ==== Proof.RefResult.lean ====
/-
  The reference's result as the specified function of the eighteen argument arrays: the stage that writes the result,
  read at every entry (r, c), is the tail of the two-pass attention of row r's scores, and its query, key and value
  stages are the dense maps of the layer-normalised x and of the batch-normalised y; together this is the specified
  result. Every execution of the reference therefore ends with that function of the arguments in the result array,
  the arguments unchanged.
-/
import proofs.«161096_j60911226192506_2_alg».proof.Proof.RefQKV
import proofs.«161096_j60911226192506_2_alg».proof.Proof.RefTail
import proofs.«161096_j60911226192506_2_alg».proof.Proof.SpecResult

noncomputable section

open scoped BigOperators

namespace Cert.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The stage that writes the result is the specified function of the arguments. -/
theorem v121_eq_result (x0 : (⟨S16384x128, .f32⟩ : BufTy).Contents (Elt Ideal)) (x1 : (⟨S8192x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 x8 x9 x10 x11 : (⟨S128, .f32⟩ : BufTy).Contents (Elt Ideal))
    (x12 : (⟨S128x512, .f32⟩ : BufTy).Contents (Elt Ideal)) (x13 : (⟨S512, .f32⟩ : BufTy).Contents (Elt Ideal))
    (x14 : (⟨S512x512, .f32⟩ : BufTy).Contents (Elt Ideal)) (x15 : (⟨S512, .f32⟩ : BufTy).Contents (Elt Ideal))
    (x16 : (⟨S512x128, .f32⟩ : BufTy).Contents (Elt Ideal)) (x17 : (⟨S128, .f32⟩ : BufTy).Contents (Elt Ideal)) :
    val_main_v121 (F := Ideal) x0 x1 x2 x3 x4 x5 x6 x7 x8 x9 x10 x11 x12 x13 x14 x15 x16 x17
      = Cert.Spec.result x0 x1 x2 x3 x4 x5 x6 x7 x8 x9 x10 x11 x12 x13 x14 x15 x16 x17 := by
  funext i
  obtain ⟨r, c, rfl⟩ : ∃ (r : Fin 16384) (c : Fin 128), i = ix2 r c := ⟨i 0, i 1, eq_ix2 i⟩
  have hq : (fun c' : Fin 128 => val_main_v51 (F := Ideal) x0 x2 x3 x8 x9 (ix2 r c'))
      = Cert.Spec.query (fun k => x0 (ix2 r k)) (fun k => x8 (ix1 k)) (fun k => x9 (ix1 k)) (fun k c => x2 (ix2 k c))
          (fun c => x3 (ix1 c)) := funext fun c' => v51_apply x0 x2 x3 x8 x9 r c'
  have hk : (fun (j' : Fin 8192) (c' : Fin 128) => val_main_v55 (F := Ideal) x1 x4 x5 x10 x11 (ix2 j' c'))
      = Cert.Spec.kv (fun j k => x1 (ix2 j k)) (fun k => x10 (ix1 k)) (fun k => x11 (ix1 k)) (fun k c => x4 (ix2 k c))
          (fun c => x5 (ix1 c)) := funext fun j' => funext fun c' => v55_apply x1 x4 x5 x10 x11 j' c'
  have hv : (fun (j' : Fin 8192) (d' : Fin 128) => val_main_v59 (F := Ideal) x1 x6 x7 x10 x11 (ix2 j' d'))
      = Cert.Spec.kv (fun j k => x1 (ix2 j k)) (fun k => x10 (ix1 k)) (fun k => x11 (ix1 k)) (fun k c => x6 (ix2 k c))
          (fun c => x7 (ix1 c)) := funext fun j' => funext fun d' => v59_apply x1 x6 x7 x10 x11 j' d'
  rw [v121_apply, hq, hk, hv]
  rfl

/-- Every execution of the reference ends with the specified function of the arguments in the result array, and the
    arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v121)
        = Cert.Spec.result (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
      ⟨(h c).1.trans ((val_main_v121_eq m c).trans (v121_eq_result _ _ _ _ _ _ _ _ _ _ _ _ _ _ _ _ _ _)), (h c).2⟩)
    (Cert.ReferenceIdeal.Value.run (F := Ideal) m ρ)

end Cert.RefValue

end
-- ==== Proof.lean ====
/-
  The certificate: the fused attention + perceptron kernel against its jnp reference, on the extended reals.

  Both programs compute, for x [16384,128] and y [8192,128]: keys and values as dense maps of the batch-normalised y,
  queries as a dense map of the layer-normalised x, for every query row the attention over all 8192 keys with weights
  (0.1·relu(score) + softmax(score)) normalised by their sum, then z1 = attention + x and the result
  perceptron(layer norm z1) + z1 (`Cert.Spec.result`). The reference does this in two passes over whole arrays. The
  kernel does it in two regions: the first writes the key and value arrays; the second, for each block of 1024 query
  rows, walks the keys in eight blocks of 1024 carrying a running maximum, an exp-sum and an exp-weighted accumulator
  rescaled to the new maximum at every block, and a relu-sum and relu-weighted accumulator that need no rescaling, and
  ends with (0.1·acc_relu + acc_exp/l)/(0.1·r + 1). For real-valued scores and values the two are the same number:
  exp(M − M')·exp(s − M) = exp(s − M'), the final running maximum is the row maximum, and Σ softmax = 1 turns the
  reference's normaliser Σ(0.1·relu + softmax) into 0.1·r + 1. Finite inputs make every score and value real (the
  variances are non-negative reals, the variance offset is positive). Everything else — layer norm, batch norm, the
  dense maps, the perceptron — is the same arithmetic in the same order on both sides, read index by index.

  The three frames are the generated frame runs (the reference's with its result dropped); the idealization ledger is
  empty.
-/
import proofs.«161096_j60911226192506_2_alg».proof.Defs
import proofs.«161096_j60911226192506_2_alg».proof.Proof.Gen.Kernel
import proofs.«161096_j60911226192506_2_alg».proof.Proof.Gen.Kernel.Frame
import proofs.«161096_j60911226192506_2_alg».proof.Proof.Gen.KernelIdeal
import proofs.«161096_j60911226192506_2_alg».proof.Proof.Gen.KernelIdeal.Frame
import proofs.«161096_j60911226192506_2_alg».proof.Proof.Gen.ReferenceIdeal
import proofs.«161096_j60911226192506_2_alg».proof.Proof.Gen.ReferenceIdeal.Run
import proofs.«161096_j60911226192506_2_alg».proof.Proof.Gen.Pre_finite_inputs
import proofs.«161096_j60911226192506_2_alg».proof.Proof.KValue
import proofs.«161096_j60911226192506_2_alg».proof.Proof.RefResult

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the result array at `Cert.Spec.result` of the arguments. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Value.result_eq m ρ hpre c), (h c).2⟩)
      (Cert.KernelIdeal.Value.run_result m ρ)
  · refine (θ_run Cert.ReferenceIdeal.defs _ _).mono (fun r h c => ⟨(h c).1.trans ?_, (h c).2⟩)
      (Cert.RefValue.run_result m' ρ')
    obtain ⟨a0, a1, a2, a3, a4, a5, a6, a7, a8, a9, a10, a11, a12, a13, a14, a15, a16, a17⟩ := hagree c
    rw [a0, a1, a2, a3, a4, a5, a6, a7, a8, a9, a10, a11, a12, a13, a14, a15, a16, a17]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
